-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048 : Shape := ⟨2, ![8, 2048]⟩
abbrev S8x1024 : Shape := ⟨2, ![8, 1024]⟩
abbrev S1x1x1024 : Shape := ⟨3, ![1, 1, 1024]⟩
abbrev S8x1024x2048 : Shape := ⟨3, ![8, 1024, 2048]⟩
abbrev S8x1024x1024 : Shape := ⟨3, ![8, 1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1x1x1024 : S_.BroadcastsInDim S1x1x1024 (![] : Fin 0 → Fin S1x1x1024.rank)
  reducesTo_S1x1x1024_S_d0_1_2 : S1x1x1024.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn_part1 {F : FTy → Type} [FloatOps F] (main_arg5 : FVec F S8x1024x2048 .f32) (main_arg6 : FVec F S8x2048x1024 .f32) (main_arg7 : FVec F S8x1024x1024 .f32) (main_v13 : IVec S_ 1) (main_v16 : IVec S1x1x1024 1) : IVec S_ 1 :=
  let main_c_5 : IVec S_ 1 := constantI S_ 1 1#1
  let main_v17 : IVec S_ 1 := (fun x v => Host.reduce IntOp.andi x v reducesTo_S1x1x1024_S_d0_1_2 h_S_) main_v16 main_c_5
  let main_v18 : IVec S_ 1 := andi main_v13 main_v17
  let main_v19 : FVec F S8x1024x2048 .f32 := Host.absf main_arg5
  let main_cst_6 : FVec F S_ .f32 := constant S_ .f32 0x7F800000#32
  let main_v20 : FVec F S8x1024x2048 .f32 := broadcastInDim S8x1024x2048 ![] bcast_S_S8x1024x2048 main_cst_6
  let main_v21 : IVec S8x1024x2048 1 := cmpf .olt main_v19 main_v20
  let main_c_7 : IVec S_ 1 := constantI S_ 1 1#1
  let main_v22 : IVec S_ 1 := (fun x v => Host.reduce IntOp.andi x v reducesTo_S8x1024x2048_S_d0_1_2 h_S_) main_v21 main_c_7
  let main_v23 : IVec S_ 1 := andi main_v18 main_v22
  let main_v24 : FVec F S8x2048x1024 .f32 := Host.absf main_arg6
  let main_cst_8 : FVec F S_ .f32 := constant S_ .f32 0x7F800000#32
  let main_v25 : FVec F S8x2048x1024 .f32 := broadcastInDim S8x2048x1024 ![] bcast_S_S8x2048x1024 main_cst_8
  let main_v26 : IVec S8x2048x1024 1 := cmpf .olt main_v24 main_v25
  let main_c_9 : IVec S_ 1 := constantI S_ 1 1#1
  let main_v27 : IVec S_ 1 := (fun x v => Host.reduce IntOp.andi x v reducesTo_S8x2048x1024_S_d0_1_2 h_S_) main_v26 main_c_9
  let main_v28 : IVec S_ 1 := andi main_v23 main_v27
  let main_v29 : FVec F S8x1024x1024 .f32 := Host.absf main_arg7
  let main_cst_10 : FVec F S_ .f32 := constant S_ .f32 0x7F800000#32
  let main_v30 : FVec F S8x1024x1024 .f32 := broadcastInDim S8x1024x1024 ![] bcast_S_S8x1024x1024 main_cst_10
  let main_v31 : IVec S8x1024x1024 1 := cmpf .olt main_v29 main_v30
  let main_c_11 : IVec S_ 1 := constantI S_ 1 1#1
  let main_v32 : IVec S_ 1 := (fun x v => Host.reduce IntOp.andi x v reducesTo_S8x1024x1024_S_d0_1_2 h_S_) main_v31 main_c_11
  let main_v33 : IVec S_ 1 := andi main_v28 main_v32
  main_v33

def fn {F : FTy → Type} [FloatOps F] (main_arg0 : FVec F S8x2048x1024 .f32) (main_arg1 : IVec S8x2048 32) (main_arg2 : FVec F S8x1024 .f32) (main_arg3 : FVec F S1x1x1024 .f32) (main_arg4 : FVec F S1x1x1024 .f32) (main_arg5 : FVec F S8x1024x2048 .f32) (main_arg6 : FVec F S8x2048x1024 .f32) (main_arg7 : FVec F S8x1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1x1x1024 .f32 := Host.absf main_arg3
  let main_cst_2 : FVec F S_ .f32 := constant S_ .f32 0x7F800000#32
  let main_v10 : FVec F S1x1x1024 .f32 := broadcastInDim S1x1x1024 ![] bcast_S_S1x1x1024 main_cst_2
  let main_v11 : IVec S1x1x1024 1 := cmpf .olt main_v9 main_v10
  let main_c_3 : IVec S_ 1 := constantI S_ 1 1#1
  let main_v12 : IVec S_ 1 := (fun x v => Host.reduce IntOp.andi x v reducesTo_S1x1x1024_S_d0_1_2 h_S_) main_v11 main_c_3
  let main_v13 : IVec S_ 1 := andi main_v8 main_v12
  let main_v14 : FVec F S1x1x1024 .f32 := Host.absf main_arg4
  let main_cst_4 : FVec F S_ .f32 := constant S_ .f32 0x7F800000#32
  let main_v15 : FVec F S1x1x1024 .f32 := broadcastInDim S1x1x1024 ![] bcast_S_S1x1x1024 main_cst_4
  let main_v16 : IVec S1x1x1024 1 := cmpf .olt main_v14 main_v15
  fn_part1 (F := F) main_arg5 main_arg6 main_arg7 main_v13 main_v16
-- ==== Kernel.lean ====
abbrev S8x2048x1024 : Shape := ⟨3, ![8, 2048, 1024]⟩
abbrev S8x2048 : Shape := ⟨2, ![8, 2048]⟩
abbrev S8x1024 : Shape := ⟨2, ![8, 1024]⟩
abbrev S1x1x1024 : Shape := ⟨3, ![1, 1, 1024]⟩
abbrev S8x1024x2048 : Shape := ⟨3, ![8, 1024, 2048]⟩
abbrev S8x1024x1024 : Shape := ⟨3, ![8, 1024, 1024]⟩
abbrev S8x1x1024 : Shape := ⟨3, ![8, 1, 1024]⟩
abbrev S8x2047x1024 : Shape := ⟨3, ![8, 2047, 1024]⟩
abbrev S16384 : Shape := ⟨1, ![16384]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x1x1 : Shape := ⟨3, ![16384, 1, 1]⟩
abbrev S1 : Shape := ⟨1, ![1]⟩
abbrev S1x1x1 : Shape := ⟨3, ![1, 1, 1]⟩
abbrev S16385 : Shape := ⟨1, ![16385]⟩
abbrev S8x2048x2048 : Shape := ⟨3, ![8, 2048, 2048]⟩
abbrev S16384x2048 : Shape := ⟨2, ![16384, 2048]⟩
abbrev S1x2048 : Shape := ⟨2, ![1, 2048]⟩
abbrev S16385x2048 : Shape := ⟨2, ![16385, 2048]⟩
abbrev S1x256x2048 : Shape := ⟨3, ![1, 256, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S256x2048 : Shape := ⟨2, ![256, 2048]⟩
abbrev S256x1024 : Shape := ⟨2, ![256, 1024]⟩
abbrev S1024x2048 : Shape := ⟨2, ![1024, 2048]⟩
abbrev S2048x1024 : Shape := ⟨2, ![2048, 1024]⟩
abbrev S1024x1024 : Shape := ⟨2, ![1024, 1024]⟩
abbrev S16384x1024 : Shape := ⟨2, ![16384, 1024]⟩
abbrev S1x1024 : Shape := ⟨2, ![1, 1024]⟩
abbrev S16385x1024 : Shape := ⟨2, ![16385, 1024]⟩

abbrev nBuf : Space → Nat
  | .hbm => 142
  | .vmem => 10
  | .smem => 0
  | _ => 0

abbrev hbmTy0_0 (i : Nat) : BufTy := match i % 128 with
  | 0 => ⟨S8x2048x1024, .f32⟩
  | 1 => ⟨S8x2048, .i32⟩
  | 2 => ⟨S8x1024, .f32⟩
  | 3 => ⟨S1x1x1024, .f32⟩
  | 4 => ⟨S1x1x1024, .f32⟩
  | 5 => ⟨S8x1024x2048, .f32⟩
  | 6 => ⟨S8x2048x1024, .f32⟩
  | 7 => ⟨S8x1024x1024, .f32⟩
  | 8 => ⟨S8x1x1024, .f32⟩
  | 9 => ⟨S8x2047x1024, .f32⟩
  | 10 => ⟨S8x2048x1024, .f32⟩
  | 11 => ⟨S8x2048x1024, .f32⟩
  | 12 => ⟨S8x2048x1024, .f32⟩
  | 13 => ⟨S8x2048x1024, .f32⟩
  | 14 => ⟨S8x2048x1024, .f32⟩
  | 15 => ⟨S8x2048x1024, .bf16⟩
  | 16 => ⟨S8x2048x1024, .f32⟩
  | 17 => ⟨S8x2048x1024, .f32⟩
  | 18 => ⟨S8x2048x1024, .f32⟩
  | 19 => ⟨S8x2048x1024, .bf16⟩
  | 20 => ⟨S16384, .i32⟩
  | 21 => ⟨S_, .i32⟩
  | 22 => ⟨S16384, .i32⟩
  | 23 => ⟨S16384, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S16384, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i1⟩
  | 38 => ⟨S_, .i32⟩
  | 39 => ⟨S_, .i1⟩
  | 40 => ⟨S16384, .i1⟩
  | 41 => ⟨S16384, .i1⟩
  | 42 => ⟨S16384, .i1⟩
  | 43 => ⟨S16384, .i32⟩
  | 44 => ⟨S16384, .i32⟩
  | 45 => ⟨S16384, .i32⟩
  | 46 => ⟨S16384x1, .i32⟩
  | 47 => ⟨S1x8, .i32⟩
  | 48 => ⟨S16384x8, .i32⟩
  | 49 => ⟨S16384x8, .i32⟩
  | 50 => ⟨S16384x8, .i1⟩
  | 51 => ⟨S16384x8, .i32⟩
  | 52 => ⟨S_, .i32⟩
  | 53 => ⟨S_, .i32⟩
  | 54 => ⟨S16384x8, .i32⟩
  | 55 => ⟨S_, .i32⟩
  | 56 => ⟨S16384x8, .i32⟩
  | 57 => ⟨S16384x8, .i32⟩
  | 58 => ⟨S16384x1, .i32⟩
  | 59 => ⟨S_, .i32⟩
  | 60 => ⟨S16384x1, .i32⟩
  | 61 => ⟨S16384x1, .i1⟩
  | 62 => ⟨S_, .i32⟩
  | 63 => ⟨S16384x1, .i32⟩
  | 64 => ⟨S16384x1, .i32⟩
  | 65 => ⟨S16384x1, .i32⟩
  | 66 => ⟨S16384x1x1, .i32⟩
  | 67 => ⟨S1, .i32⟩
  | 68 => ⟨S_, .i32⟩
  | 69 => ⟨S16384x1x1, .i32⟩
  | 70 => ⟨S16384x1x1, .i1⟩
  | 71 => ⟨S1x1x1, .i32⟩
  | 72 => ⟨S16384x1x1, .i32⟩
  | 73 => ⟨S16384x1x1, .i1⟩
  | 74 => ⟨S16384x1x1, .i1⟩
  | 75 => ⟨S_, .i1⟩
  | 76 => ⟨S16384x1, .i1⟩
  | 77 => ⟨S16384x1, .i32⟩
  | 78 => ⟨S_, .i32⟩
  | 79 => ⟨S16384x1, .i32⟩
  | 80 => ⟨S16384x1, .i32⟩
  | 81 => ⟨S16384, .i32⟩
  | 82 => ⟨S_, .i32⟩
  | 83 => ⟨S16384, .i32⟩
  | 84 => ⟨S16384, .i1⟩
  | 85 => ⟨S_, .i32⟩
  | 86 => ⟨S16384, .i32⟩
  | 87 => ⟨S16384, .i32⟩
  | 88 => ⟨S16384, .i32⟩
  | 89 => ⟨S_, .i32⟩
  | 90 => ⟨S_, .i32⟩
  | 91 => ⟨S16384, .i32⟩
  | 92 => ⟨S16384, .i32⟩
  | 93 => ⟨S_, .i32⟩
  | 94 => ⟨S16385, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S16385, .i32⟩
  | 105 => ⟨S16384, .i32⟩
  | 106 => ⟨S8x2048x2048, .bf16⟩
  | 107 => ⟨S16384x2048, .bf16⟩
  | 108 => ⟨S_, .bf16⟩
  | 109 => ⟨S1x2048, .bf16⟩
  | 110 => ⟨S16385x2048, .bf16⟩
  | 111 => ⟨S_, .i32⟩
  | 112 => ⟨S16384, .i32⟩
  | 113 => ⟨S16384, .i1⟩
  | 114 => ⟨S_, .i32⟩
  | 115 => ⟨S16384, .i32⟩
  | 116 => ⟨S16384, .i32⟩
  | 117 => ⟨S16384, .i32⟩
  | 118 => ⟨S16384x1, .i32⟩
  | 119 => ⟨S16384x2048, .bf16⟩
  | 120 => ⟨S8x2048x2048, .bf16⟩
  | 121 => ⟨S8x1024x2048, .bf16⟩
  | 122 => ⟨S8x2048x1024, .bf16⟩
  | 123 => ⟨S8x1024x1024, .bf16⟩
  | 124 => ⟨S8x2048x1024, .bf16⟩
  | 125 => ⟨S16384x1024, .bf16⟩
  | 126 => ⟨S_, .bf16⟩
  | 127 => ⟨S1x1024, .bf16⟩
  | _ => ⟨S8x2048x1024, .f32⟩

abbrev hbmTy0_1 (i : Nat) : BufTy := match i % 128 with
  | 0 => ⟨S16385x1024, .bf16⟩
  | 1 => ⟨S_, .i32⟩
  | 2 => ⟨S16384, .i32⟩
  | 3 => ⟨S16384, .i1⟩
  | 4 => ⟨S_, .i32⟩
  | 5 => ⟨S16384, .i32⟩
  | 6 => ⟨S16384, .i32⟩
  | 7 => ⟨S16384, .i32⟩
  | 8 => ⟨S16384x1, .i32⟩
  | 9 => ⟨S16384x1024, .bf16⟩
  | 10 => ⟨S8x2048x1024, .bf16⟩
  | 11 => ⟨S8x2048x1024, .f32⟩
  | 12 => ⟨S8x1x1024, .f32⟩
  | 13 => ⟨S8x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x256x2048, .bf16⟩
  | .local _ .vmem, ⟨1, _⟩ => ⟨S1x256x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x256x1024, .bf16⟩
  | .local _ .vmem, ⟨9, _⟩ => ⟨S1x256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v15 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v16 : Ref sig .tc := ⟨.hbm, 51, rfl⟩
abbrev main_call2_call0_c : Ref sig .tc := ⟨.hbm, 52, rfl⟩
abbrev main_call2_call0_v0 : Ref sig .tc := ⟨.hbm, 53, rfl⟩
abbrev main_v17 : Ref sig .tc := ⟨.hbm, 54, rfl⟩
abbrev main_c_1 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_c_4 : Ref sig .tc := ⟨.hbm, 78, rfl⟩
abbrev main_call3_v14 : Ref sig .tc := ⟨.hbm, 79, rfl⟩
abbrev main_v21 : Ref sig .tc := ⟨.hbm, 80, rfl⟩
abbrev main_v22 : Ref sig .tc := ⟨.hbm, 81, rfl⟩
abbrev main_c_2 : Ref sig .tc := ⟨.hbm, 82, rfl⟩
abbrev main_v23 : Ref sig .tc := ⟨.hbm, 83, rfl⟩
abbrev main_v24 : Ref sig .tc := ⟨.hbm, 84, rfl⟩
abbrev main_c_3 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_c_4 : Ref sig .tc := ⟨.hbm, 89, rfl⟩
abbrev main_call4_v0 : Ref sig .tc := ⟨.hbm, 90, rfl⟩
abbrev main_call4_v1 : Ref sig .tc := ⟨.hbm, 91, rfl⟩
abbrev main_v28 : Ref sig .tc := ⟨.hbm, 92, rfl⟩
abbrev main_c_5 : Ref sig .tc := ⟨.hbm, 93, rfl⟩
abbrev main_v29 : Ref sig .tc := ⟨.hbm, 94, rfl⟩
abbrev main_v30 : Ref sig .tc := ⟨.hbm, 95, rfl⟩
abbrev main_c_6 : Ref sig .tc := ⟨.hbm, 96, rfl⟩
abbrev main_v31 : Ref sig .tc := ⟨.hbm, 97, rfl⟩
abbrev main_v32 : Ref sig .tc := ⟨.hbm, 98, rfl⟩
abbrev main_c_7 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst : Ref sig .tc := ⟨.hbm, 108, rfl⟩
abbrev main_v41 : Ref sig .tc := ⟨.hbm, 109, rfl⟩
abbrev main_v42 : Ref sig .tc := ⟨.hbm, 110, rfl⟩
abbrev main_c_8 : Ref sig .tc := ⟨.hbm, 111, rfl⟩
abbrev main_v43 : Ref sig .tc := ⟨.hbm, 112, rfl⟩
abbrev main_v44 : Ref sig .tc := ⟨.hbm, 113, rfl⟩
abbrev main_c_9 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_cst_10 : Ref sig .tc := ⟨.hbm, 126, rfl⟩
abbrev main_v56 : Ref sig .tc := ⟨.hbm, 127, rfl⟩
abbrev main_v57 : Ref sig .tc := ⟨.hbm, 128, rfl⟩
abbrev main_c_11 : Ref sig .tc := ⟨.hbm, 129, rfl⟩
abbrev main_v58 : Ref sig .tc := ⟨.hbm, 130, rfl⟩
abbrev main_v59 : Ref sig .tc := ⟨.hbm, 131, rfl⟩
abbrev main_c_12 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S8x1024_S8x1x1024_0_2 : S8x1024.BroadcastsInDim S8x1x1024 (![0, 2] : Fin 2 → Fin S8x1x1024.rank)
  slices_S8x2048x1024_S8x2047x1024_0_0_0 : S8x2048x1024.Slices ![0, 0, 0] S8x2047x1024
  concatenates_S8x1x1024_S8x2047x1024_S8x2048x1024_d1 : Shape.Concatenates [S8x1x1024, S8x2047x1024] S8x2048x1024 1
  bcast_S1x1x1024_S8x2048x1024_0_1_2 : S1x1x1024.BroadcastsInDim S8x2048x1024 (![0, 1, 2] : Fin 3 → Fin S8x2048x1024.rank)
  bitsLt_bf16_f32 : FTy.bits .bf16 < FTy.bits .f32
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  natLt_1_32 : 1 < 32
  bcast_S_S_ : S_.BroadcastsInDim S_ (![] : Fin 0 → Fin S_.rank)
  reduceWindows_S16384x8_S16384x8_w16384s1p16383_0_w1s1p0_0 : S16384x8.ReduceWindows (![16384, 1] : Fin 2 → Nat) ![1, 1] ![16383, 0] ![0, 0] S16384x8
  h_S_ : 0 < S_.numel
  bcast_S_S16384x8 : S_.BroadcastsInDim S16384x8 (![] : Fin 0 → Fin S16384x8.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16385 : S_.BroadcastsInDim S16385 (![] : Fin 0 → Fin S16385.rank)
  slices_S16385_S16384_0 : S16385.Slices ![0] S16384
  concatenates_S8x2048x1024_S8x2048x1024_S8x2048x2048_d2 : Shape.Concatenates [S8x2048x1024, S8x2048x1024] S8x2048x2048 2
  shapeCasts_S8x2048x2048_S16384x2048 : S8x2048x2048.ShapeCasts S16384x2048
  bcast_S_S1x2048 : S_.BroadcastsInDim S1x2048 (![] : Fin 0 → Fin S1x2048.rank)
  concatenates_S16384x2048_S1x2048_S16385x2048_d0 : Shape.Concatenates [S16384x2048, S1x2048] S16385x2048 0
  shapeCasts_S16384x2048_S8x2048x2048 : S16384x2048.ShapeCasts S8x2048x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  slices_S256x2048_o0_0_S256x1024 : S256x2048.Slices ![0, 0] S256x1024
  slices_S256x2048_o0_1024_S256x1024 : S256x2048.Slices ![0, 1024] S256x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  shapeCasts_S8x2048x1024_S16384x1024 : S8x2048x1024.ShapeCasts S16384x1024
  bcast_S_S1x1024 : S_.BroadcastsInDim S1x1024 (![] : Fin 0 → Fin S1x1024.rank)
  concatenates_S16384x1024_S1x1024_S16385x1024_d0 : Shape.Concatenates [S16384x1024, S1x1024] S16385x1024 0
  shapeCasts_S16384x1024_S8x2048x1024 : S16384x1024.ShapeCasts S8x2048x1024
  slices_S8x2048x1024_S8x1x1024_0_2047_0 : S8x2048x1024.Slices ![0, 2047, 0] S8x1x1024
  shapeCasts_S8x1x1024_S8x1024 : S8x1x1024.ShapeCasts S8x1024
  gather_S16384x8_S16384x1x1_S16384x1_n_1_0_0_1_2_11_wf : GatherDims.WF S16384x8 S16384x1x1 S16384x1 [] [1] [0] [1] [0] 2 ![1, 1]
  scatter_S16385_S16384x1_S16384_n_0_0_1_wf : ScatterDims.WF S16385 S16384x1 S16384 [] [0] [0] 1
  gather_S16385x2048_S16384x1_S16384x2048_1_0_n_n_0_1_12048_wf : GatherDims.WF S16385x2048 S16384x1 S16384x2048 [1] [0] [] [0] [] 1 ![1, 2048]
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  gather_S16385x1024_S16384x1_S16384x1024_1_0_n_n_0_1_11024_wf : GatherDims.WF S16385x1024 S16384x1 S16384x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .bf16 = 32 ∨ (Rect.block (s := S8x2048x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .bf16 = 32 ∨ (Rect.block (s := S8x1024x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .bf16 = 32 ∨ (Rect.block (s := S8x1024x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S8x2048x1024.size a
  hwx0_4 : ∀ i : grid0.Coords, EltTy.bits .bf16 = 32 ∨ (Rect.block (s := S8x2048x1024) S1x256x1024.size (cc0_transform_4 i) (hinb0_4 i)).WholeWords (EltTy.packing .bf16)

variable [Facts₀]

def gather_S16384x8_S16384x1x1_S16384x1_n_1_0_0_1_2_11 : GatherDims S16384x8 S16384x1x1 S16384x1 where
  offsetDims := []
  collapsedSliceDims := [1]
  operandBatchingDims := [0]
  startIndicesBatchingDims := [0]
  startIndexMap := [1]
  indexVectorDim := 2
  sliceSizes := ![1, 1]
  wf := gather_S16384x8_S16384x1x1_S16384x1_n_1_0_0_1_2_11_wf
def scatter_S16385_S16384x1_S16384_n_0_0_1 : ScatterDims S16385 S16384x1 S16384 where
  updateWindowDims := []
  insertedWindowDims := [0]
  scatterDimsToOperandDims := [0]
  indexVectorDim := 1
  wf := scatter_S16385_S16384x1_S16384_n_0_0_1_wf
def gather_S16385x2048_S16384x1_S16384x2048_1_0_n_n_0_1_12048 : GatherDims S16385x2048 S16384x1 S16384x2048 where
  offsetDims := [1]
  collapsedSliceDims := [0]
  operandBatchingDims := []
  startIndicesBatchingDims := []
  startIndexMap := [0]
  indexVectorDim := 1
  sliceSizes := ![1, 2048]
  wf := gather_S16385x2048_S16384x1_S16384x2048_1_0_n_n_0_1_12048_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def gather_S16385x1024_S16384x1_S16384x1024_1_0_n_n_0_1_11024 : GatherDims S16385x1024 S16384x1 S16384x1024 where
  offsetDims := [1]
  collapsedSliceDims := [0]
  operandBatchingDims := []
  startIndicesBatchingDims := []
  startIndexMap := [0]
  indexVectorDim := 1
  sliceSizes := ![1, 1024]
  wf := gather_S16385x1024_S16384x1_S16384x1024_1_0_n_n_0_1_11024_wf

abbrev win0_0 : Pipeline.Window sig grid0 :=
  Pipeline.Window.ofSpec (Memref.whole main_v50) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v54) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048 : Shape := ⟨2, ![8, 2048]⟩
abbrev S8x1024 : Shape := ⟨2, ![8, 1024]⟩
abbrev S1x1x1024 : Shape := ⟨3, ![1, 1, 1024]⟩
abbrev S8x1024x2048 : Shape := ⟨3, ![8, 1024, 2048]⟩
abbrev S8x1024x1024 : Shape := ⟨3, ![8, 1024, 1024]⟩
abbrev S8x1x1024 : Shape := ⟨3, ![8, 1, 1024]⟩
abbrev S8x2047x1024 : Shape := ⟨3, ![8, 2047, 1024]⟩
abbrev S16384 : Shape := ⟨1, ![16384]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x1x1 : Shape := ⟨3, ![16384, 1, 1]⟩
abbrev S1 : Shape := ⟨1, ![1]⟩
abbrev S1x1x1 : Shape := ⟨3, ![1, 1, 1]⟩
abbrev S16385x1024 : Shape := ⟨2, ![16385, 1024]⟩
abbrev S16384x1024 : Shape := ⟨2, ![16384, 1024]⟩
abbrev S8x2048x2048 : Shape := ⟨3, ![8, 2048, 2048]⟩
abbrev S1x1024 : Shape := ⟨2, ![1, 1024]⟩

abbrev nBuf : Space → Nat
  | .hbm => 165
  | .vmem => 0
  | .smem => 0
  | _ => 0

abbrev hbmTy0_0 (i : Nat) : BufTy := match i % 128 with
  | 0 => ⟨S8x2048x1024, .f32⟩
  | 1 => ⟨S8x2048, .i32⟩
  | 2 => ⟨S8x1024, .f32⟩
  | 3 => ⟨S1x1x1024, .f32⟩
  | 4 => ⟨S1x1x1024, .f32⟩
  | 5 => ⟨S8x1024x2048, .f32⟩
  | 6 => ⟨S8x2048x1024, .f32⟩
  | 7 => ⟨S8x1024x1024, .f32⟩
  | 8 => ⟨S8x1x1024, .f32⟩
  | 9 => ⟨S8x2047x1024, .f32⟩
  | 10 => ⟨S8x2048x1024, .f32⟩
  | 11 => ⟨S8x2048x1024, .f32⟩
  | 12 => ⟨S8x2048x1024, .f32⟩
  | 13 => ⟨S8x2048x1024, .f32⟩
  | 14 => ⟨S8x2048x1024, .f32⟩
  | 15 => ⟨S8x2048x1024, .f32⟩
  | 16 => ⟨S8x2048x1024, .f32⟩
  | 17 => ⟨S8x2048x1024, .f32⟩
  | 18 => ⟨S16384, .i32⟩
  | 19 => ⟨S_, .i32⟩
  | 20 => ⟨S16384, .i32⟩
  | 21 => ⟨S16384, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S16384, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i1⟩
  | 36 => ⟨S_, .i32⟩
  | 37 => ⟨S_, .i1⟩
  | 38 => ⟨S16384, .i1⟩
  | 39 => ⟨S16384, .i1⟩
  | 40 => ⟨S16384, .i1⟩
  | 41 => ⟨S16384, .i32⟩
  | 42 => ⟨S16384, .i32⟩
  | 43 => ⟨S16384, .i32⟩
  | 44 => ⟨S16384x1, .i32⟩
  | 45 => ⟨S1x8, .i32⟩
  | 46 => ⟨S16384x8, .i32⟩
  | 47 => ⟨S16384x8, .i32⟩
  | 48 => ⟨S16384x8, .i1⟩
  | 49 => ⟨S16384x8, .i32⟩
  | 50 => ⟨S_, .i32⟩
  | 51 => ⟨S_, .i32⟩
  | 52 => ⟨S16384x8, .i32⟩
  | 53 => ⟨S_, .i32⟩
  | 54 => ⟨S16384x8, .i32⟩
  | 55 => ⟨S16384x8, .i32⟩
  | 56 => ⟨S16384x1, .i32⟩
  | 57 => ⟨S_, .i32⟩
  | 58 => ⟨S16384x1, .i32⟩
  | 59 => ⟨S16384x1, .i1⟩
  | 60 => ⟨S_, .i32⟩
  | 61 => ⟨S16384x1, .i32⟩
  | 62 => ⟨S16384x1, .i32⟩
  | 63 => ⟨S16384x1, .i32⟩
  | 64 => ⟨S16384x1x1, .i32⟩
  | 65 => ⟨S1, .i32⟩
  | 66 => ⟨S_, .i32⟩
  | 67 => ⟨S16384x1x1, .i32⟩
  | 68 => ⟨S16384x1x1, .i1⟩
  | 69 => ⟨S1x1x1, .i32⟩
  | 70 => ⟨S16384x1x1, .i32⟩
  | 71 => ⟨S16384x1x1, .i1⟩
  | 72 => ⟨S16384x1x1, .i1⟩
  | 73 => ⟨S_, .i1⟩
  | 74 => ⟨S16384x1, .i1⟩
  | 75 => ⟨S16384x1, .i32⟩
  | 76 => ⟨S_, .i32⟩
  | 77 => ⟨S16384x1, .i32⟩
  | 78 => ⟨S16384x1, .i32⟩
  | 79 => ⟨S16384, .i32⟩
  | 80 => ⟨S_, .i32⟩
  | 81 => ⟨S16384, .i32⟩
  | 82 => ⟨S16384, .i1⟩
  | 83 => ⟨S_, .i32⟩
  | 84 => ⟨S16384, .i32⟩
  | 85 => ⟨S16384, .i32⟩
  | 86 => ⟨S16384, .i32⟩
  | 87 => ⟨S_, .i32⟩
  | 88 => ⟨S_, .i32⟩
  | 89 => ⟨S16384, .i32⟩
  | 90 => ⟨S16384, .i32⟩
  | 91 => ⟨S_, .f32⟩
  | 92 => ⟨S16385x1024, .f32⟩
  | 93 => ⟨S16384x1024, .f32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S16385x1024, .f32⟩
  | 103 => ⟨S16384x1024, .f32⟩
  | 104 => ⟨S8x2048x1024, .f32⟩
  | 105 => ⟨S8x2048x2048, .f32⟩
  | 106 => ⟨S_, .f32⟩
  | 107 => ⟨S8x2048x2048, .f32⟩
  | 108 => ⟨S8x2048x2048, .f32⟩
  | 109 => ⟨S8x2048x2048, .f32⟩
  | 110 => ⟨S8x2048x1024, .f32⟩
  | 111 => ⟨S16384x1024, .f32⟩
  | 112 => ⟨S_, .f32⟩
  | 113 => ⟨S1x1024, .f32⟩
  | 114 => ⟨S16385x1024, .f32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S16384x1024, .f32⟩
  | 124 => ⟨S8x2048x1024, .f32⟩
  | 125 => ⟨S_, .f32⟩
  | 126 => ⟨S16385x1024, .f32⟩
  | 127 => ⟨S16384x1024, .f32⟩
  | _ => ⟨S8x2048x1024, .f32⟩

abbrev hbmTy0_1 (i : Nat) : BufTy := match i % 128 with
  | 0 => ⟨S_, .i32⟩
  | 1 => ⟨S16384, .i32⟩
  | 2 => ⟨S16384, .i1⟩
  | 3 => ⟨S_, .i32⟩
  | 4 => ⟨S16384, .i32⟩
  | 5 => ⟨S16384, .i32⟩
  | 6 => ⟨S16384, .i32⟩
  | 7 => ⟨S16384x1, .i32⟩
  | 8 => ⟨S16385x1024, .f32⟩
  | 9 => ⟨S16384x1024, .f32⟩
  | 10 => ⟨S8x2048x1024, .f32⟩
  | 11 => ⟨S8x2048x1024, .f32⟩
  | 12 => ⟨S8x2048x1024, .f32⟩
  | 13 => ⟨S8x2048x1024, .f32⟩
  | 14 => ⟨S_, .f32⟩
  | 15 => ⟨S8x2048x1024, .f32⟩
  | 16 => ⟨S8x2048x1024, .f32⟩
  | 17 => ⟨S_, .f32⟩
  | 18 => ⟨S8x2048x1024, .f32⟩
  | 19 => ⟨S8x2048x1024, .f32⟩
  | 20 => ⟨S16384x1024, .f32⟩
  | 21 => ⟨S_, .f32⟩
  | 22 => ⟨S1x1024, .f32⟩
  | 23 => ⟨S16385x1024, .f32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S16384x1024, .f32⟩
  | 33 => ⟨S8x2048x1024, .f32⟩
  | 34 => ⟨S8x2048x1024, .f32⟩
  | 35 => ⟨S8x1x1024, .f32⟩
  | 36 => ⟨S8x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v13 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v14 : Ref sig .tc := ⟨.hbm, 49, rfl⟩
abbrev main_call2_call0_c : Ref sig .tc := ⟨.hbm, 50, rfl⟩
abbrev main_call2_call0_v0 : Ref sig .tc := ⟨.hbm, 51, rfl⟩
abbrev main_v15 : Ref sig .tc := ⟨.hbm, 52, rfl⟩
abbrev main_c_1 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_c_1 : Ref sig .tc := ⟨.hbm, 65, rfl⟩
abbrev main_call3_c_2 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_3 : Ref sig .tc := ⟨.hbm, 73, rfl⟩
abbrev main_call3_v12 : Ref sig .tc := ⟨.hbm, 74, rfl⟩
abbrev main_call3_v13 : Ref sig .tc := ⟨.hbm, 75, rfl⟩
abbrev main_call3_c_4 : Ref sig .tc := ⟨.hbm, 76, rfl⟩
abbrev main_call3_v14 : Ref sig .tc := ⟨.hbm, 77, rfl⟩
abbrev main_v19 : Ref sig .tc := ⟨.hbm, 78, rfl⟩
abbrev main_v20 : Ref sig .tc := ⟨.hbm, 79, rfl⟩
abbrev main_c_2 : Ref sig .tc := ⟨.hbm, 80, rfl⟩
abbrev main_v21 : Ref sig .tc := ⟨.hbm, 81, rfl⟩
abbrev main_v22 : Ref sig .tc := ⟨.hbm, 82, rfl⟩
abbrev main_c_3 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_c_4 : Ref sig .tc := ⟨.hbm, 87, rfl⟩
abbrev main_call4_v0 : Ref sig .tc := ⟨.hbm, 88, rfl⟩
abbrev main_call4_v1 : Ref sig .tc := ⟨.hbm, 89, rfl⟩
abbrev main_v26 : Ref sig .tc := ⟨.hbm, 90, rfl⟩
abbrev main_cst : Ref sig .tc := ⟨.hbm, 91, rfl⟩
abbrev main_v27 : Ref sig .tc := ⟨.hbm, 92, rfl⟩
abbrev main_v28 : Ref sig .tc := ⟨.hbm, 93, rfl⟩
abbrev main_c_5 : Ref sig .tc := ⟨.hbm, 94, rfl⟩
abbrev main_v29 : Ref sig .tc := ⟨.hbm, 95, rfl⟩
abbrev main_v30 : Ref sig .tc := ⟨.hbm, 96, rfl⟩
abbrev main_c_6 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_call5_cst : Ref sig .tc := ⟨.hbm, 106, rfl⟩
abbrev main_call5_v0 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_cst_7 : Ref sig .tc := ⟨.hbm, 112, rfl⟩
abbrev main_v43 : Ref sig .tc := ⟨.hbm, 113, rfl⟩
abbrev main_v44 : Ref sig .tc := ⟨.hbm, 114, rfl⟩
abbrev main_c_8 : Ref sig .tc := ⟨.hbm, 115, rfl⟩
abbrev main_v45 : Ref sig .tc := ⟨.hbm, 116, rfl⟩
abbrev main_v46 : Ref sig .tc := ⟨.hbm, 117, rfl⟩
abbrev main_c_9 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_10 : Ref sig .tc := ⟨.hbm, 125, rfl⟩
abbrev main_v53 : Ref sig .tc := ⟨.hbm, 126, rfl⟩
abbrev main_v54 : Ref sig .tc := ⟨.hbm, 127, rfl⟩
abbrev main_c_11 : Ref sig .tc := ⟨.hbm, 128, rfl⟩
abbrev main_v55 : Ref sig .tc := ⟨.hbm, 129, rfl⟩
abbrev main_v56 : Ref sig .tc := ⟨.hbm, 130, rfl⟩
abbrev main_c_12 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_13 : Ref sig .tc := ⟨.hbm, 142, rfl⟩
abbrev main_v67 : Ref sig .tc := ⟨.hbm, 143, rfl⟩
abbrev main_v68 : Ref sig .tc := ⟨.hbm, 144, rfl⟩
abbrev main_cst_14 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_cst_15 : Ref sig .tc := ⟨.hbm, 149, rfl⟩
abbrev main_v72 : Ref sig .tc := ⟨.hbm, 150, rfl⟩
abbrev main_v73 : Ref sig .tc := ⟨.hbm, 151, rfl⟩
abbrev main_c_16 : Ref sig .tc := ⟨.hbm, 152, rfl⟩
abbrev main_v74 : Ref sig .tc := ⟨.hbm, 153, rfl⟩
abbrev main_v75 : Ref sig .tc := ⟨.hbm, 154, rfl⟩
abbrev main_c_17 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  slices_S8x2048x1024_S8x2047x1024_0_0_0 : S8x2048x1024.Slices ![0, 0, 0] S8x2047x1024
  concatenates_S8x1x1024_S8x2047x1024_S8x2048x1024_d1 : Shape.Concatenates [S8x1x1024, S8x2047x1024] S8x2048x1024 1
  bcast_S1x1x1024_S8x2048x1024_0_1_2 : S1x1x1024.BroadcastsInDim S8x2048x1024 (![0, 1, 2] : Fin 3 → Fin S8x2048x1024.rank)
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  natLt_1_32 : 1 < 32
  bcast_S_S_ : S_.BroadcastsInDim S_ (![] : Fin 0 → Fin S_.rank)
  reduceWindows_S16384x8_S16384x8_w16384s1p16383_0_w1s1p0_0 : S16384x8.ReduceWindows (![16384, 1] : Fin 2 → Nat) ![1, 1] ![16383, 0] ![0, 0] S16384x8
  h_S_ : 0 < S_.numel
  bcast_S_S16384x8 : S_.BroadcastsInDim S16384x8 (![] : Fin 0 → Fin S16384x8.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16385x1024 : S_.BroadcastsInDim S16385x1024 (![] : Fin 0 → Fin S16385x1024.rank)
  shapeCasts_S8x2048x1024_S16384x1024 : S8x2048x1024.ShapeCasts S16384x1024
  slices_S16385x1024_S16384x1024_0_0 : S16385x1024.Slices ![0, 0] S16384x1024
  shapeCasts_S16384x1024_S8x2048x1024 : S16384x1024.ShapeCasts S8x2048x1024
  bcast_S_S8x2048x2048 : S_.BroadcastsInDim S8x2048x2048 (![] : Fin 0 → Fin S8x2048x2048.rank)
  bcast_S_S1x1024 : S_.BroadcastsInDim S1x1024 (![] : Fin 0 → Fin S1x1024.rank)
  concatenates_S16384x1024_S1x1024_S16385x1024_d0 : Shape.Concatenates [S16384x1024, S1x1024] S16385x1024 0
  bcast_S_S8x2048x1024 : S_.BroadcastsInDim S8x2048x1024 (![] : Fin 0 → Fin S8x2048x1024.rank)
  slices_S8x2048x1024_S8x1x1024_0_2047_0 : S8x2048x1024.Slices ![0, 2047, 0] S8x1x1024
  shapeCasts_S8x1x1024_S8x1024 : S8x1x1024.ShapeCasts S8x1024
  gather_S16384x8_S16384x1x1_S16384x1_n_1_0_0_1_2_11_wf : GatherDims.WF S16384x8 S16384x1x1 S16384x1 [] [1] [0] [1] [0] 2 ![1, 1]
  scatter_S16385x1024_S16384x1_S16384x1024_1_0_0_1_wf : ScatterDims.WF S16385x1024 S16384x1 S16384x1024 [1] [0] [0] 1
  dot_S8x2048x1024_S8x1024x2048_S8x2048x2048_2_1_1_2_0_0_wf : DotDims.WF S8x2048x1024 S8x1024x2048 S8x2048x2048 [2] [1] [1] [2] [0] [0]
  dot_S8x2048x2048_S8x2048x1024_S8x2048x1024_2_1_1_2_0_0_wf : DotDims.WF S8x2048x2048 S8x2048x1024 S8x2048x1024 [2] [1] [1] [2] [0] [0]
  gather_S16385x1024_S16384x1_S16384x1024_1_0_n_n_0_1_11024_wf : GatherDims.WF S16385x1024 S16384x1 S16384x1024 [1] [0] [] [0] [] 1 ![1, 1024]
  dot_S8x2048x1024_S8x1024x1024_S8x2048x1024_2_1_1_2_0_0_wf : DotDims.WF S8x2048x1024 S8x1024x1024 S8x2048x1024 [2] [1] [1] [2] [0] [0]

variable [Facts₀]

def gather_S16384x8_S16384x1x1_S16384x1_n_1_0_0_1_2_11 : GatherDims S16384x8 S16384x1x1 S16384x1 where
  offsetDims := []
  collapsedSliceDims := [1]
  operandBatchingDims := [0]
  startIndicesBatchingDims := [0]
  startIndexMap := [1]
  indexVectorDim := 2
  sliceSizes := ![1, 1]
  wf := gather_S16384x8_S16384x1x1_S16384x1_n_1_0_0_1_2_11_wf
def scatter_S16385x1024_S16384x1_S16384x1024_1_0_0_1 : ScatterDims S16385x1024 S16384x1 S16384x1024 where
  updateWindowDims := [1]
  insertedWindowDims := [0]
  scatterDimsToOperandDims := [0]
  indexVectorDim := 1
  wf := scatter_S16385x1024_S16384x1_S16384x1024_1_0_0_1_wf
def dot_S8x2048x1024_S8x1024x2048_S8x2048x2048_2_1_1_2_0_0 : DotDims S8x2048x1024 S8x1024x2048 S8x2048x2048 where
  lhsContracting := [2]
  rhsContracting := [1]
  lhsNonContracting := [1]
  rhsNonContracting := [2]
  lhsBatch := [0]
  rhsBatch := [0]
  wf := dot_S8x2048x1024_S8x1024x2048_S8x2048x2048_2_1_1_2_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def gather_S16385x1024_S16384x1_S16384x1024_1_0_n_n_0_1_11024 : GatherDims S16385x1024 S16384x1 S16384x1024 where
  offsetDims := [1]
  collapsedSliceDims := [0]
  operandBatchingDims := []
  startIndicesBatchingDims := []
  startIndexMap := [0]
  indexVectorDim := 1
  sliceSizes := ![1, 1024]
  wf := gather_S16385x1024_S16384x1_S16384x1024_1_0_n_n_0_1_11024_wf
def dot_S8x2048x1024_S8x1024x1024_S8x2048x1024_2_1_1_2_0_0 : DotDims S8x2048x1024 S8x1024x1024 S8x2048x1024 where
  lhsContracting := [2]
  rhsContracting := [1]
  lhsNonContracting := [1]
  rhsNonContracting := [2]
  lhsBatch := [0]
  rhsBatch := [0]
  wf := dot_S8x2048x1024_S8x1024x1024_S8x2048x1024_2_1_1_2_0_0_wf

class Facts : Prop extends Facts₀ where

variable [Facts]
-- ==== Proof.KerTerm.lean ====
/-
  The kernel program's host-side stages as NAMED pure functions, each the composition of the program's own
  operations for that stage in the program's order: the token-shift mixing (rounded to the narrow format on
  the way), the routing from token ids to a row for every token, the inversion of the routing (for every slot the
  token that fills it, or the number 16384 for an empty slot), the lookup of the dispatched rows through that
  inverse, and, after the region, the lookup of every token's output row.
-/
import proofs.«113595_j78640851189970_2_alg».proof.Proof.Gen.KernelIdeal
import Idealize.ShloMosaic.Lib.StableHlo.Run

noncomputable section

namespace Cert.KernelIdeal.KerTerm

open Cert.KernelIdeal Idealize.ShloMosaic Idealize.SL.Sem

variable {F : FTy → Type} [FloatOps F]
variable [Facts]
open Facts₀ Facts

/-! ## Token shift and mixing -/

/-- The previous row minus the row itself: along the time axis the shift state is placed before the first 2047
    rows of x, and x is subtracted. -/
def dx (x : FVec F S8x2048x1024 .f32) (ss : FVec F S8x1024 .f32) : FVec F S8x2048x1024 .f32 :=
  subf
    (concatenate S8x2048x1024 1
      [⟨S8x1x1024, broadcastInDim S8x1x1024 ![0, 2] bcast_S8x1024_S8x1x1024_0_2 ss⟩,
       ⟨S8x2047x1024, extractStridedSlice S8x2047x1024 ![0, 0, 0] x slices_S8x2048x1024_S8x2047x1024_0_0_0⟩]
      concatenates_S8x1x1024_S8x2047x1024_S8x2048x1024_d1)
    x

/-- x + dx · maa with the mixing vector broadcast along the batch and time axes, then rounded to the narrow format. -/
def mix (x : FVec F S8x2048x1024 .f32) (ss : FVec F S8x1024 .f32) (maa : FVec F S1x1x1024 .f32) :
    FVec F S8x2048x1024 .bf16 :=
  truncf .bf16
    (addf x (mulf (dx x ss) (broadcastInDim S8x2048x1024 ![0, 1, 2] bcast_S1x1x1024_S8x2048x1024_0_1_2 maa)))
    bitsLt_bf16_f32

/-! ## Routing: from the token ids to a row for every token -/

/-- The divisor inside @remainder: the constant 8 passed through \`_where\`, which would put 1 in the place of a
    zero divisor. A scalar. -/
def modulus : IVec S_ 32 :=
  select (cmpi .eq (id (constantI S_ 32 8#32)) (constantI S_ 32 0#32)) (constantI S_ 32 1#32)
    (id (constantI S_ 32 8#32))

/-- @remainder's %4: the remainder of the division by the modulus that rounds toward zero. -/
def trem (t : IVec S16384 32) : IVec S16384 32 :=
  Host.remsi t (broadcastInDim S16384 ![] bcast_S_S16384 modulus)

/-- @remainder's result %15: the remainder with the sign of the divisor. Where the truncated remainder is not zero
    and its sign differs from the divisor's, the divisor is added. -/
def pmod (t : IVec S16384 32) : IVec S16384 32 :=
  select
    (andi
      (cmpi .ne
        (cmpi .slt (trem t) (broadcastInDim S16384 ![] bcast_S_S16384 (constantI S_ 32 0#32)))
        (broadcastInDim S16384 ![] bcast_S_S16384 (cmpi .slt modulus (constantI S_ 32 0#32))))
      (cmpi .ne (trem t) (broadcastInDim S16384 ![] bcast_S_S16384 (constantI S_ 32 0#32))))
    (addi (trem t) (broadcastInDim S16384 ![] bcast_S_S16384 modulus))
    (trem t)

/-- %13: the expert of each of the 16384 tokens: its id times 5099, modulo 8. -/
def expert (tok : IVec S8x2048 32) : IVec S16384 32 :=
  pmod (muli (shapeCast S16384 tok shapeCasts_S8x2048_S16384)
    (broadcastInDim S16384 ![] bcast_S_S16384 (constantI S_ 32 5099#32)))

/-- %17: for every token and every expert, how many tokens up to and including this one go to that expert,
    less one. The rows of @_one_hot (1 at the token's expert, 0 elsewhere) summed down the tokens by @cumsum (a
    window of 16384 rows ending at the token, over zero padding), then 1 subtracted. -/
def position (e : IVec S16384 32) : IVec S16384x8 32 :=
  subi
    (Host.reduceWindow IntOp.addi ![16384, 1] ![1, 1] ![16383, 0] ![0, 0]
      (extui 32
        (cmpi .eq
          (broadcastInDim S16384x8 ![0, 1] bcast_S16384x1_S16384x8_0_1
            (broadcastInDim S16384x1 ![0] bcast_S16384_S16384x1_0 e))
          (broadcastInDim S16384x8 ![0, 1] bcast_S1x8_S16384x8_0_1 (iotaInDim S1x8 32 1)))
        natLt_1_32)
      (broadcastInDim S_ ![] bcast_S_S_ (constantI S_ 32 0#32))
      reduceWindows_S16384x8_S16384x8_w16384s1p16383_0_w1s1p0_0 h_S_)
    (broadcastInDim S16384x8 ![] bcast_S_S16384x8 (constantI S_ 32 1#32))

/-- @take_along_axis's %5: the column to read in each row, a negative one moved up by 8, as a [16384, 1, 1] array. -/
def takeIdx (e1 : IVec S16384x1 32) : IVec S16384x1x1 32 :=
  shapeCast S16384x1x1
    (select (cmpi .slt e1 (broadcastInDim S16384x1 ![] bcast_S_S16384x1 (constantI S_ 32 0#32)))
      (addi e1 (broadcastInDim S16384x1 ![] bcast_S_S16384x1 (constantI S_ 32 8#32)))
      e1)
    shapeCasts_S16384x1_S16384x1x1

/-- @take_along_axis: in each row of p the entry at that row's column; the least integer where the column is not
    one of 0 … 7. -/
def takeAt (p : IVec S16384x8 32) (e1 : IVec S16384x1 32) : IVec S16384x1 32 :=
  select
    (Host.reduce IntOp.andi
      (andi
        (cmpi .sge (takeIdx e1) (broadcastInDim S16384x1x1 ![] bcast_S_S16384x1x1 (constantI S_ 32 0#32)))
        (cmpi .sle (takeIdx e1)
          (broadcastInDim S16384x1x1 ![0, 1, 2] bcast_S1x1x1_S16384x1x1_0_1_2
            (broadcastInDim S1x1x1 ![2] bcast_S1_S1x1x1_2 (constantI S1 32 7#32)))))
      (constantI S_ 1 1#1) reducesTo_S16384x1x1_S16384x1_d2 h_S_)
    (Host.gather gather_S16384x8_S16384x1x1_S16384x1_n_1_0_0_1_2_11 p (takeIdx e1))
    (broadcastInDim S16384x1 ![] bcast_S_S16384x1 (constantI S_ 32 2147483648#32))

/-- %20: the place of each token among the tokens of its own expert, counted from 0. -/
def slot (e : IVec S16384 32) : IVec S16384 32 :=
  shapeCast S16384 (takeAt (position e) (broadcastInDim S16384x1 ![0] bcast_S16384_S16384x1_0 e))
    shapeCasts_S16384x1_S16384

/-- %26 from the expert e (%13) and the place s (%20): row e · 2048 + s where s is below the capacity 2048, and
    the extra row 16384 otherwise (@_where_1). -/
def flatOf (e s : IVec S16384 32) : IVec S16384 32 :=
  select (cmpi .slt s (broadcastInDim S16384 ![] bcast_S_S16384 (constantI S_ 32 2048#32)))
    (addi (muli e (broadcastInDim S16384 ![] bcast_S_S16384 (constantI S_ 32 2048#32))) s)
    (broadcastInDim S16384 ![] bcast_S_S16384 (id (constantI S_ 32 16384#32)))

/-- %26: the whole integer chain %10 … %26, from the token ids to the row of every token. -/
def flat (tok : IVec S8x2048 32) : IVec S16384 32 :=
  flatOf (expert tok) (slot (expert tok))

/-- %34 from %26 (the program computes the same again as %50, %60 and %79): a negative row moved up by 16385,
    then the rows as a column. -/
def wrapcol (f : IVec S16384 32) : IVec S16384x1 32 :=
  broadcastInDim S16384x1 ![0] bcast_S16384_S16384x1_0
    (select (cmpi .slt f (broadcastInDim S16384 ![] bcast_S_S16384 (constantI S_ 32 0#32)))
      (addi f (broadcastInDim S16384 ![] bcast_S_S16384 (constantI S_ 32 16385#32)))
      f)

/-- %34 (= %50 = %60 = %79): the column of rows, from the token ids. -/
def rowcol (tok : IVec S8x2048 32) : IVec S16384x1 32 :=
  wrapcol (flat tok)

/-! ## The routing inverted, and the dispatched rows looked up through the inverse -/

/-- For every one of the 16385 rows the number of the token sent there (the last one, were there several), and
    16384 for a row no token is sent to; the extra row dropped. -/
def inv (g : IVec S16384x1 32) : IVec S16384 32 :=
  extractStridedSlice S16384 ![0]
    (Host.scatter scatter_S16385_S16384x1_S16384_n_0_0_1 (fun _ b => b)
      (broadcastInDim S16385 ![] bcast_S_S16385 (constantI S_ 32 16384#32))
      g
      (iotaInDim S16384 32 0))
    slices_S16385_S16384_0

/-- The dispatched activations [8, 2048, 2048]: the key mix and the receptance mix side by side, as 16384 rows with
    a row of zeros appended, slot s reading the row of the token that fills it (the zero row when none does). -/
def dkr (g : IVec S16384x1 32) (xk xr : FVec F S8x2048x1024 .bf16) : FVec F S8x2048x2048 .bf16 :=
  shapeCast S8x2048x2048
    (Host.gather gather_S16385x2048_S16384x1_S16384x2048_1_0_n_n_0_1_12048
      (concatenate S16385x2048 0
        [⟨S16384x2048, shapeCast S16384x2048
            (concatenate S8x2048x2048 2 [⟨S8x2048x1024, xk⟩, ⟨S8x2048x1024, xr⟩]
              concatenates_S8x2048x1024_S8x2048x1024_S8x2048x2048_d2)
            shapeCasts_S8x2048x2048_S16384x2048⟩,
         ⟨S1x2048, broadcastInDim S1x2048 ![] bcast_S_S1x2048 (constant S_ .bf16 0x0000#16)⟩]
        concatenates_S16384x2048_S1x2048_S16385x2048_d0)
      (wrapcol (inv g)))
    shapeCasts_S16384x2048_S8x2048x2048

/-- The region's first operand, from the arguments. -/
def operand0 (x : FVec F S8x2048x1024 .f32) (tok : IVec S8x2048 32) (ss : FVec F S8x1024 .f32)
    (mk mr : FVec F S1x1x1024 .f32) : FVec F S8x2048x2048 .bf16 :=
  dkr (rowcol tok) (mix x ss mk) (mix x ss mr)

/-! ## After the region -/

/-- The first result: the region's output as 16384 rows with a row of zeros appended, token t reading row g t,
    read as [8, 2048, 1024] and widened. -/
def out66 (g : IVec S16384x1 32) (P : FVec F S8x2048x1024 .bf16) : FVec F S8x2048x1024 .f32 :=
  extf .f32
    (shapeCast S8x2048x1024
      (Host.gather gather_S16385x1024_S16384x1_S16384x1024_1_0_n_n_0_1_11024
        (concatenate S16385x1024 0
          [⟨S16384x1024, shapeCast S16384x1024 P shapeCasts_S8x2048x1024_S16384x1024⟩,
           ⟨S1x1024, broadcastInDim S1x1024 ![] bcast_S_S1x1024 (constant S_ .bf16 0x0000#16)⟩]
          concatenates_S16384x1024_S1x1024_S16385x1024_d0)
        g)
      shapeCasts_S16384x1024_S8x2048x1024)
    bitsLt_bf16_f32

/-- The second result: the last row of x along the time axis, as [8, 1024] (the next shift state). -/
def out68 (x : FVec F S8x2048x1024 .f32) : FVec F S8x1024 .f32 :=
  shapeCast S8x1024 (extractStridedSlice S8x1x1024 ![0, 2047, 0] x slices_S8x2048x1024_S8x1x1024_0_2047_0)
    shapeCasts_S8x1x1024_S8x1024

end Cert.KernelIdeal.KerTerm

end
-- ==== Proof.KerHost.lean ====
/-
  The kernel program's host operations read back: what the region finds in the arrays it stages (the dispatched
  activations and the three weight arrays in the narrow format), the row of every token as the operations before the
  region leave it, and the two results as the operations after the region compute them from the region's output array.

  The 116 operations before the region are restated as one list cut into nine consecutive windows, one per stage of
  KerTerm, each operation written over its buffers with its function at the buffers' types and each concatenation as
  a named function of its two operands; that list is the program's own by computation. `hvalK W` is the device's
  contents after the first K windows from contents `W`; for every buffer a later window still reads,
  `hvalK_‹buffer›` says what it holds as a named function of the arguments, reading only its own window's operations.
  The seventeen operations after the region are one more list, read from any contents.
-/
import proofs.«113595_j78640851189970_2_alg».proof.Proof.Gen.KernelIdeal.Frame
import proofs.«113595_j78640851189970_2_alg».proof.Proof.KerTerm

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]

/-! ## The concatenations, as functions of their two operands -/

/-- Along the time axis, the one row a of every batch before the 2047 rows b. -/
def catTime (a : FVec F S8x1x1024 .f32) (b : FVec F S8x2047x1024 .f32) : FVec F S8x2048x1024 .f32 :=
  concatenate S8x2048x1024 1 [⟨S8x1x1024, a⟩, ⟨S8x2047x1024, b⟩]
    concatenates_S8x1x1024_S8x2047x1024_S8x2048x1024_d1

/-- Along the last axis, a's 1024 columns before b's. -/
def catSide (a b : FVec F S8x2048x1024 .bf16) : FVec F S8x2048x2048 .bf16 :=
  concatenate S8x2048x2048 2 [⟨S8x2048x1024, a⟩, ⟨S8x2048x1024, b⟩]
    concatenates_S8x2048x1024_S8x2048x1024_S8x2048x2048_d2

/-- The 16384 rows a of 2048 columns with the one row b appended. -/
def catRow2048 (a : FVec F S16384x2048 .bf16) (b : FVec F S1x2048 .bf16) : FVec F S16385x2048 .bf16 :=
  concatenate S16385x2048 0 [⟨S16384x2048, a⟩, ⟨S1x2048, b⟩] concatenates_S16384x2048_S1x2048_S16385x2048_d0

/-- The 16384 rows a of 1024 columns with the one row b appended. -/
def catRow1024 (a : FVec F S16384x1024 .bf16) (b : FVec F S1x1024 .bf16) : FVec F S16385x1024 .bf16 :=
  concatenate S16385x1024 0 [⟨S16384x1024, a⟩, ⟨S1x1024, b⟩] concatenates_S16384x1024_S1x1024_S16385x1024_d0

/-! ## The operations before the region -/

/-- Window 0, 12 operations. The token shift and the two mixes, each rounded to the narrow format. -/
abbrev hw0 : List (HloOp τ sig (Elt F)) :=
  [ StableHlo.unary main_arg2 main_v0 (broadcastInDim S8x1x1024 ![0, 2] bcast_S8x1024_S8x1x1024_0_2 : (⟨S8x1024, .f32⟩ : BufTy).Contents (Elt F) → (⟨S8x1x1024, .f32⟩ : BufTy).Contents (Elt F)),
    StableHlo.unary main_arg0 main_v1 ((extractStridedSlice S8x2047x1024 ![0, 0, 0] · slices_S8x2048x1024_S8x2047x1024_0_0_0) : (⟨S8x2048x1024, .f32⟩ : BufTy).Contents (Elt F) → (⟨S8x2047x1024, .f32⟩ : BufTy).Contents (Elt F)),
    StableHlo.binary main_v0 main_v1 main_v2 (catTime (F := F) : (⟨S8x1x1024, .f32⟩ : BufTy).Contents (Elt F) → (⟨S8x2047x1024, .f32⟩ : BufTy).Contents (Elt F) → (⟨S8x2048x1024, .f32⟩ : BufTy).Contents (Elt F)),
    StableHlo.binary main_v2 main_arg0 main_v3 (subf : (⟨S8x2048x1024, .f32⟩ : BufTy).Contents (Elt F) → (⟨S8x2048x1024, .f32⟩ : BufTy).Contents (Elt F) → (⟨S8x2048x1024, .f32⟩ : BufTy).Contents (Elt F)),
    StableHlo.unary main_arg3 main_v4 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v4 main_v5 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v5 main_v6 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_v6 main_v7 ((truncf .bf16 · bitsLt_bf16_f32) : (⟨S8x2048x1024, .f32⟩ : BufTy).Contents (Elt F) → (⟨S8x2048x1024, .bf16⟩ : BufTy).Contents (Elt F)),
    StableHlo.unary main_arg4 main_v8 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v8 main_v9 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v9 main_v10 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_v10 main_v11 ((truncf .bf16 · bitsLt_bf16_f32) : (⟨S8x2048x1024, .f32⟩ : BufTy).Contents (Elt F) → (⟨S8x2048x1024, .bf16⟩ : BufTy).Contents (Elt F)) ]

/-- Window 1, 26 operations. The token ids flattened, times 5099, and @remainder's twenty-one operations: the expert of every token. -/
abbrev hw1 : List (HloOp τ sig (Elt F)) :=
  [ StableHlo.reshape main_arg1 main_v12 rfl shapeCasts_S8x2048_S16384,
    StableHlo.nullary main_c (constantI S_ 32 5099#32),
    StableHlo.unary main_c main_v13 (broadcastInDim S16384 ![] bcast_S_S16384 : (⟨S_, .i32⟩ : BufTy).Contents (Elt F) → (⟨S16384, .i32⟩ : BufTy).Contents (Elt F)),
    StableHlo.binary main_v12 main_v13 main_v14 (muli : (⟨S16384, .i32⟩ : BufTy).Contents (Elt F) → (⟨S16384, .i32⟩ : BufTy).Contents (Elt F) → (⟨S16384, .i32⟩ : BufTy).Contents (Elt F)),
    StableHlo.nullary main_c_0 (constantI S_ 32 8#32),
    StableHlo.unary main_c_0 main_call0_v0 (id : (⟨S_, .i32⟩ : BufTy).Contents (Elt F) → (⟨S_, .i32⟩ : BufTy).Contents (Elt F)),
    StableHlo.nullary main_call0_c (constantI S_ 32 0#32),
    StableHlo.binary main_call0_v0 main_call0_c main_call0_v1 ((cmpi .eq) : (⟨S_, .i32⟩ : BufTy).Contents (Elt F) → (⟨S_, .i32⟩ : BufTy).Contents (Elt F) → (⟨S_, .i1⟩ : BufTy).Contents (Elt F)),
    StableHlo.nullary main_call0_c_0 (constantI S_ 32 1#32),
    StableHlo.ternary main_call0_v1 main_call0_c_0 main_call0_v0 main_call0_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call0_v2 main_call0_v3 ((broadcastInDim S16384 ![] bcast_S_S16384) : (⟨S_, .i32⟩ : BufTy).Contents (Elt F) → (⟨S16384, .i32⟩ : BufTy).Contents (Elt F)),
    StableHlo.binary main_v14 main_call0_v3 main_call0_v4 (Host.remsi : (⟨S16384, .i32⟩ : BufTy).Contents (Elt F) → (⟨S16384, .i32⟩ : BufTy).Contents (Elt F) → (⟨S16384, .i32⟩ : BufTy).Contents (Elt F)),
    StableHlo.nullary main_call0_c_1 (constantI S_ 32 0#32),
    StableHlo.unary main_call0_c_1 main_call0_v5 ((broadcastInDim S16384 ![] bcast_S_S16384) : (⟨S_, .i32⟩ : BufTy).Contents (Elt F) → (⟨S16384, .i32⟩ : BufTy).Contents (Elt F)),
    StableHlo.binary main_call0_v4 main_call0_v5 main_call0_v6 ((cmpi .ne) : (⟨S16384, .i32⟩ : BufTy).Contents (Elt F) → (⟨S16384, .i32⟩ : BufTy).Contents (Elt F) → (⟨S16384, .i1⟩ : BufTy).Contents (Elt F)),
    StableHlo.nullary main_call0_c_2 (constantI S_ 32 0#32),
    StableHlo.unary main_call0_c_2 main_call0_v7 ((broadcastInDim S16384 ![] bcast_S_S16384) : (⟨S_, .i32⟩ : BufTy).Contents (Elt F) → (⟨S16384, .i32⟩ : BufTy).Contents (Elt F)),
    StableHlo.binary main_call0_v4 main_call0_v7 main_call0_v8 ((cmpi .slt) : (⟨S16384, .i32⟩ : BufTy).Contents (Elt F) → (⟨S16384, .i32⟩ : BufTy).Contents (Elt F) → (⟨S16384, .i1⟩ : BufTy).Contents (Elt F)),
    StableHlo.nullary main_call0_c_3 (constantI S_ 32 0#32),
    StableHlo.binary main_call0_v2 main_call0_c_3 main_call0_v9 ((cmpi .slt) : (⟨S_, .i32⟩ : BufTy).Contents (Elt F) → (⟨S_, .i32⟩ : BufTy).Contents (Elt F) → (⟨S_, .i1⟩ : BufTy).Contents (Elt F)),
    StableHlo.unary main_call0_v9 main_call0_v10 ((broadcastInDim S16384 ![] bcast_S_S16384) : (⟨S_, .i1⟩ : BufTy).Contents (Elt F) → (⟨S16384, .i1⟩ : BufTy).Contents (Elt F)),
    StableHlo.binary main_call0_v8 main_call0_v10 main_call0_v11 ((cmpi .ne) : (⟨S16384, .i1⟩ : BufTy).Contents (Elt F) → (⟨S16384, .i1⟩ : BufTy).Contents (Elt F) → (⟨S16384, .i1⟩ : BufTy).Contents (Elt F)),
    StableHlo.binary main_call0_v11 main_call0_v6 main_call0_v12 (andi : (⟨S16384, .i1⟩ : BufTy).Contents (Elt F) → (⟨S16384, .i1⟩ : BufTy).Contents (Elt F) → (⟨S16384, .i1⟩ : BufTy).Contents (Elt F)),
    StableHlo.unary main_call0_v2 main_call0_v13 ((broadcastInDim S16384 ![] bcast_S_S16384) : (⟨S_, .i32⟩ : BufTy).Contents (Elt F) → (⟨S16384, .i32⟩ : BufTy).Contents (Elt F)),
    StableHlo.binary main_call0_v4 main_call0_v13 main_call0_v14 (addi : (⟨S16384, .i32⟩ : BufTy).Contents (Elt F) → (⟨S16384, .i32⟩ : BufTy).Contents (Elt F) → (⟨S16384, .i32⟩ : BufTy).Contents (Elt F)),
    StableHlo.ternary main_call0_v12 main_call0_v14 main_call0_v4 main_v15 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) ]

/-- Window 2, 13 operations. @_one_hot's six, @cumsum's three, the subtraction of 1, and the experts as a column. -/
abbrev hw2 : List (HloOp τ sig (Elt F)) :=
  [ StableHlo.unary main_v15 main_call1_v0 ((broadcastInDim S16384x1 ![0] bcast_S16384_S16384x1_0) : (⟨S16384, .i32⟩ : BufTy).Contents (Elt F) → (⟨S16384x1, .i32⟩ : BufTy).Contents (Elt F)),
    StableHlo.nullary main_call1_v1 (iotaInDim S1x8 32 1),
    StableHlo.unary main_call1_v0 main_call1_v2 ((broadcastInDim S16384x8 ![0, 1] bcast_S16384x1_S16384x8_0_1) : (⟨S16384x1, .i32⟩ : BufTy).Contents (Elt F) → (⟨S16384x8, .i32⟩ : BufTy).Contents (Elt F)),
    StableHlo.unary main_call1_v1 main_call1_v3 ((broadcastInDim S16384x8 ![0, 1] bcast_S1x8_S16384x8_0_1) : (⟨S1x8, .i32⟩ : BufTy).Contents (Elt F) → (⟨S16384x8, .i32⟩ : BufTy).Contents (Elt F)),
    StableHlo.binary main_call1_v2 main_call1_v3 main_call1_v4 ((cmpi .eq) : (⟨S16384x8, .i32⟩ : BufTy).Contents (Elt F) → (⟨S16384x8, .i32⟩ : BufTy).Contents (Elt F) → (⟨S16384x8, .i1⟩ : BufTy).Contents (Elt F)),
    StableHlo.unary main_call1_v4 main_v16 ((extui 32 · natLt_1_32) : (⟨S16384x8, .i1⟩ : BufTy).Contents (Elt F) → (⟨S16384x8, .i32⟩ : BufTy).Contents (Elt F)),
    StableHlo.nullary main_call2_call0_c (constantI S_ 32 0#32),
    StableHlo.unary main_call2_call0_c main_call2_call0_v0 ((broadcastInDim S_ ![] bcast_S_S_) : (⟨S_, .i32⟩ : BufTy).Contents (Elt F) → (⟨S_, .i32⟩ : BufTy).Contents (Elt F)),
    StableHlo.binary main_v16 main_call2_call0_v0 main_v17 ((fun x v => Host.reduceWindow IntOp.addi ![16384, 1] ![1, 1] ![16383, 0] ![0, 0] x v reduceWindows_S16384x8_S16384x8_w16384s1p16383_0_w1s1p0_0 h_S_) : (⟨S16384x8, .i32⟩ : BufTy).Contents (Elt F) → (⟨S_, .i32⟩ : BufTy).Contents (Elt F) → (⟨S16384x8, .i32⟩ : BufTy).Contents (Elt F)),
    StableHlo.nullary main_c_1 (constantI S_ 32 1#32),
    StableHlo.unary main_c_1 main_v18 (broadcastInDim S16384x8 ![] bcast_S_S16384x8 : (⟨S_, .i32⟩ : BufTy).Contents (Elt F) → (⟨S16384x8, .i32⟩ : BufTy).Contents (Elt F)),
    StableHlo.binary main_v17 main_v18 main_v19 (subi : (⟨S16384x8, .i32⟩ : BufTy).Contents (Elt F) → (⟨S16384x8, .i32⟩ : BufTy).Contents (Elt F) → (⟨S16384x8, .i32⟩ : BufTy).Contents (Elt F)),
    StableHlo.unary main_v15 main_v20 (broadcastInDim S16384x1 ![0] bcast_S16384_S16384x1_0 : (⟨S16384, .i32⟩ : BufTy).Contents (Elt F) → (⟨S16384x1, .i32⟩ : BufTy).Contents (Elt F)) ]

/-- Window 3, 22 operations. @take_along_axis's twenty-two. -/
abbrev hw3 : List (HloOp τ sig (Elt F)) :=
  [ StableHlo.nullary main_call3_c (constantI S_ 32 0#32),
    StableHlo.unary main_call3_c main_call3_v0 ((broadcastInDim S16384x1 ![] bcast_S_S16384x1) : (⟨S_, .i32⟩ : BufTy).Contents (Elt F) → (⟨S16384x1, .i32⟩ : BufTy).Contents (Elt F)),
    StableHlo.binary main_v20 main_call3_v0 main_call3_v1 ((cmpi .slt) : (⟨S16384x1, .i32⟩ : BufTy).Contents (Elt F) → (⟨S16384x1, .i32⟩ : BufTy).Contents (Elt F) → (⟨S16384x1, .i1⟩ : BufTy).Contents (Elt F)),
    StableHlo.nullary main_call3_c_0 (constantI S_ 32 8#32),
    StableHlo.unary main_call3_c_0 main_call3_v2 ((broadcastInDim S16384x1 ![] bcast_S_S16384x1) : (⟨S_, .i32⟩ : BufTy).Contents (Elt F) → (⟨S16384x1, .i32⟩ : BufTy).Contents (Elt F)),
    StableHlo.binary main_v20 main_call3_v2 main_call3_v3 (addi : (⟨S16384x1, .i32⟩ : BufTy).Contents (Elt F) → (⟨S16384x1, .i32⟩ : BufTy).Contents (Elt F) → (⟨S16384x1, .i32⟩ : BufTy).Contents (Elt F)),
    StableHlo.ternary main_call3_v1 main_call3_v3 main_v20 main_call3_v4 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    StableHlo.reshape main_call3_v4 main_call3_v5 rfl shapeCasts_S16384x1_S16384x1x1,
    StableHlo.nullary main_call3_c_1 (constantI S1 32 7#32),
    StableHlo.nullary main_call3_c_2 (constantI S_ 32 0#32),
    StableHlo.unary main_call3_c_2 main_call3_v6 ((broadcastInDim S16384x1x1 ![] bcast_S_S16384x1x1) : (⟨S_, .i32⟩ : BufTy).Contents (Elt F) → (⟨S16384x1x1, .i32⟩ : BufTy).Contents (Elt F)),
    StableHlo.binary main_call3_v5 main_call3_v6 main_call3_v7 ((cmpi .sge) : (⟨S16384x1x1, .i32⟩ : BufTy).Contents (Elt F) → (⟨S16384x1x1, .i32⟩ : BufTy).Contents (Elt F) → (⟨S16384x1x1, .i1⟩ : BufTy).Contents (Elt F)),
    StableHlo.unary main_call3_c_1 main_call3_v8 ((broadcastInDim S1x1x1 ![2] bcast_S1_S1x1x1_2) : (⟨S1, .i32⟩ : BufTy).Contents (Elt F) → (⟨S1x1x1, .i32⟩ : BufTy).Contents (Elt F)),
    StableHlo.unary main_call3_v8 main_call3_v9 ((broadcastInDim S16384x1x1 ![0, 1, 2] bcast_S1x1x1_S16384x1x1_0_1_2) : (⟨S1x1x1, .i32⟩ : BufTy).Contents (Elt F) → (⟨S16384x1x1, .i32⟩ : BufTy).Contents (Elt F)),
    StableHlo.binary main_call3_v5 main_call3_v9 main_call3_v10 ((cmpi .sle) : (⟨S16384x1x1, .i32⟩ : BufTy).Contents (Elt F) → (⟨S16384x1x1, .i32⟩ : BufTy).Contents (Elt F) → (⟨S16384x1x1, .i1⟩ : BufTy).Contents (Elt F)),
    StableHlo.binary main_call3_v7 main_call3_v10 main_call3_v11 (andi : (⟨S16384x1x1, .i1⟩ : BufTy).Contents (Elt F) → (⟨S16384x1x1, .i1⟩ : BufTy).Contents (Elt F) → (⟨S16384x1x1, .i1⟩ : BufTy).Contents (Elt F)),
    StableHlo.nullary main_call3_c_3 (constantI S_ 1 1#1),
    StableHlo.binary main_call3_v11 main_call3_c_3 main_call3_v12 ((fun x v => Host.reduce IntOp.andi x v reducesTo_S16384x1x1_S16384x1_d2 h_S_) : (⟨S16384x1x1, .i1⟩ : BufTy).Contents (Elt F) → (⟨S_, .i1⟩ : BufTy).Contents (Elt F) → (⟨S16384x1, .i1⟩ : BufTy).Contents (Elt F)),
    StableHlo.binary main_v19 main_call3_v5 main_call3_v13 ((fun x i => Host.gather gather_S16384x8_S16384x1x1_S16384x1_n_1_0_0_1_2_11 x i) : (⟨S16384x8, .i32⟩ : BufTy).Contents (Elt F) → (⟨S16384x1x1, .i32⟩ : BufTy).Contents (Elt F) → (⟨S16384x1, .i32⟩ : BufTy).Contents (Elt F)),
    StableHlo.nullary main_call3_c_4 (constantI S_ 32 2147483648#32),
    StableHlo.unary main_call3_c_4 main_call3_v14 ((broadcastInDim S16384x1 ![] bcast_S_S16384x1) : (⟨S_, .i32⟩ : BufTy).Contents (Elt F) → (⟨S16384x1, .i32⟩ : BufTy).Contents (Elt F)),
    StableHlo.ternary main_call3_v12 main_call3_v13 main_call3_v14 main_v21 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)) ]

/-- Window 4, 12 operations. The place as a vector, the comparison with 2048, the row e · 2048 + s, @_where_1's three: the row of every token. -/
abbrev hw4 : List (HloOp τ sig (Elt F)) :=
  [ StableHlo.reshape main_v21 main_v22 rfl shapeCasts_S16384x1_S16384,
    StableHlo.nullary main_c_2 (constantI S_ 32 2048#32),
    StableHlo.unary main_c_2 main_v23 (broadcastInDim S16384 ![] bcast_S_S16384 : (⟨S_, .i32⟩ : BufTy).Contents (Elt F) → (⟨S16384, .i32⟩ : BufTy).Contents (Elt F)),
    StableHlo.binary main_v22 main_v23 main_v24 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 2048#32),
    StableHlo.unary main_c_3 main_v25 (broadcastInDim S16384 ![] bcast_S_S16384 : (⟨S_, .i32⟩ : BufTy).Contents (Elt F) → (⟨S16384, .i32⟩ : BufTy).Contents (Elt F)),
    StableHlo.binary main_v15 main_v25 main_v26 (muli : (⟨S16384, .i32⟩ : BufTy).Contents (Elt F) → (⟨S16384, .i32⟩ : BufTy).Contents (Elt F) → (⟨S16384, .i32⟩ : BufTy).Contents (Elt F)),
    StableHlo.binary main_v26 main_v22 main_v27 (addi : (⟨S16384, .i32⟩ : BufTy).Contents (Elt F) → (⟨S16384, .i32⟩ : BufTy).Contents (Elt F) → (⟨S16384, .i32⟩ : BufTy).Contents (Elt F)),
    StableHlo.nullary main_c_4 (constantI S_ 32 16384#32),
    StableHlo.unary main_c_4 main_call4_v0 (id : (⟨S_, .i32⟩ : BufTy).Contents (Elt F) → (⟨S_, .i32⟩ : BufTy).Contents (Elt F)),
    StableHlo.unary main_call4_v0 main_call4_v1 ((broadcastInDim S16384 ![] bcast_S_S16384) : (⟨S_, .i32⟩ : BufTy).Contents (Elt F) → (⟨S16384, .i32⟩ : BufTy).Contents (Elt F)),
    StableHlo.ternary main_v24 main_v27 main_call4_v1 main_v28 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) ]

/-- Window 5, 13 operations. The routing inverted: 16385 entries 16384, entry (row of token t) overwritten by t, the extra entry dropped. -/
abbrev hw5 : List (HloOp τ sig (Elt F)) :=
  [ StableHlo.nullary main_c_5 (constantI S_ 32 16384#32),
    StableHlo.unary main_c_5 main_v29 (broadcastInDim S16385 ![] bcast_S_S16385 : (⟨S_, .i32⟩ : BufTy).Contents (Elt F) → (⟨S16385, .i32⟩ : BufTy).Contents (Elt F)),
    StableHlo.nullary main_v30 (iotaInDim S16384 32 0),
    StableHlo.nullary main_c_6 (constantI S_ 32 0#32),
    StableHlo.unary main_c_6 main_v31 (broadcastInDim S16384 ![] bcast_S_S16384 : (⟨S_, .i32⟩ : BufTy).Contents (Elt F) → (⟨S16384, .i32⟩ : BufTy).Contents (Elt F)),
    StableHlo.binary main_v28 main_v31 main_v32 (cmpi .slt : (⟨S16384, .i32⟩ : BufTy).Contents (Elt F) → (⟨S16384, .i32⟩ : BufTy).Contents (Elt F) → (⟨S16384, .i1⟩ : BufTy).Contents (Elt F)),
    StableHlo.nullary main_c_7 (constantI S_ 32 16385#32),
    StableHlo.unary main_c_7 main_v33 (broadcastInDim S16384 ![] bcast_S_S16384 : (⟨S_, .i32⟩ : BufTy).Contents (Elt F) → (⟨S16384, .i32⟩ : BufTy).Contents (Elt F)),
    StableHlo.binary main_v28 main_v33 main_v34 (addi : (⟨S16384, .i32⟩ : BufTy).Contents (Elt F) → (⟨S16384, .i32⟩ : BufTy).Contents (Elt F) → (⟨S16384, .i32⟩ : BufTy).Contents (Elt F)),
    StableHlo.ternary main_v32 main_v34 main_v28 main_v35 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v35 main_v36 (broadcastInDim S16384x1 ![0] bcast_S16384_S16384x1_0 : (⟨S16384, .i32⟩ : BufTy).Contents (Elt F) → (⟨S16384x1, .i32⟩ : BufTy).Contents (Elt F)),
    StableHlo.ternary main_v29 main_v36 main_v30 main_v37 ((fun x i u => Host.scatter scatter_S16385_S16384x1_S16384_n_0_0_1 (fun _ b => b) x i u) : (⟨S16385, .i32⟩ : BufTy).Contents (Elt F) → (⟨S16384x1, .i32⟩ : BufTy).Contents (Elt F) → (⟨S16384, .i32⟩ : BufTy).Contents (Elt F) → (⟨S16385, .i32⟩ : BufTy).Contents (Elt F)),
    StableHlo.unary main_v37 main_v38 ((extractStridedSlice S16384 ![0] · slices_S16385_S16384_0) : (⟨S16385, .i32⟩ : BufTy).Contents (Elt F) → (⟨S16384, .i32⟩ : BufTy).Contents (Elt F)) ]

/-- Window 6, 5 operations. The two mixes side by side, flattened to 16384 rows, a zero row appended. -/
abbrev hw6 : List (HloOp τ sig (Elt F)) :=
  [ StableHlo.binary main_v7 main_v11 main_v39 (catSide (F := F) : (⟨S8x2048x1024, .bf16⟩ : BufTy).Contents (Elt F) → (⟨S8x2048x1024, .bf16⟩ : BufTy).Contents (Elt F) → (⟨S8x2048x2048, .bf16⟩ : BufTy).Contents (Elt F)),
    StableHlo.reshape main_v39 main_v40 rfl shapeCasts_S8x2048x2048_S16384x2048,
    StableHlo.nullary main_cst (constant S_ .bf16 0x0000#16),
    StableHlo.unary main_cst main_v41 (broadcastInDim S1x2048 ![] bcast_S_S1x2048 : (⟨S_, .bf16⟩ : BufTy).Contents (Elt F) → (⟨S1x2048, .bf16⟩ : BufTy).Contents (Elt F)),
    StableHlo.binary main_v40 main_v41 main_v42 (catRow2048 (F := F) : (⟨S16384x2048, .bf16⟩ : BufTy).Contents (Elt F) → (⟨S1x2048, .bf16⟩ : BufTy).Contents (Elt F) → (⟨S16385x2048, .bf16⟩ : BufTy).Contents (Elt F)) ]

/-- Window 7, 10 operations. The inverse as a column of rows (a negative entry moved up by 16385), the lookup, the reshape: the region's first operand. -/
abbrev hw7 : List (HloOp τ sig (Elt F)) :=
  [ StableHlo.nullary main_c_8 (constantI S_ 32 0#32),
    StableHlo.unary main_c_8 main_v43 (broadcastInDim S16384 ![] bcast_S_S16384 : (⟨S_, .i32⟩ : BufTy).Contents (Elt F) → (⟨S16384, .i32⟩ : BufTy).Contents (Elt F)),
    StableHlo.binary main_v38 main_v43 main_v44 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 16385#32),
    StableHlo.unary main_c_9 main_v45 (broadcastInDim S16384 ![] bcast_S_S16384 : (⟨S_, .i32⟩ : BufTy).Contents (Elt F) → (⟨S16384, .i32⟩ : BufTy).Contents (Elt F)),
    StableHlo.binary main_v38 main_v45 main_v46 (addi : (⟨S16384, .i32⟩ : BufTy).Contents (Elt F) → (⟨S16384, .i32⟩ : BufTy).Contents (Elt F) → (⟨S16384, .i32⟩ : BufTy).Contents (Elt F)),
    StableHlo.ternary main_v44 main_v46 main_v38 main_v47 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v47 main_v48 (broadcastInDim S16384x1 ![0] bcast_S16384_S16384x1_0 : (⟨S16384, .i32⟩ : BufTy).Contents (Elt F) → (⟨S16384x1, .i32⟩ : BufTy).Contents (Elt F)),
    StableHlo.binary main_v42 main_v48 main_v49 ((fun x i => Host.gather gather_S16385x2048_S16384x1_S16384x2048_1_0_n_n_0_1_12048 x i) : (⟨S16385x2048, .bf16⟩ : BufTy).Contents (Elt F) → (⟨S16384x1, .i32⟩ : BufTy).Contents (Elt F) → (⟨S16384x2048, .bf16⟩ : BufTy).Contents (Elt F)),
    StableHlo.reshape main_v49 main_v50 rfl shapeCasts_S16384x2048_S8x2048x2048 ]

/-- Window 8, 3 operations. The three weight arrays rounded to the narrow format. -/
abbrev hw8 : List (HloOp τ sig (Elt F)) :=
  [ StableHlo.unary main_arg5 main_v51 ((truncf .bf16 · bitsLt_bf16_f32) : (⟨S8x1024x2048, .f32⟩ : BufTy).Contents (Elt F) → (⟨S8x1024x2048, .bf16⟩ : BufTy).Contents (Elt F)),
    StableHlo.unary main_arg6 main_v52 ((truncf .bf16 · bitsLt_bf16_f32) : (⟨S8x2048x1024, .f32⟩ : BufTy).Contents (Elt F) → (⟨S8x2048x1024, .bf16⟩ : BufTy).Contents (Elt F)),
    StableHlo.unary main_arg7 main_v53 ((truncf .bf16 · bitsLt_bf16_f32) : (⟨S8x1024x1024, .f32⟩ : BufTy).Contents (Elt F) → (⟨S8x1024x1024, .bf16⟩ : BufTy).Contents (Elt F)) ]

/-- The nine windows in order: the 116 operations before the region. -/
abbrev hops : List (HloOp τ sig (Elt F)) := hw0 ++ (hw1 ++ (hw2 ++ (hw3 ++ (hw4 ++ (hw5 ++ (hw6 ++ (hw7 ++ (hw8))))))))

set_option maxRecDepth 8192 in
/-- The program's own lists, one per stretch of @main and per call, are that list: element by element the same
    operation, a typed reference's conversions being the identity at a literal reference and a named concatenation
    its definition. -/
theorem prefix_eq : (List.flatten [hostOps0, hostOps0_1, hostOps0_2, hostOps0_3, hostOps0_4, hostOps0_5, hostOps0_6, hostOps0_7, hostOps0_8] : List (HloOp τ sig (Elt F))) = hops := by
  show _ = hw0 ++ (hw1 ++ (hw2 ++ (hw3 ++ (hw4 ++ (hw5 ++ (hw6 ++ (hw7 ++ (hw8))))))))
  chain_rfl

/-- Two lists run one after the other from `V`: the second from where the first ends. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- One operation of a window writes a buffer of the window's list: its one written buffer is found in the list. -/
local macro "writes_one" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-! ## The contents window by window -/

/-- The device's contents before the first window. -/
def hval0 (W : Valuation τ sig (Elt F)) : Valuation τ sig (Elt F) := W

theorem hval0_main_arg0 (W : Valuation τ sig (Elt F)) : hval0 W (no_index (Proc.devRef .tc main_arg0)) = W (Proc.devRef .tc main_arg0) := rfl
theorem hval0_main_arg1 (W : Valuation τ sig (Elt F)) : hval0 W (no_index (Proc.devRef .tc main_arg1)) = W (Proc.devRef .tc main_arg1) := rfl
theorem hval0_main_arg2 (W : Valuation τ sig (Elt F)) : hval0 W (no_index (Proc.devRef .tc main_arg2)) = W (Proc.devRef .tc main_arg2) := rfl
theorem hval0_main_arg3 (W : Valuation τ sig (Elt F)) : hval0 W (no_index (Proc.devRef .tc main_arg3)) = W (Proc.devRef .tc main_arg3) := rfl
theorem hval0_main_arg4 (W : Valuation τ sig (Elt F)) : hval0 W (no_index (Proc.devRef .tc main_arg4)) = W (Proc.devRef .tc main_arg4) := rfl
theorem hval0_main_arg5 (W : Valuation τ sig (Elt F)) : hval0 W (no_index (Proc.devRef .tc main_arg5)) = W (Proc.devRef .tc main_arg5) := rfl
theorem hval0_main_arg6 (W : Valuation τ sig (Elt F)) : hval0 W (no_index (Proc.devRef .tc main_arg6)) = W (Proc.devRef .tc main_arg6) := rfl
theorem hval0_main_arg7 (W : Valuation τ sig (Elt F)) : hval0 W (no_index (Proc.devRef .tc main_arg7)) = W (Proc.devRef .tc main_arg7) := rfl

/-- The device's contents after the first 1 window. -/
def hval1 (W : Valuation τ sig (Elt F)) : Valuation τ sig (Elt F) := after hw0 (hval0 W)
/-- The buffers window 0 writes. -/
abbrev hw0_W : List (Ref sig .tc) := [main_v0, main_v1, main_v2, main_v3, main_v4, main_v5, main_v6, main_v7, main_v8, main_v9, main_v10, main_v11]
theorem hw0_writes : (hw0 : List (HloOp τ sig (Elt F))).Forall fun op => op.writes ⊆ (hw0_W.map (Proc.devRef (τ := τ) .tc)).toFinset := by
  simp only [List.Forall]; exact ⟨by writes_one, by writes_one, by writes_one, by writes_one, by writes_one, by writes_one, by writes_one, by writes_one, by writes_one, by writes_one, by writes_one, by writes_one⟩
/-- A buffer window 0 does not write keeps its contents through it. -/
theorem hval1_keep (W : Valuation τ sig (Elt F)) (r : Ref sig .tc) (h : r ∉ hw0_W) :
    hval1 W (Proc.devRef .tc r) = hval0 W (Proc.devRef .tc r) :=
  after_of_writes_sub hw0 _ hw0_writes h
theorem hval1_main_arg0 (W : Valuation τ sig (Elt F)) : hval1 W (no_index (Proc.devRef .tc main_arg0)) = W (Proc.devRef .tc main_arg0) :=
  (hval1_keep W main_arg0 (by decide)).trans (hval0_main_arg0 W)
theorem hval1_main_arg1 (W : Valuation τ sig (Elt F)) : hval1 W (no_index (Proc.devRef .tc main_arg1)) = W (Proc.devRef .tc main_arg1) :=
  (hval1_keep W main_arg1 (by decide)).trans (hval0_main_arg1 W)
theorem hval1_main_arg2 (W : Valuation τ sig (Elt F)) : hval1 W (no_index (Proc.devRef .tc main_arg2)) = W (Proc.devRef .tc main_arg2) :=
  (hval1_keep W main_arg2 (by decide)).trans (hval0_main_arg2 W)
theorem hval1_main_arg3 (W : Valuation τ sig (Elt F)) : hval1 W (no_index (Proc.devRef .tc main_arg3)) = W (Proc.devRef .tc main_arg3) :=
  (hval1_keep W main_arg3 (by decide)).trans (hval0_main_arg3 W)
theorem hval1_main_arg4 (W : Valuation τ sig (Elt F)) : hval1 W (no_index (Proc.devRef .tc main_arg4)) = W (Proc.devRef .tc main_arg4) :=
  (hval1_keep W main_arg4 (by decide)).trans (hval0_main_arg4 W)
theorem hval1_main_arg5 (W : Valuation τ sig (Elt F)) : hval1 W (no_index (Proc.devRef .tc main_arg5)) = W (Proc.devRef .tc main_arg5) :=
  (hval1_keep W main_arg5 (by decide)).trans (hval0_main_arg5 W)
theorem hval1_main_arg6 (W : Valuation τ sig (Elt F)) : hval1 W (no_index (Proc.devRef .tc main_arg6)) = W (Proc.devRef .tc main_arg6) :=
  (hval1_keep W main_arg6 (by decide)).trans (hval0_main_arg6 W)
theorem hval1_main_arg7 (W : Valuation τ sig (Elt F)) : hval1 W (no_index (Proc.devRef .tc main_arg7)) = W (Proc.devRef .tc main_arg7) :=
  (hval1_keep W main_arg7 (by decide)).trans (hval0_main_arg7 W)
set_option maxRecDepth 8192 in
theorem hval1_main_v7 (W : Valuation τ sig (Elt F)) : hval1 W (no_index (Proc.devRef .tc main_v7)) = KerTerm.mix (W (Proc.devRef .tc main_arg0)) (W (Proc.devRef .tc main_arg2)) (W (Proc.devRef .tc main_arg3)) := by
  unfold hval1
  simp only [hw0]
  after_results_simp <;> simp only [hval0_main_arg0, hval0_main_arg2, hval0_main_arg3] <;> rfl
set_option maxRecDepth 8192 in
theorem hval1_main_v11 (W : Valuation τ sig (Elt F)) : hval1 W (no_index (Proc.devRef .tc main_v11)) = KerTerm.mix (W (Proc.devRef .tc main_arg0)) (W (Proc.devRef .tc main_arg2)) (W (Proc.devRef .tc main_arg4)) := by
  unfold hval1
  simp only [hw0]
  after_results_simp <;> simp only [hval0_main_arg0, hval0_main_arg2, hval0_main_arg4] <;> rfl

/-- The device's contents after the first 2 windows. -/
def hval2 (W : Valuation τ sig (Elt F)) : Valuation τ sig (Elt F) := after hw1 (hval1 W)
/-- The buffers window 1 writes. -/
abbrev hw1_W : List (Ref sig .tc) := [main_v12, main_c, main_v13, main_v14, main_c_0, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v15]
theorem hw1_writes : (hw1 : List (HloOp τ sig (Elt F))).Forall fun op => op.writes ⊆ (hw1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 1 does not write keeps its contents through it. -/
theorem hval2_keep (W : Valuation τ sig (Elt F)) (r : Ref sig .tc) (h : r ∉ hw1_W) :
    hval2 W (Proc.devRef .tc r) = hval1 W (Proc.devRef .tc r) :=
  after_of_writes_sub hw1 _ hw1_writes h
theorem hval2_main_arg0 (W : Valuation τ sig (Elt F)) : hval2 W (no_index (Proc.devRef .tc main_arg0)) = W (Proc.devRef .tc main_arg0) :=
  (hval2_keep W main_arg0 (by decide)).trans (hval1_main_arg0 W)
theorem hval2_main_arg1 (W : Valuation τ sig (Elt F)) : hval2 W (no_index (Proc.devRef .tc main_arg1)) = W (Proc.devRef .tc main_arg1) :=
  (hval2_keep W main_arg1 (by decide)).trans (hval1_main_arg1 W)
theorem hval2_main_arg2 (W : Valuation τ sig (Elt F)) : hval2 W (no_index (Proc.devRef .tc main_arg2)) = W (Proc.devRef .tc main_arg2) :=
  (hval2_keep W main_arg2 (by decide)).trans (hval1_main_arg2 W)
theorem hval2_main_arg3 (W : Valuation τ sig (Elt F)) : hval2 W (no_index (Proc.devRef .tc main_arg3)) = W (Proc.devRef .tc main_arg3) :=
  (hval2_keep W main_arg3 (by decide)).trans (hval1_main_arg3 W)
theorem hval2_main_arg4 (W : Valuation τ sig (Elt F)) : hval2 W (no_index (Proc.devRef .tc main_arg4)) = W (Proc.devRef .tc main_arg4) :=
  (hval2_keep W main_arg4 (by decide)).trans (hval1_main_arg4 W)
theorem hval2_main_arg5 (W : Valuation τ sig (Elt F)) : hval2 W (no_index (Proc.devRef .tc main_arg5)) = W (Proc.devRef .tc main_arg5) :=
  (hval2_keep W main_arg5 (by decide)).trans (hval1_main_arg5 W)
theorem hval2_main_arg6 (W : Valuation τ sig (Elt F)) : hval2 W (no_index (Proc.devRef .tc main_arg6)) = W (Proc.devRef .tc main_arg6) :=
  (hval2_keep W main_arg6 (by decide)).trans (hval1_main_arg6 W)
theorem hval2_main_arg7 (W : Valuation τ sig (Elt F)) : hval2 W (no_index (Proc.devRef .tc main_arg7)) = W (Proc.devRef .tc main_arg7) :=
  (hval2_keep W main_arg7 (by decide)).trans (hval1_main_arg7 W)
theorem hval2_main_v7 (W : Valuation τ sig (Elt F)) : hval2 W (no_index (Proc.devRef .tc main_v7)) = KerTerm.mix (W (Proc.devRef .tc main_arg0)) (W (Proc.devRef .tc main_arg2)) (W (Proc.devRef .tc main_arg3)) :=
  (hval2_keep W main_v7 (by decide)).trans (hval1_main_v7 W)
theorem hval2_main_v11 (W : Valuation τ sig (Elt F)) : hval2 W (no_index (Proc.devRef .tc main_v11)) = KerTerm.mix (W (Proc.devRef .tc main_arg0)) (W (Proc.devRef .tc main_arg2)) (W (Proc.devRef .tc main_arg4)) :=
  (hval2_keep W main_v11 (by decide)).trans (hval1_main_v11 W)
set_option maxRecDepth 8192 in
theorem hval2_main_v15 (W : Valuation τ sig (Elt F)) : hval2 W (no_index (Proc.devRef .tc main_v15)) = KerTerm.expert (W (Proc.devRef .tc main_arg1)) := by
  unfold hval2
  simp only [hw1]
  after_results_simp <;> simp only [hval1_main_arg1] <;> rfl

/-- The device's contents after the first 3 windows. -/
def hval3 (W : Valuation τ sig (Elt F)) : Valuation τ sig (Elt F) := after hw2 (hval2 W)
/-- The buffers window 2 writes. -/
abbrev hw2_W : List (Ref sig .tc) := [main_call1_v0, main_call1_v1, main_call1_v2, main_call1_v3, main_call1_v4, main_v16, main_call2_call0_c, main_call2_call0_v0, main_v17, main_c_1, main_v18, main_v19, main_v20]
theorem hw2_writes : (hw2 : List (HloOp τ sig (Elt F))).Forall fun op => op.writes ⊆ (hw2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one⟩
/-- A buffer window 2 does not write keeps its contents through it. -/
theorem hval3_keep (W : Valuation τ sig (Elt F)) (r : Ref sig .tc) (h : r ∉ hw2_W) :
    hval3 W (Proc.devRef .tc r) = hval2 W (Proc.devRef .tc r) :=
  after_of_writes_sub hw2 _ hw2_writes h
theorem hval3_main_arg0 (W : Valuation τ sig (Elt F)) : hval3 W (no_index (Proc.devRef .tc main_arg0)) = W (Proc.devRef .tc main_arg0) :=
  (hval3_keep W main_arg0 (by decide)).trans (hval2_main_arg0 W)
theorem hval3_main_arg1 (W : Valuation τ sig (Elt F)) : hval3 W (no_index (Proc.devRef .tc main_arg1)) = W (Proc.devRef .tc main_arg1) :=
  (hval3_keep W main_arg1 (by decide)).trans (hval2_main_arg1 W)
theorem hval3_main_arg2 (W : Valuation τ sig (Elt F)) : hval3 W (no_index (Proc.devRef .tc main_arg2)) = W (Proc.devRef .tc main_arg2) :=
  (hval3_keep W main_arg2 (by decide)).trans (hval2_main_arg2 W)
theorem hval3_main_arg3 (W : Valuation τ sig (Elt F)) : hval3 W (no_index (Proc.devRef .tc main_arg3)) = W (Proc.devRef .tc main_arg3) :=
  (hval3_keep W main_arg3 (by decide)).trans (hval2_main_arg3 W)
theorem hval3_main_arg4 (W : Valuation τ sig (Elt F)) : hval3 W (no_index (Proc.devRef .tc main_arg4)) = W (Proc.devRef .tc main_arg4) :=
  (hval3_keep W main_arg4 (by decide)).trans (hval2_main_arg4 W)
theorem hval3_main_arg5 (W : Valuation τ sig (Elt F)) : hval3 W (no_index (Proc.devRef .tc main_arg5)) = W (Proc.devRef .tc main_arg5) :=
  (hval3_keep W main_arg5 (by decide)).trans (hval2_main_arg5 W)
theorem hval3_main_arg6 (W : Valuation τ sig (Elt F)) : hval3 W (no_index (Proc.devRef .tc main_arg6)) = W (Proc.devRef .tc main_arg6) :=
  (hval3_keep W main_arg6 (by decide)).trans (hval2_main_arg6 W)
theorem hval3_main_arg7 (W : Valuation τ sig (Elt F)) : hval3 W (no_index (Proc.devRef .tc main_arg7)) = W (Proc.devRef .tc main_arg7) :=
  (hval3_keep W main_arg7 (by decide)).trans (hval2_main_arg7 W)
theorem hval3_main_v15 (W : Valuation τ sig (Elt F)) : hval3 W (no_index (Proc.devRef .tc main_v15)) = KerTerm.expert (W (Proc.devRef .tc main_arg1)) :=
  (hval3_keep W main_v15 (by decide)).trans (hval2_main_v15 W)
theorem hval3_main_v7 (W : Valuation τ sig (Elt F)) : hval3 W (no_index (Proc.devRef .tc main_v7)) = KerTerm.mix (W (Proc.devRef .tc main_arg0)) (W (Proc.devRef .tc main_arg2)) (W (Proc.devRef .tc main_arg3)) :=
  (hval3_keep W main_v7 (by decide)).trans (hval2_main_v7 W)
theorem hval3_main_v11 (W : Valuation τ sig (Elt F)) : hval3 W (no_index (Proc.devRef .tc main_v11)) = KerTerm.mix (W (Proc.devRef .tc main_arg0)) (W (Proc.devRef .tc main_arg2)) (W (Proc.devRef .tc main_arg4)) :=
  (hval3_keep W main_v11 (by decide)).trans (hval2_main_v11 W)
set_option maxRecDepth 8192 in
theorem hval3_main_v19 (W : Valuation τ sig (Elt F)) : hval3 W (no_index (Proc.devRef .tc main_v19)) = KerTerm.position (KerTerm.expert (W (Proc.devRef .tc main_arg1))) := by
  unfold hval3
  simp only [hw2]
  after_results_simp <;> simp only [hval2_main_v15] <;> rfl
set_option maxRecDepth 8192 in
theorem hval3_main_v20 (W : Valuation τ sig (Elt F)) : hval3 W (no_index (Proc.devRef .tc main_v20)) = broadcastInDim S16384x1 ![0] bcast_S16384_S16384x1_0 (KerTerm.expert (W (Proc.devRef .tc main_arg1))) := by
  unfold hval3
  simp only [hw2]
  after_results_simp <;> simp only [hval2_main_v15] <;> rfl

/-- The device's contents after the first 4 windows. -/
def hval4 (W : Valuation τ sig (Elt F)) : Valuation τ sig (Elt F) := after hw3 (hval3 W)
/-- The buffers window 3 writes. -/
abbrev hw3_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v21]
theorem hw3_writes : (hw3 : List (HloOp τ sig (Elt F))).Forall fun op => op.writes ⊆ (hw3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 3 does not write keeps its contents through it. -/
theorem hval4_keep (W : Valuation τ sig (Elt F)) (r : Ref sig .tc) (h : r ∉ hw3_W) :
    hval4 W (Proc.devRef .tc r) = hval3 W (Proc.devRef .tc r) :=
  after_of_writes_sub hw3 _ hw3_writes h
theorem hval4_main_arg0 (W : Valuation τ sig (Elt F)) : hval4 W (no_index (Proc.devRef .tc main_arg0)) = W (Proc.devRef .tc main_arg0) :=
  (hval4_keep W main_arg0 (by decide)).trans (hval3_main_arg0 W)
theorem hval4_main_arg1 (W : Valuation τ sig (Elt F)) : hval4 W (no_index (Proc.devRef .tc main_arg1)) = W (Proc.devRef .tc main_arg1) :=
  (hval4_keep W main_arg1 (by decide)).trans (hval3_main_arg1 W)
theorem hval4_main_arg2 (W : Valuation τ sig (Elt F)) : hval4 W (no_index (Proc.devRef .tc main_arg2)) = W (Proc.devRef .tc main_arg2) :=
  (hval4_keep W main_arg2 (by decide)).trans (hval3_main_arg2 W)
theorem hval4_main_arg3 (W : Valuation τ sig (Elt F)) : hval4 W (no_index (Proc.devRef .tc main_arg3)) = W (Proc.devRef .tc main_arg3) :=
  (hval4_keep W main_arg3 (by decide)).trans (hval3_main_arg3 W)
theorem hval4_main_arg4 (W : Valuation τ sig (Elt F)) : hval4 W (no_index (Proc.devRef .tc main_arg4)) = W (Proc.devRef .tc main_arg4) :=
  (hval4_keep W main_arg4 (by decide)).trans (hval3_main_arg4 W)
theorem hval4_main_arg5 (W : Valuation τ sig (Elt F)) : hval4 W (no_index (Proc.devRef .tc main_arg5)) = W (Proc.devRef .tc main_arg5) :=
  (hval4_keep W main_arg5 (by decide)).trans (hval3_main_arg5 W)
theorem hval4_main_arg6 (W : Valuation τ sig (Elt F)) : hval4 W (no_index (Proc.devRef .tc main_arg6)) = W (Proc.devRef .tc main_arg6) :=
  (hval4_keep W main_arg6 (by decide)).trans (hval3_main_arg6 W)
theorem hval4_main_arg7 (W : Valuation τ sig (Elt F)) : hval4 W (no_index (Proc.devRef .tc main_arg7)) = W (Proc.devRef .tc main_arg7) :=
  (hval4_keep W main_arg7 (by decide)).trans (hval3_main_arg7 W)
theorem hval4_main_v15 (W : Valuation τ sig (Elt F)) : hval4 W (no_index (Proc.devRef .tc main_v15)) = KerTerm.expert (W (Proc.devRef .tc main_arg1)) :=
  (hval4_keep W main_v15 (by decide)).trans (hval3_main_v15 W)
theorem hval4_main_v7 (W : Valuation τ sig (Elt F)) : hval4 W (no_index (Proc.devRef .tc main_v7)) = KerTerm.mix (W (Proc.devRef .tc main_arg0)) (W (Proc.devRef .tc main_arg2)) (W (Proc.devRef .tc main_arg3)) :=
  (hval4_keep W main_v7 (by decide)).trans (hval3_main_v7 W)
theorem hval4_main_v11 (W : Valuation τ sig (Elt F)) : hval4 W (no_index (Proc.devRef .tc main_v11)) = KerTerm.mix (W (Proc.devRef .tc main_arg0)) (W (Proc.devRef .tc main_arg2)) (W (Proc.devRef .tc main_arg4)) :=
  (hval4_keep W main_v11 (by decide)).trans (hval3_main_v11 W)
set_option maxRecDepth 8192 in
theorem hval4_main_v21 (W : Valuation τ sig (Elt F)) : hval4 W (no_index (Proc.devRef .tc main_v21)) = KerTerm.takeAt (KerTerm.position (KerTerm.expert (W (Proc.devRef .tc main_arg1)))) (broadcastInDim S16384x1 ![0] bcast_S16384_S16384x1_0 (KerTerm.expert (W (Proc.devRef .tc main_arg1)))) := by
  unfold hval4
  simp only [hw3]
  after_results_simp <;> simp only [hval3_main_v19, hval3_main_v20] <;> rfl

/-- The device's contents after the first 5 windows. -/
def hval5 (W : Valuation τ sig (Elt F)) : Valuation τ sig (Elt F) := after hw4 (hval4 W)
/-- The buffers window 4 writes. -/
abbrev hw4_W : List (Ref sig .tc) := [main_v22, main_c_2, main_v23, main_v24, main_c_3, main_v25, main_v26, main_v27, main_c_4, main_call4_v0, main_call4_v1, main_v28]
theorem hw4_writes : (hw4 : List (HloOp τ sig (Elt F))).Forall fun op => op.writes ⊆ (hw4_W.map (Proc.devRef (τ := τ) .tc)).toFinset := by
  simp only [List.Forall]; exact ⟨by writes_one, by writes_one, by writes_one, by writes_one, by writes_one, by writes_one, by writes_one, by writes_one, by writes_one, by writes_one, by writes_one, by writes_one⟩
/-- A buffer window 4 does not write keeps its contents through it. -/
theorem hval5_keep (W : Valuation τ sig (Elt F)) (r : Ref sig .tc) (h : r ∉ hw4_W) :
    hval5 W (Proc.devRef .tc r) = hval4 W (Proc.devRef .tc r) :=
  after_of_writes_sub hw4 _ hw4_writes h
theorem hval5_main_arg0 (W : Valuation τ sig (Elt F)) : hval5 W (no_index (Proc.devRef .tc main_arg0)) = W (Proc.devRef .tc main_arg0) :=
  (hval5_keep W main_arg0 (by decide)).trans (hval4_main_arg0 W)
theorem hval5_main_arg1 (W : Valuation τ sig (Elt F)) : hval5 W (no_index (Proc.devRef .tc main_arg1)) = W (Proc.devRef .tc main_arg1) :=
  (hval5_keep W main_arg1 (by decide)).trans (hval4_main_arg1 W)
theorem hval5_main_arg2 (W : Valuation τ sig (Elt F)) : hval5 W (no_index (Proc.devRef .tc main_arg2)) = W (Proc.devRef .tc main_arg2) :=
  (hval5_keep W main_arg2 (by decide)).trans (hval4_main_arg2 W)
theorem hval5_main_arg3 (W : Valuation τ sig (Elt F)) : hval5 W (no_index (Proc.devRef .tc main_arg3)) = W (Proc.devRef .tc main_arg3) :=
  (hval5_keep W main_arg3 (by decide)).trans (hval4_main_arg3 W)
theorem hval5_main_arg4 (W : Valuation τ sig (Elt F)) : hval5 W (no_index (Proc.devRef .tc main_arg4)) = W (Proc.devRef .tc main_arg4) :=
  (hval5_keep W main_arg4 (by decide)).trans (hval4_main_arg4 W)
theorem hval5_main_arg5 (W : Valuation τ sig (Elt F)) : hval5 W (no_index (Proc.devRef .tc main_arg5)) = W (Proc.devRef .tc main_arg5) :=
  (hval5_keep W main_arg5 (by decide)).trans (hval4_main_arg5 W)
theorem hval5_main_arg6 (W : Valuation τ sig (Elt F)) : hval5 W (no_index (Proc.devRef .tc main_arg6)) = W (Proc.devRef .tc main_arg6) :=
  (hval5_keep W main_arg6 (by decide)).trans (hval4_main_arg6 W)
theorem hval5_main_arg7 (W : Valuation τ sig (Elt F)) : hval5 W (no_index (Proc.devRef .tc main_arg7)) = W (Proc.devRef .tc main_arg7) :=
  (hval5_keep W main_arg7 (by decide)).trans (hval4_main_arg7 W)
theorem hval5_main_v7 (W : Valuation τ sig (Elt F)) : hval5 W (no_index (Proc.devRef .tc main_v7)) = KerTerm.mix (W (Proc.devRef .tc main_arg0)) (W (Proc.devRef .tc main_arg2)) (W (Proc.devRef .tc main_arg3)) :=
  (hval5_keep W main_v7 (by decide)).trans (hval4_main_v7 W)
theorem hval5_main_v11 (W : Valuation τ sig (Elt F)) : hval5 W (no_index (Proc.devRef .tc main_v11)) = KerTerm.mix (W (Proc.devRef .tc main_arg0)) (W (Proc.devRef .tc main_arg2)) (W (Proc.devRef .tc main_arg4)) :=
  (hval5_keep W main_v11 (by decide)).trans (hval4_main_v11 W)
set_option maxRecDepth 8192 in
theorem hval5_main_v28 (W : Valuation τ sig (Elt F)) : hval5 W (no_index (Proc.devRef .tc main_v28)) = KerTerm.flat (W (Proc.devRef .tc main_arg1)) := by
  unfold hval5
  simp only [hw4]
  after_results_simp <;> simp only [hval4_main_v21, hval4_main_v15] <;> rfl

/-- The device's contents after the first 6 windows. -/
def hval6 (W : Valuation τ sig (Elt F)) : Valuation τ sig (Elt F) := after hw5 (hval5 W)
/-- The buffers window 5 writes. -/
abbrev hw5_W : List (Ref sig .tc) := [main_c_5, main_v29, main_v30, main_c_6, main_v31, main_v32, main_c_7, main_v33, main_v34, main_v35, main_v36, main_v37, main_v38]
theorem hw5_writes : (hw5 : List (HloOp τ sig (Elt F))).Forall fun op => op.writes ⊆ (hw5_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one⟩
/-- A buffer window 5 does not write keeps its contents through it. -/
theorem hval6_keep (W : Valuation τ sig (Elt F)) (r : Ref sig .tc) (h : r ∉ hw5_W) :
    hval6 W (Proc.devRef .tc r) = hval5 W (Proc.devRef .tc r) :=
  after_of_writes_sub hw5 _ hw5_writes h
theorem hval6_main_arg0 (W : Valuation τ sig (Elt F)) : hval6 W (no_index (Proc.devRef .tc main_arg0)) = W (Proc.devRef .tc main_arg0) :=
  (hval6_keep W main_arg0 (by decide)).trans (hval5_main_arg0 W)
theorem hval6_main_arg1 (W : Valuation τ sig (Elt F)) : hval6 W (no_index (Proc.devRef .tc main_arg1)) = W (Proc.devRef .tc main_arg1) :=
  (hval6_keep W main_arg1 (by decide)).trans (hval5_main_arg1 W)
theorem hval6_main_arg2 (W : Valuation τ sig (Elt F)) : hval6 W (no_index (Proc.devRef .tc main_arg2)) = W (Proc.devRef .tc main_arg2) :=
  (hval6_keep W main_arg2 (by decide)).trans (hval5_main_arg2 W)
theorem hval6_main_arg3 (W : Valuation τ sig (Elt F)) : hval6 W (no_index (Proc.devRef .tc main_arg3)) = W (Proc.devRef .tc main_arg3) :=
  (hval6_keep W main_arg3 (by decide)).trans (hval5_main_arg3 W)
theorem hval6_main_arg4 (W : Valuation τ sig (Elt F)) : hval6 W (no_index (Proc.devRef .tc main_arg4)) = W (Proc.devRef .tc main_arg4) :=
  (hval6_keep W main_arg4 (by decide)).trans (hval5_main_arg4 W)
theorem hval6_main_arg5 (W : Valuation τ sig (Elt F)) : hval6 W (no_index (Proc.devRef .tc main_arg5)) = W (Proc.devRef .tc main_arg5) :=
  (hval6_keep W main_arg5 (by decide)).trans (hval5_main_arg5 W)
theorem hval6_main_arg6 (W : Valuation τ sig (Elt F)) : hval6 W (no_index (Proc.devRef .tc main_arg6)) = W (Proc.devRef .tc main_arg6) :=
  (hval6_keep W main_arg6 (by decide)).trans (hval5_main_arg6 W)
theorem hval6_main_arg7 (W : Valuation τ sig (Elt F)) : hval6 W (no_index (Proc.devRef .tc main_arg7)) = W (Proc.devRef .tc main_arg7) :=
  (hval6_keep W main_arg7 (by decide)).trans (hval5_main_arg7 W)
theorem hval6_main_v28 (W : Valuation τ sig (Elt F)) : hval6 W (no_index (Proc.devRef .tc main_v28)) = KerTerm.flat (W (Proc.devRef .tc main_arg1)) :=
  (hval6_keep W main_v28 (by decide)).trans (hval5_main_v28 W)
theorem hval6_main_v7 (W : Valuation τ sig (Elt F)) : hval6 W (no_index (Proc.devRef .tc main_v7)) = KerTerm.mix (W (Proc.devRef .tc main_arg0)) (W (Proc.devRef .tc main_arg2)) (W (Proc.devRef .tc main_arg3)) :=
  (hval6_keep W main_v7 (by decide)).trans (hval5_main_v7 W)
theorem hval6_main_v11 (W : Valuation τ sig (Elt F)) : hval6 W (no_index (Proc.devRef .tc main_v11)) = KerTerm.mix (W (Proc.devRef .tc main_arg0)) (W (Proc.devRef .tc main_arg2)) (W (Proc.devRef .tc main_arg4)) :=
  (hval6_keep W main_v11 (by decide)).trans (hval5_main_v11 W)
set_option maxRecDepth 8192 in
theorem hval6_main_v38 (W : Valuation τ sig (Elt F)) : hval6 W (no_index (Proc.devRef .tc main_v38)) = KerTerm.inv (KerTerm.rowcol (W (Proc.devRef .tc main_arg1))) := by
  unfold hval6
  simp only [hw5]
  after_results_simp <;> simp only [hval5_main_v28] <;> rfl

/-- The device's contents after the first 7 windows. -/
def hval7 (W : Valuation τ sig (Elt F)) : Valuation τ sig (Elt F) := after hw6 (hval6 W)
/-- The buffers window 6 writes. -/
abbrev hw6_W : List (Ref sig .tc) := [main_v39, main_v40, main_cst, main_v41, main_v42]
theorem hw6_writes : (hw6 : List (HloOp τ sig (Elt F))).Forall fun op => op.writes ⊆ (hw6_W.map (Proc.devRef (τ := τ) .tc)).toFinset := by
  simp only [List.Forall]; exact ⟨by writes_one, by writes_one, by writes_one, by writes_one, by writes_one⟩
/-- A buffer window 6 does not write keeps its contents through it. -/
theorem hval7_keep (W : Valuation τ sig (Elt F)) (r : Ref sig .tc) (h : r ∉ hw6_W) :
    hval7 W (Proc.devRef .tc r) = hval6 W (Proc.devRef .tc r) :=
  after_of_writes_sub hw6 _ hw6_writes h
theorem hval7_main_arg0 (W : Valuation τ sig (Elt F)) : hval7 W (no_index (Proc.devRef .tc main_arg0)) = W (Proc.devRef .tc main_arg0) :=
  (hval7_keep W main_arg0 (by decide)).trans (hval6_main_arg0 W)
theorem hval7_main_arg1 (W : Valuation τ sig (Elt F)) : hval7 W (no_index (Proc.devRef .tc main_arg1)) = W (Proc.devRef .tc main_arg1) :=
  (hval7_keep W main_arg1 (by decide)).trans (hval6_main_arg1 W)
theorem hval7_main_arg2 (W : Valuation τ sig (Elt F)) : hval7 W (no_index (Proc.devRef .tc main_arg2)) = W (Proc.devRef .tc main_arg2) :=
  (hval7_keep W main_arg2 (by decide)).trans (hval6_main_arg2 W)
theorem hval7_main_arg3 (W : Valuation τ sig (Elt F)) : hval7 W (no_index (Proc.devRef .tc main_arg3)) = W (Proc.devRef .tc main_arg3) :=
  (hval7_keep W main_arg3 (by decide)).trans (hval6_main_arg3 W)
theorem hval7_main_arg4 (W : Valuation τ sig (Elt F)) : hval7 W (no_index (Proc.devRef .tc main_arg4)) = W (Proc.devRef .tc main_arg4) :=
  (hval7_keep W main_arg4 (by decide)).trans (hval6_main_arg4 W)
theorem hval7_main_arg5 (W : Valuation τ sig (Elt F)) : hval7 W (no_index (Proc.devRef .tc main_arg5)) = W (Proc.devRef .tc main_arg5) :=
  (hval7_keep W main_arg5 (by decide)).trans (hval6_main_arg5 W)
theorem hval7_main_arg6 (W : Valuation τ sig (Elt F)) : hval7 W (no_index (Proc.devRef .tc main_arg6)) = W (Proc.devRef .tc main_arg6) :=
  (hval7_keep W main_arg6 (by decide)).trans (hval6_main_arg6 W)
theorem hval7_main_arg7 (W : Valuation τ sig (Elt F)) : hval7 W (no_index (Proc.devRef .tc main_arg7)) = W (Proc.devRef .tc main_arg7) :=
  (hval7_keep W main_arg7 (by decide)).trans (hval6_main_arg7 W)
theorem hval7_main_v28 (W : Valuation τ sig (Elt F)) : hval7 W (no_index (Proc.devRef .tc main_v28)) = KerTerm.flat (W (Proc.devRef .tc main_arg1)) :=
  (hval7_keep W main_v28 (by decide)).trans (hval6_main_v28 W)
theorem hval7_main_v38 (W : Valuation τ sig (Elt F)) : hval7 W (no_index (Proc.devRef .tc main_v38)) = KerTerm.inv (KerTerm.rowcol (W (Proc.devRef .tc main_arg1))) :=
  (hval7_keep W main_v38 (by decide)).trans (hval6_main_v38 W)
set_option maxRecDepth 8192 in
theorem hval7_main_v42 (W : Valuation τ sig (Elt F)) : hval7 W (no_index (Proc.devRef .tc main_v42)) = catRow2048 (shapeCast S16384x2048 (catSide (KerTerm.mix (W (Proc.devRef .tc main_arg0)) (W (Proc.devRef .tc main_arg2)) (W (Proc.devRef .tc main_arg3))) (KerTerm.mix (W (Proc.devRef .tc main_arg0)) (W (Proc.devRef .tc main_arg2)) (W (Proc.devRef .tc main_arg4)))) shapeCasts_S8x2048x2048_S16384x2048) (broadcastInDim S1x2048 ![] bcast_S_S1x2048 (constant (F := F) S_ .bf16 0x0000#16)) := by
  unfold hval7
  simp only [hw6]
  after_results_simp <;> simp only [hval6_main_v7, hval6_main_v11] <;> rfl

/-- The device's contents after the first 8 windows. -/
def hval8 (W : Valuation τ sig (Elt F)) : Valuation τ sig (Elt F) := after hw7 (hval7 W)
/-- The buffers window 7 writes. -/
abbrev hw7_W : List (Ref sig .tc) := [main_c_8, main_v43, main_v44, main_c_9, main_v45, main_v46, main_v47, main_v48, main_v49, main_v50]
theorem hw7_writes : (hw7 : List (HloOp τ sig (Elt F))).Forall fun op => op.writes ⊆ (hw7_W.map (Proc.devRef (τ := τ) .tc)).toFinset := by
  simp only [List.Forall]; exact ⟨by writes_one, by writes_one, by writes_one, by writes_one, by writes_one, by writes_one, by writes_one, by writes_one, by writes_one, by writes_one⟩
/-- A buffer window 7 does not write keeps its contents through it. -/
theorem hval8_keep (W : Valuation τ sig (Elt F)) (r : Ref sig .tc) (h : r ∉ hw7_W) :
    hval8 W (Proc.devRef .tc r) = hval7 W (Proc.devRef .tc r) :=
  after_of_writes_sub hw7 _ hw7_writes h
theorem hval8_main_arg0 (W : Valuation τ sig (Elt F)) : hval8 W (no_index (Proc.devRef .tc main_arg0)) = W (Proc.devRef .tc main_arg0) :=
  (hval8_keep W main_arg0 (by decide)).trans (hval7_main_arg0 W)
theorem hval8_main_arg1 (W : Valuation τ sig (Elt F)) : hval8 W (no_index (Proc.devRef .tc main_arg1)) = W (Proc.devRef .tc main_arg1) :=
  (hval8_keep W main_arg1 (by decide)).trans (hval7_main_arg1 W)
theorem hval8_main_arg2 (W : Valuation τ sig (Elt F)) : hval8 W (no_index (Proc.devRef .tc main_arg2)) = W (Proc.devRef .tc main_arg2) :=
  (hval8_keep W main_arg2 (by decide)).trans (hval7_main_arg2 W)
theorem hval8_main_arg3 (W : Valuation τ sig (Elt F)) : hval8 W (no_index (Proc.devRef .tc main_arg3)) = W (Proc.devRef .tc main_arg3) :=
  (hval8_keep W main_arg3 (by decide)).trans (hval7_main_arg3 W)
theorem hval8_main_arg4 (W : Valuation τ sig (Elt F)) : hval8 W (no_index (Proc.devRef .tc main_arg4)) = W (Proc.devRef .tc main_arg4) :=
  (hval8_keep W main_arg4 (by decide)).trans (hval7_main_arg4 W)
theorem hval8_main_arg5 (W : Valuation τ sig (Elt F)) : hval8 W (no_index (Proc.devRef .tc main_arg5)) = W (Proc.devRef .tc main_arg5) :=
  (hval8_keep W main_arg5 (by decide)).trans (hval7_main_arg5 W)
theorem hval8_main_arg6 (W : Valuation τ sig (Elt F)) : hval8 W (no_index (Proc.devRef .tc main_arg6)) = W (Proc.devRef .tc main_arg6) :=
  (hval8_keep W main_arg6 (by decide)).trans (hval7_main_arg6 W)
theorem hval8_main_arg7 (W : Valuation τ sig (Elt F)) : hval8 W (no_index (Proc.devRef .tc main_arg7)) = W (Proc.devRef .tc main_arg7) :=
  (hval8_keep W main_arg7 (by decide)).trans (hval7_main_arg7 W)
theorem hval8_main_v28 (W : Valuation τ sig (Elt F)) : hval8 W (no_index (Proc.devRef .tc main_v28)) = KerTerm.flat (W (Proc.devRef .tc main_arg1)) :=
  (hval8_keep W main_v28 (by decide)).trans (hval7_main_v28 W)
set_option maxRecDepth 8192 in
theorem hval8_main_v50 (W : Valuation τ sig (Elt F)) : hval8 W (no_index (Proc.devRef .tc main_v50)) = KerTerm.operand0 (W (Proc.devRef .tc main_arg0)) (W (Proc.devRef .tc main_arg1)) (W (Proc.devRef .tc main_arg2)) (W (Proc.devRef .tc main_arg3)) (W (Proc.devRef .tc main_arg4)) := by
  unfold hval8
  simp only [hw7]
  after_results_simp <;> simp only [hval7_main_v42, hval7_main_v38] <;> rfl

/-- The device's contents after the first 9 windows. -/
def hval9 (W : Valuation τ sig (Elt F)) : Valuation τ sig (Elt F) := after hw8 (hval8 W)
/-- The buffers window 8 writes. -/
abbrev hw8_W : List (Ref sig .tc) := [main_v51, main_v52, main_v53]
theorem hw8_writes : (hw8 : List (HloOp τ sig (Elt F))).Forall fun op => op.writes ⊆ (hw8_W.map (Proc.devRef (τ := τ) .tc)).toFinset := by
  simp only [List.Forall]; exact ⟨by writes_one, by writes_one, by writes_one⟩
/-- A buffer window 8 does not write keeps its contents through it. -/
theorem hval9_keep (W : Valuation τ sig (Elt F)) (r : Ref sig .tc) (h : r ∉ hw8_W) :
    hval9 W (Proc.devRef .tc r) = hval8 W (Proc.devRef .tc r) :=
  after_of_writes_sub hw8 _ hw8_writes h
theorem hval9_main_arg0 (W : Valuation τ sig (Elt F)) : hval9 W (no_index (Proc.devRef .tc main_arg0)) = W (Proc.devRef .tc main_arg0) :=
  (hval9_keep W main_arg0 (by decide)).trans (hval8_main_arg0 W)
theorem hval9_main_arg1 (W : Valuation τ sig (Elt F)) : hval9 W (no_index (Proc.devRef .tc main_arg1)) = W (Proc.devRef .tc main_arg1) :=
  (hval9_keep W main_arg1 (by decide)).trans (hval8_main_arg1 W)
theorem hval9_main_arg2 (W : Valuation τ sig (Elt F)) : hval9 W (no_index (Proc.devRef .tc main_arg2)) = W (Proc.devRef .tc main_arg2) :=
  (hval9_keep W main_arg2 (by decide)).trans (hval8_main_arg2 W)
theorem hval9_main_arg3 (W : Valuation τ sig (Elt F)) : hval9 W (no_index (Proc.devRef .tc main_arg3)) = W (Proc.devRef .tc main_arg3) :=
  (hval9_keep W main_arg3 (by decide)).trans (hval8_main_arg3 W)
theorem hval9_main_arg4 (W : Valuation τ sig (Elt F)) : hval9 W (no_index (Proc.devRef .tc main_arg4)) = W (Proc.devRef .tc main_arg4) :=
  (hval9_keep W main_arg4 (by decide)).trans (hval8_main_arg4 W)
theorem hval9_main_arg5 (W : Valuation τ sig (Elt F)) : hval9 W (no_index (Proc.devRef .tc main_arg5)) = W (Proc.devRef .tc main_arg5) :=
  (hval9_keep W main_arg5 (by decide)).trans (hval8_main_arg5 W)
theorem hval9_main_arg6 (W : Valuation τ sig (Elt F)) : hval9 W (no_index (Proc.devRef .tc main_arg6)) = W (Proc.devRef .tc main_arg6) :=
  (hval9_keep W main_arg6 (by decide)).trans (hval8_main_arg6 W)
theorem hval9_main_arg7 (W : Valuation τ sig (Elt F)) : hval9 W (no_index (Proc.devRef .tc main_arg7)) = W (Proc.devRef .tc main_arg7) :=
  (hval9_keep W main_arg7 (by decide)).trans (hval8_main_arg7 W)
theorem hval9_main_v28 (W : Valuation τ sig (Elt F)) : hval9 W (no_index (Proc.devRef .tc main_v28)) = KerTerm.flat (W (Proc.devRef .tc main_arg1)) :=
  (hval9_keep W main_v28 (by decide)).trans (hval8_main_v28 W)
theorem hval9_main_v50 (W : Valuation τ sig (Elt F)) : hval9 W (no_index (Proc.devRef .tc main_v50)) = KerTerm.operand0 (W (Proc.devRef .tc main_arg0)) (W (Proc.devRef .tc main_arg1)) (W (Proc.devRef .tc main_arg2)) (W (Proc.devRef .tc main_arg3)) (W (Proc.devRef .tc main_arg4)) :=
  (hval9_keep W main_v50 (by decide)).trans (hval8_main_v50 W)
set_option maxRecDepth 8192 in
theorem hval9_main_v51 (W : Valuation τ sig (Elt F)) : hval9 W (no_index (Proc.devRef .tc main_v51)) = truncf .bf16 (W (Proc.devRef .tc main_arg5)) bitsLt_bf16_f32 := by
  unfold hval9
  simp only [hw8]
  after_results_simp <;> simp only [hval8_main_arg5] <;> rfl
set_option maxRecDepth 8192 in
theorem hval9_main_v52 (W : Valuation τ sig (Elt F)) : hval9 W (no_index (Proc.devRef .tc main_v52)) = truncf .bf16 (W (Proc.devRef .tc main_arg6)) bitsLt_bf16_f32 := by
  unfold hval9
  simp only [hw8]
  after_results_simp <;> simp only [hval8_main_arg6] <;> rfl
set_option maxRecDepth 8192 in
theorem hval9_main_v53 (W : Valuation τ sig (Elt F)) : hval9 W (no_index (Proc.devRef .tc main_v53)) = truncf .bf16 (W (Proc.devRef .tc main_arg7)) bitsLt_bf16_f32 := by
  unfold hval9
  simp only [hw8]
  after_results_simp <;> simp only [hval8_main_arg7] <;> rfl

/-- The whole list run from `W` is the windows run in turn. -/
theorem after_hops (W : Valuation τ sig (Elt F)) : after hops W = hval9 W := by
  show after (hw0 ++ (hw1 ++ (hw2 ++ (hw3 ++ (hw4 ++ (hw5 ++ (hw6 ++ (hw7 ++ (hw8))))))))) W = _
  simp only [after_app]
  rfl

/-! ## What the region finds -/

variable (m : (ℓ : Loc nD τ sig) → Buf (Elt F) ℓ)

/-- The contents at the region's entry are the windows run from the launch contents. -/
theorem V0_eq (c : Dev nD) : V0 m c = hval9 (fun b => m (c, b)) := by
  show StableHlo.after (List.flatten [hostOps0, hostOps0_1, hostOps0_2, hostOps0_3, hostOps0_4, hostOps0_5, hostOps0_6, hostOps0_7, hostOps0_8]) (fun b => m (c, b)) = _
  rw [prefix_eq, after_hops]

/-- The row of every token. -/
theorem V_v28 (c : Dev nD) : (V m c main_v28 : S16384.Idx → BitVec 32) = KerTerm.flat (m ((c : Thread nD τ).loc main_arg1)) := by
  show V0 m c (Proc.devRef .tc main_v28) = _
  rw [V0_eq]
  exact hval9_main_v28 _

/-- The region's first operand: the dispatched activations. -/
theorem V_v50 (c : Dev nD) : (V m c main_v50 : FVec F S8x2048x2048 .bf16)
    = KerTerm.operand0 (m ((c : Thread nD τ).loc main_arg0)) (m ((c : Thread nD τ).loc main_arg1)) (m ((c : Thread nD τ).loc main_arg2)) (m ((c : Thread nD τ).loc main_arg3)) (m ((c : Thread nD τ).loc main_arg4)) := by
  show V0 m c (Proc.devRef .tc main_v50) = _
  rw [V0_eq]
  exact hval9_main_v50 _

/-- The key matrices in the narrow format. -/
theorem V_v51 (c : Dev nD) : (V m c main_v51 : FVec F S8x1024x2048 .bf16) = truncf .bf16 (m ((c : Thread nD τ).loc main_arg5)) bitsLt_bf16_f32 := by
  show V0 m c (Proc.devRef .tc main_v51) = _
  rw [V0_eq]
  exact hval9_main_v51 _

/-- The value matrices in the narrow format. -/
theorem V_v52 (c : Dev nD) : (V m c main_v52 : FVec F S8x2048x1024 .bf16) = truncf .bf16 (m ((c : Thread nD τ).loc main_arg6)) bitsLt_bf16_f32 := by
  show V0 m c (Proc.devRef .tc main_v52) = _
  rw [V0_eq]
  exact hval9_main_v52 _

/-- The receptance matrices in the narrow format. -/
theorem V_v53 (c : Dev nD) : (V m c main_v53 : FVec F S8x1024x1024 .bf16) = truncf .bf16 (m ((c : Thread nD τ).loc main_arg7)) bitsLt_bf16_f32 := by
  show V0 m c (Proc.devRef .tc main_v53) = _
  rw [V0_eq]
  exact hval9_main_v53 _

/-! ## The operations after the region -/

/-- The seventeen operations after the region: the region's output flattened with a zero row appended, the column of
    rows from the row of every token, the lookup, the reshape and the widening; and the last row of x. -/
abbrev tw : List (HloOp τ sig (Elt F)) :=
  [ StableHlo.reshape main_v54 main_v55 rfl shapeCasts_S8x2048x1024_S16384x1024,
    StableHlo.nullary main_cst_10 (constant S_ .bf16 0x0000#16),
    StableHlo.unary main_cst_10 main_v56 (broadcastInDim S1x1024 ![] bcast_S_S1x1024 : (⟨S_, .bf16⟩ : BufTy).Contents (Elt F) → (⟨S1x1024, .bf16⟩ : BufTy).Contents (Elt F)),
    StableHlo.binary main_v55 main_v56 main_v57 (catRow1024 (F := F) : (⟨S16384x1024, .bf16⟩ : BufTy).Contents (Elt F) → (⟨S1x1024, .bf16⟩ : BufTy).Contents (Elt F) → (⟨S16385x1024, .bf16⟩ : BufTy).Contents (Elt F)),
    StableHlo.nullary main_c_11 (constantI S_ 32 0#32),
    StableHlo.unary main_c_11 main_v58 (broadcastInDim S16384 ![] bcast_S_S16384 : (⟨S_, .i32⟩ : BufTy).Contents (Elt F) → (⟨S16384, .i32⟩ : BufTy).Contents (Elt F)),
    StableHlo.binary main_v28 main_v58 main_v59 (cmpi .slt : (⟨S16384, .i32⟩ : BufTy).Contents (Elt F) → (⟨S16384, .i32⟩ : BufTy).Contents (Elt F) → (⟨S16384, .i1⟩ : BufTy).Contents (Elt F)),
    StableHlo.nullary main_c_12 (constantI S_ 32 16385#32),
    StableHlo.unary main_c_12 main_v60 (broadcastInDim S16384 ![] bcast_S_S16384 : (⟨S_, .i32⟩ : BufTy).Contents (Elt F) → (⟨S16384, .i32⟩ : BufTy).Contents (Elt F)),
    StableHlo.binary main_v28 main_v60 main_v61 (addi : (⟨S16384, .i32⟩ : BufTy).Contents (Elt F) → (⟨S16384, .i32⟩ : BufTy).Contents (Elt F) → (⟨S16384, .i32⟩ : BufTy).Contents (Elt F)),
    StableHlo.ternary main_v59 main_v61 main_v28 main_v62 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v62 main_v63 (broadcastInDim S16384x1 ![0] bcast_S16384_S16384x1_0 : (⟨S16384, .i32⟩ : BufTy).Contents (Elt F) → (⟨S16384x1, .i32⟩ : BufTy).Contents (Elt F)),
    StableHlo.binary main_v57 main_v63 main_v64 ((fun x i => Host.gather gather_S16385x1024_S16384x1_S16384x1024_1_0_n_n_0_1_11024 x i) : (⟨S16385x1024, .bf16⟩ : BufTy).Contents (Elt F) → (⟨S16384x1, .i32⟩ : BufTy).Contents (Elt F) → (⟨S16384x1024, .bf16⟩ : BufTy).Contents (Elt F)),
    StableHlo.reshape main_v64 main_v65 rfl shapeCasts_S16384x1024_S8x2048x1024,
    StableHlo.unary main_v65 main_v66 ((extf .f32 · bitsLt_bf16_f32) : (⟨S8x2048x1024, .bf16⟩ : BufTy).Contents (Elt F) → (⟨S8x2048x1024, .f32⟩ : BufTy).Contents (Elt F)),
    StableHlo.unary main_arg0 main_v67 ((extractStridedSlice S8x1x1024 ![0, 2047, 0] · slices_S8x2048x1024_S8x1x1024_0_2047_0) : (⟨S8x2048x1024, .f32⟩ : BufTy).Contents (Elt F) → (⟨S8x1x1024, .f32⟩ : BufTy).Contents (Elt F)),
    StableHlo.reshape main_v67 main_v68 rfl shapeCasts_S8x1x1024_S8x1024 ]

/-- The program's own list after the region is that list. -/
theorem tail_eq : (List.flatten [hostOps1] : List (HloOp τ sig (Elt F))) = tw := by
  chain_rfl

set_option maxRecDepth 8192 in
/-- From any contents `W`, the first result after those operations: the lookup of every token's row in the array held
    in the region's output buffer. -/
theorem tail66 (W : Valuation τ sig (Elt F)) :
    after tw W (no_index (Proc.devRef .tc main_v66))
      = KerTerm.out66 (KerTerm.wrapcol (W (Proc.devRef .tc main_v28))) (W (Proc.devRef .tc main_v54)) := by
  simp only [tw]
  after_results_simp <;> rfl

set_option maxRecDepth 8192 in
/-- From any contents `W`, the second result: the last row of the first argument. -/
theorem tail68 (W : Valuation τ sig (Elt F)) :
    after tw W (no_index (Proc.devRef .tc main_v68)) = KerTerm.out68 (W (Proc.devRef .tc main_arg0)) := by
  simp only [tw]
  after_results_simp <;> rfl

/-- The first result, from the rows of the tokens and the region's output array. -/
theorem tail_v66 (c : Dev nD) :
    Pipeline.afterTail₀ cfgs (dats m) 0 (V0 m) [hostOps1] c main_v66
      = KerTerm.out66 (KerTerm.wrapcol (V m c main_v28)) ((dats m 0 c).arrAt 4 cfg0.N) := by
  unfold Pipeline.afterTail₀
  rw [tail_eq, tail66]
  exact congrArg₂ KerTerm.out66
    (congrArg KerTerm.wrapcol (Pipeline.withArrays_of_ne _ c (V0 m c) _ main_v28
      (by exact (by decide : ∀ w, Pipeline.arrRef spec0 w ≠ main_v28))))
    (Pipeline.withArrays_arr spec0 launch0.win.arr_inj c _ _ 4)

/-- The second result: the last row of the first argument as launched. -/
theorem tail_v68 (c : Dev nD) :
    Pipeline.afterTail₀ cfgs (dats m) 0 (V0 m) [hostOps1] c main_v68 = KerTerm.out68 (m ((c : Thread nD τ).loc main_arg0)) := by
  unfold Pipeline.afterTail₀
  rw [tail_eq, tail68]
  exact congrArg KerTerm.out68
    ((Pipeline.withArrays_of_ne _ c (V0 m c) _ main_arg0
      (by exact (by decide : ∀ w, Pipeline.arrRef spec0 w ≠ main_arg0))).trans (V_main_arg0 m c))

end Cert.KernelIdeal.HostSide

end
-- ==== Proof.Spec.lean ====
/-
  What one dispatched slot becomes in one expert, as plain sums over the extended reals.

  A slot holds a key row `dk` and a receptance row `dr` (1024 numbers each). The expert has a key matrix `wk`
  (1024 × 2048), a value matrix `wv` (2048 × 1024) and a receptance matrix `wr` (1024 × 1024). The hidden
  activation is the square of the positive part of `dk · wk`; the key-value output is that activation times `wv`;
  the gate is the logistic function of `dr · wr`; the slot's output is their product, column by column.
  Both programs compute exactly these sums, so the two are compared through this one function.
-/
import Idealize.ShloMosaic.PureOps.Ideal
import Idealize.ShloMosaic.PureOps.Ideal.Laws
import Idealize.ShloMosaic.Lib.ValueIdx

noncomputable section

namespace Cert.Spec

open Idealize.ShloMosaic

/-- The single-precision pattern of 1.0 denotes the real number one. -/
theorem one_f32 : Ideal.ofBits .f32 0x3F800000#32 = 1 := by
  simp [Ideal.ofBits, Ideal.ieee]
  rw [← EReal.coe_mul, ← EReal.coe_one]
  congr 1
  norm_num

/-- The hidden activation of a slot at hidden unit `f`: the positive part of the key row times column `f` of the key
    matrix, squared. (The zero is written as the pattern both programs carry; it is never evaluated.) -/
def hid (dk : Fin 1024 → EReal) (wk : Fin 1024 → Fin 2048 → EReal) (f : Fin 2048) : EReal :=
  max (∑ k : Fin 1024, dk k * wk k f) (Ideal.ofBits .f32 0x00000000#32)
    * max (∑ k : Fin 1024, dk k * wk k f) (Ideal.ofBits .f32 0x00000000#32)

/-- The key-value output at column `n`: the hidden activations times column `n` of the value matrix. -/
def kvOut (dk : Fin 1024 → EReal) (wk : Fin 1024 → Fin 2048 → EReal) (wv : Fin 2048 → Fin 1024 → EReal) (n : Fin 1024) : EReal :=
  ∑ f : Fin 2048, hid dk wk f * wv f n

/-- The gate at column `n`: the logistic function of the receptance row times column `n` of the receptance matrix. -/
def gate (dr : Fin 1024 → EReal) (wr : Fin 1024 → Fin 1024 → EReal) (n : Fin 1024) : EReal :=
  Ideal.logistic (∑ k : Fin 1024, dr k * wr k n)

/-- The slot's output at column `n`: key-value output times gate. -/
def slotOut (dk dr : Fin 1024 → EReal) (wk : Fin 1024 → Fin 2048 → EReal) (wv : Fin 2048 → Fin 1024 → EReal)
    (wr : Fin 1024 → Fin 1024 → EReal) (n : Fin 1024) : EReal :=
  kvOut dk wk wv n * gate dr wr n

end Cert.Spec

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.KerPayload.lean ====
/-
  The kernel body's stored value, read at one entry.

  At a grid point the body holds a block of 256 dispatched slots (each a row of 2048 numbers: the key row then the
  receptance row) and one expert's three matrices. Entry (y, n) of what it stores is the output of slot y at
  column n: the three matrix products are plain sums over the contracted axis, the changes of float format are
  the identity on the extended reals, and the pointwise operations act entry by entry.
-/
import proofs.«113595_j78640851189970_2_alg».proof.Proof.Gen.KernelIdeal.Skeleton
import proofs.«113595_j78640851189970_2_alg».proof.Proof.Spec
import proofs.«113595_j78640851189970_2_alg».proof.Proof.LibPlainDot
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

variable [Cert.KernelIdeal.Facts]

/-- The key half of slot `y` of a block: columns 0 … 1023 of its row. -/
def keyRow (x0 : FVec Ideal S1x256x2048 .bf16) (y : Fin 256) (k : Fin 1024) : EReal :=
  x0 (ix3 (0 : Fin 1) y (⟨k.val, by omega⟩ : Fin 2048))

/-- The receptance half of slot `y` of a block: columns 1024 … 2047 of its row. -/
def recRow (x0 : FVec Ideal S1x256x2048 .bf16) (y : Fin 256) (k : Fin 1024) : EReal :=
  x0 (ix3 (0 : Fin 1) y (⟨1024 + k.val, by omega⟩ : Fin 2048))

/-- The key half of a block, as the body cuts it out, read at (y, k). -/
theorem key_cut (x0 : FVec Ideal S1x256x2048 .bf16) (y : Fin 256) (k : Fin 1024) :
    extractStridedSlice S256x1024 ![0, 0] (shapeCast S256x2048 x0 shapeCasts_S1x256x2048_S256x2048)
      slices_S256x2048_o0_0_S256x1024 (ix2 y k) = keyRow x0 y k :=
  (slice2_axis1_apply 0 _ _ y k (⟨k.val, by omega⟩ : Fin 2048) (Nat.zero_add _).symm).trans
    (shapeCast_1ab_ab_apply x0 _ y _)

/-- The receptance half of a block, as the body cuts it out, read at (y, k). -/
theorem rec_cut (x0 : FVec Ideal S1x256x2048 .bf16) (y : Fin 256) (k : Fin 1024) :
    extractStridedSlice S256x1024 ![0, 1024] (shapeCast S256x2048 x0 shapeCasts_S1x256x2048_S256x2048)
      slices_S256x2048_o0_1024_S256x1024 (ix2 y k) = recRow x0 y k :=
  (slice2_axis1_apply 1024 _ _ y k (⟨1024 + k.val, by omega⟩ : Fin 2048) rfl).trans
    (shapeCast_1ab_ab_apply x0 _ y _)

/-- The first product at (y, f): the key row of slot y times column f of the key matrix. -/
theorem key_dot (x0 : FVec Ideal S1x256x2048 .bf16) (x1 : FVec Ideal S1x1024x2048 .bf16) (y : Fin 256) (f : Fin 2048) :
    matmul (F := Ideal) dot_S256x1024_S1024x2048_S256x2048_1_0_0_1_n_n none
        (extractStridedSlice S256x1024 ![0, 0] (shapeCast S256x2048 x0 shapeCasts_S1x256x2048_S256x2048)
          slices_S256x2048_o0_0_S256x1024)
        (shapeCast S1024x2048 x1 shapeCasts_S1x1024x2048_S1024x2048) (constant S256x2048 .f32 0x00000000#32) (ix2 y f)
      = ∑ k : Fin 1024, keyRow x0 y k * x1 (ix3 (0 : Fin 1) k f) :=
  (matmul_plain_zero_apply _ rfl none _ _ y f).trans
    (Finset.sum_congr rfl fun k _ => congrArg₂ (· * ·) (key_cut x0 y k) (shapeCast_1ab_ab_apply x1 _ k f))

/-- The third product at (y, n): the receptance row of slot y times column n of the receptance matrix. -/
theorem rec_dot (x0 : FVec Ideal S1x256x2048 .bf16) (x3 : FVec Ideal S1x1024x1024 .bf16) (y : Fin 256) (n : Fin 1024) :
    matmul (F := Ideal) dot_S256x1024_S1024x1024_S256x1024_1_0_0_1_n_n none
        (extractStridedSlice S256x1024 ![0, 1024] (shapeCast S256x2048 x0 shapeCasts_S1x256x2048_S256x2048)
          slices_S256x2048_o0_1024_S256x1024)
        (shapeCast S1024x1024 x3 shapeCasts_S1x1024x1024_S1024x1024) (constant S256x1024 .f32 0x00000000#32) (ix2 y n)
      = ∑ k : Fin 1024, recRow x0 y k * x3 (ix3 (0 : Fin 1) k n) :=
  (matmul_plain_zero_apply _ rfl none _ _ y n).trans
    (Finset.sum_congr rfl fun k _ => congrArg₂ (· * ·) (rec_cut x0 y k) (shapeCast_1ab_ab_apply x3 _ k n))

/-- The second product at (y, n), over any hidden activations `h` that are the specification's entry by entry. -/
theorem value_dot (h : FVec Ideal S256x2048 .bf16) (x2 : FVec Ideal S1x2048x1024 .bf16) (y : Fin 256) (n : Fin 1024)
    (g : Fin 2048 → EReal) (hg : ∀ f : Fin 2048, h (ix2 y f) = g f) :
    matmul (F := Ideal) dot_S256x2048_S2048x1024_S256x1024_1_0_0_1_n_n none h
        (shapeCast S2048x1024 x2 shapeCasts_S1x2048x1024_S2048x1024) (constant S256x1024 .f32 0x00000000#32) (ix2 y n)
      = ∑ f : Fin 2048, g f * x2 (ix3 (0 : Fin 1) f n) :=
  (matmul_plain_zero_apply _ rfl none _ _ y n).trans
    (Finset.sum_congr rfl fun f _ => congrArg₂ (· * ·) (hg f) (shapeCast_1ab_ab_apply x2 _ f n))

/-- Entry (y, n) of the stored block is slot y's output at column n. -/
theorem pay_apply (x0 : Vec Ideal S1x256x2048 .bf16) (x1 : Vec Ideal S1x1024x2048 .bf16)
    (x2 : Vec Ideal S1x2048x1024 .bf16) (x3 : Vec Ideal S1x1024x1024 .bf16) (u : Fin 1) (y : Fin 256) (n : Fin 1024) :
    k0_pay1 (F := Ideal) x0 x1 x2 x3 (ix3 u y n)
      = Cert.Spec.slotOut (keyRow x0 y) (recRow x0 y) (fun k f => x1 (ix3 (0 : Fin 1) k f))
          (fun f n' => x2 (ix3 (0 : Fin 1) f n')) (fun k n' => x3 (ix3 (0 : Fin 1) k n')) n := by
  unfold k0_pay1
  refine (shapeCast_ab_1ab_apply _ _ u y n).trans ?_
  refine congrArg₂ (· * ·) ?_ (congrArg Ideal.logistic (rec_dot x0 x3 y n))
  refine value_dot _ x2 y n _ fun f => ?_
  exact congrArg (fun s : EReal => max s (Ideal.ofBits .f32 0x00000000#32) * max s (Ideal.ofBits .f32 0x00000000#32))
    (key_dot x0 x1 y f)

end Cert.KernelIdeal.Pay

end
-- ==== Proof.KerArray.lean ====
/-
  From the blocks the grid points write back to the whole output array of the region.

  The grid is 8 experts by 8 tiles of 256 slots. Point (e, c) reads the 256 slots e·2048 + c·256 … of the dispatched
  activations (2048 numbers per slot) and expert e's three matrices, and writes rows c·256 … of expert e's part of the
  output. Every point's block is the restriction of one function of the arrays the region finds: entry (e, p, n) is the
  output of slot (e, p) at column n. The 64 blocks tile the output array, so after the region the array is that function.
-/
import proofs.«113595_j78640851189970_2_alg».proof.Proof.Gen.KernelIdeal.Frame
import proofs.«113595_j78640851189970_2_alg».proof.Proof.KerPayload

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl

/-- The output of slot (e, p) at column n, from the dispatched activations `D` (key row then receptance row) and the
    experts' matrices. -/
def prodAt (D : S8x2048x2048.Idx → Elt Ideal .bf16) (K : S8x1024x2048.Idx → Elt Ideal .bf16)
    (Vv : S8x2048x1024.Idx → Elt Ideal .bf16) (Rr : S8x1024x1024.Idx → Elt Ideal .bf16)
    (e : Fin 8) (p : Fin 2048) (n : Fin 1024) : EReal :=
  Cert.Spec.slotOut (fun k => D (ix3 e p (⟨k.val, by omega⟩ : Fin 2048)))
    (fun k => D (ix3 e p (⟨1024 + k.val, by omega⟩ : Fin 2048)))
    (fun k f => K (ix3 e k f)) (fun f n' => Vv (ix3 e f n')) (fun k n' => Rr (ix3 e k n')) n

/-- The region's output array as one function of the arrays it reads. -/
def Gprod (D : S8x2048x2048.Idx → Elt Ideal .bf16) (K : S8x1024x2048.Idx → Elt Ideal .bf16)
    (Vv : S8x2048x1024.Idx → Elt Ideal .bf16) (Rr : S8x1024x1024.Idx → Elt Ideal .bf16) :
    S8x2048x1024.Idx → Elt Ideal .bf16 :=
  fun i => prodAt D K Vv Rr (i 0) (i 1) (i 2)

/-- The printed index maps over the grid: the activations' block moves with the output's; a weight block is its
    expert's whole matrix; the block numbers stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 7 ∧ win0_4.index t (1 : Fin 3) ≤ 7 ∧ win0_4.index t (2 : Fin 3) = 0 :=
  (by decide +kernel : ∀ t : Fin grid0.N, _)

/-- Every (expert, tile) pair is some point's block. -/
theorem idx_onto : ∀ (q0 : Fin 8) (q1 : Fin 8), ∃ t : Fin cfg0.N, win0_4.index t = ![q0.val, q1.val, 0] :=
  (by decide +kernel : ∀ (q0 : Fin 8) (q1 : Fin 8), ∃ t : Fin grid0.N, win0_4.index t = ![q0.val, q1.val, 0])

/-- The activations' block at point `t`, read at slot `y` and column `k`. -/
theorem blk0_read (c : Dev nD) (t : Fin cfg0.N) (e : Fin 8) (cc : Fin 8) (he : win0_4.index t (0 : Fin 3) = e.val)
    (hc : win0_4.index t (1 : Fin 3) = cc.val) (y : Fin 256) (k : Fin 2048) :
    iblk m c 0 t (ix3 (0 : Fin 1) y k) = V m c main_v50 (ix3 e (⟨cc.val * 256 + y.val, by omega⟩ : Fin 2048) k) := by
  obtain ⟨a0, a1, a2, -⟩ := idx_facts t
  show V m c main_v50 (((cfg0.win 0).blk t).view.emb (ix3 (0 : Fin 1) y k)) = _
  refine congrArg (V m c main_v50) ?_
  funext a; apply Fin.ext
  match a with
  | ⟨0, _⟩ => show win0_0.index t (0 : Fin 3) * 1 + 1 * 0 = e.val; omega
  | ⟨1, _⟩ => show win0_0.index t (1 : Fin 3) * 256 + 1 * y.val = cc.val * 256 + y.val; omega
  | ⟨2, _⟩ => show win0_0.index t (2 : Fin 3) * 2048 + 1 * k.val = k.val; omega

/-- The key matrix's block at point `t` is expert `e`'s matrix. -/
theorem blk1_read (c : Dev nD) (t : Fin cfg0.N) (e : Fin 8) (he : win0_4.index t (0 : Fin 3) = e.val)
    (k : Fin 1024) (f : Fin 2048) :
    iblk m c 1 t (ix3 (0 : Fin 1) k f) = V m c main_v51 (ix3 e k f) := by
  obtain ⟨-, -, -, a0, a1, a2, -⟩ := idx_facts t
  show V m c main_v51 (((cfg0.win 1).blk t).view.emb (ix3 (0 : Fin 1) k f)) = _
  refine congrArg (V m c main_v51) ?_
  funext a; apply Fin.ext
  match a with
  | ⟨0, _⟩ => show win0_1.index t (0 : Fin 3) * 1 + 1 * 0 = e.val; omega
  | ⟨1, _⟩ => show win0_1.index t (1 : Fin 3) * 1024 + 1 * k.val = k.val; omega
  | ⟨2, _⟩ => show win0_1.index t (2 : Fin 3) * 2048 + 1 * f.val = f.val; omega

/-- The value matrix's block at point `t` is expert `e`'s matrix. -/
theorem blk2_read (c : Dev nD) (t : Fin cfg0.N) (e : Fin 8) (he : win0_4.index t (0 : Fin 3) = e.val)
    (f : Fin 2048) (n : Fin 1024) :
    iblk m c 2 t (ix3 (0 : Fin 1) f n) = V m c main_v52 (ix3 e f n) := by
  obtain ⟨-, -, -, -, -, -, a0, a1, a2, -⟩ := idx_facts t
  show V m c main_v52 (((cfg0.win 2).blk t).view.emb (ix3 (0 : Fin 1) f n)) = _
  refine congrArg (V m c main_v52) ?_
  funext a; apply Fin.ext
  match a with
  | ⟨0, _⟩ => show win0_2.index t (0 : Fin 3) * 1 + 1 * 0 = e.val; omega
  | ⟨1, _⟩ => show win0_2.index t (1 : Fin 3) * 2048 + 1 * f.val = f.val; omega
  | ⟨2, _⟩ => show win0_2.index t (2 : Fin 3) * 1024 + 1 * n.val = n.val; omega

/-- The receptance matrix's block at point `t` is expert `e`'s matrix. -/
theorem blk3_read (c : Dev nD) (t : Fin cfg0.N) (e : Fin 8) (he : win0_4.index t (0 : Fin 3) = e.val)
    (k : Fin 1024) (n : Fin 1024) :
    iblk m c 3 t (ix3 (0 : Fin 1) k n) = V m c main_v53 (ix3 e k n) := by
  obtain ⟨-, -, -, -, -, -, -, -, -, a0, a1, a2, -⟩ := idx_facts t
  show V m c main_v53 (((cfg0.win 3).blk t).view.emb (ix3 (0 : Fin 1) k n)) = _
  refine congrArg (V m c main_v53) ?_
  funext a; apply Fin.ext
  match a with
  | ⟨0, _⟩ => show win0_3.index t (0 : Fin 3) * 1 + 1 * 0 = e.val; omega
  | ⟨1, _⟩ => show win0_3.index t (1 : Fin 3) * 1024 + 1 * k.val = k.val; omega
  | ⟨2, _⟩ => show win0_3.index t (2 : Fin 3) * 1024 + 1 * n.val = n.val; omega

/-- WHAT POINT `t` WRITES BACK is block `t` of `Gprod` of the arrays the region finds. -/
theorem flushed_eq (c : Dev nD) (t : Fin cfg0.N) :
    (dats m 0 c).flushed 4 t = ((cfg0.win 4).blk t).view.read (Elt Ideal)
      (Gprod (V m c main_v50) (V m c main_v51) (V m c main_v52) (V m c main_v53)) := by
  show (cfg0.win 4).cut (grid0.coords t) ((dats m 0 c).after 4 t) = _
  rw [after0_4]
  unfold out0_4
  rw [View.canon_unit_zero hz3]
  simp only [View.ld_unit_zero (S := S1x256x2048) hz3, View.ld_unit_zero (S := S1x1024x2048) hz3,
    View.ld_unit_zero (S := S1x2048x1024) hz3, View.ld_unit_zero (S := S1x1024x1024) hz3]
  obtain ⟨-, -, -, -, -, -, -, -, -, -, -, -, b0, b1, b2⟩ := idx_facts t
  funext j
  obtain ⟨u, y, n, rfl⟩ : ∃ (u : Fin 1) (y : Fin 256) (n : Fin 1024), j = ix3 u y n := ⟨j 0, j 1, j 2, eq_ix3 j⟩
  have hu : u.val = 0 := by omega
  have hemb : ((cfg0.win 4).blk t).view.emb (ix3 u y n)
      = ix3 (⟨win0_4.index t (0 : Fin 3), by omega⟩ : Fin 8)
          (⟨win0_4.index t (1 : Fin 3) * 256 + y.val, by omega⟩ : Fin 2048) n := by
    funext a; apply Fin.ext
    match a with
    | ⟨0, _⟩ => show win0_4.index t (0 : Fin 3) * 1 + 1 * u.val = win0_4.index t (0 : Fin 3); omega
    | ⟨1, _⟩ => show win0_4.index t (1 : Fin 3) * 256 + 1 * y.val = win0_4.index t (1 : Fin 3) * 256 + y.val; omega
    | ⟨2, _⟩ => show win0_4.index t (2 : Fin 3) * 1024 + 1 * n.val = n.val; omega
  show k0_pay1 (iblk m c 0 t) (iblk m c 1 t) (iblk m c 2 t) (iblk m c 3 t) (ix3 u y n)
      = Gprod (V m c main_v50) (V m c main_v51) (V m c main_v52) (V m c main_v53)
          (((cfg0.win 4).blk t).view.emb (ix3 u y n))
  refine (Pay.pay_apply (iblk m c 0 t) (iblk m c 1 t) (iblk m c 2 t) (iblk m c 3 t) u y n).trans ?_
  refine Eq.trans ?_ (congrArg (Gprod (V m c main_v50) (V m c main_v51) (V m c main_v52) (V m c main_v53)) hemb.symm)
  have h1 : Pay.keyRow (iblk m c 0 t) y = fun k : Fin 1024 => V m c main_v50
      (ix3 (⟨win0_4.index t (0 : Fin 3), by omega⟩ : Fin 8)
        (⟨win0_4.index t (1 : Fin 3) * 256 + y.val, by omega⟩ : Fin 2048) (⟨k.val, by omega⟩ : Fin 2048)) :=
    funext fun k => blk0_read m c t ⟨win0_4.index t (0 : Fin 3), by omega⟩ ⟨win0_4.index t (1 : Fin 3), by omega⟩ rfl rfl y _
  have h2 : Pay.recRow (iblk m c 0 t) y = fun k : Fin 1024 => V m c main_v50
      (ix3 (⟨win0_4.index t (0 : Fin 3), by omega⟩ : Fin 8)
        (⟨win0_4.index t (1 : Fin 3) * 256 + y.val, by omega⟩ : Fin 2048) (⟨1024 + k.val, by omega⟩ : Fin 2048)) :=
    funext fun k => blk0_read m c t ⟨win0_4.index t (0 : Fin 3), by omega⟩ ⟨win0_4.index t (1 : Fin 3), by omega⟩ rfl rfl y _
  have h3 : (fun (k : Fin 1024) (f : Fin 2048) => iblk m c 1 t (ix3 (0 : Fin 1) k f))
      = fun k f => V m c main_v51 (ix3 (⟨win0_4.index t (0 : Fin 3), by omega⟩ : Fin 8) k f) :=
    funext fun k => funext fun f => blk1_read m c t ⟨win0_4.index t (0 : Fin 3), by omega⟩ rfl k f
  have h4 : (fun (f : Fin 2048) (n' : Fin 1024) => iblk m c 2 t (ix3 (0 : Fin 1) f n'))
      = fun f n' => V m c main_v52 (ix3 (⟨win0_4.index t (0 : Fin 3), by omega⟩ : Fin 8) f n') :=
    funext fun f => funext fun n' => blk2_read m c t ⟨win0_4.index t (0 : Fin 3), by omega⟩ rfl f n'
  have h5 : (fun (k : Fin 1024) (n' : Fin 1024) => iblk m c 3 t (ix3 (0 : Fin 1) k n'))
      = fun k n' => V m c main_v53 (ix3 (⟨win0_4.index t (0 : Fin 3), by omega⟩ : Fin 8) k n') :=
    funext fun k => funext fun n' => blk3_read m c t ⟨win0_4.index t (0 : Fin 3), by omega⟩ rfl k n'
  rw [h1, h2, h3, h4, h5]
  rfl

/-- An index of the output array is in point `t`'s block iff each coordinate is in the block's range on its axis. -/
theorem mem_blk (t : Fin cfg0.N) (i : S8x2048x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v54).slice (win0_4.rect t)).set ↔ _
  rw [View.set_slice_whole, Rect.mem_set_unit]
  exact Iff.rfl

/-- The 64 blocks cover the output array: entry (e, p, n) lies in the block of expert e's tile p / 256. -/
theorem cover (i : S8x2048x1024.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-- THE OUTPUT ARRAY after the region: `Gprod` of the arrays the region finds. -/
theorem final (c : Dev nD) :
    (dats m 0 c).arrAt 4 cfg0.N = Gprod (V m c main_v50) (V m c main_v51) (V m c main_v52) (V m c main_v53) :=
  (dats m 0 c).arrAt_eq_of_cover 4 _ (fun t _ => flushed_eq m c t) cover

end Cert.KernelIdeal.Arr

end
-- ==== Proof.KerOut.lean ====
/-
  The kernel program's first result as one function of the argument arrays: the tokens' rows looked up in the
  region's output, the region's output being the slot outputs of the dispatched activations and of the experts'
  matrices in the narrow format.
-/
import proofs.«113595_j78640851189970_2_alg».proof.Proof.KerTerm
import proofs.«113595_j78640851189970_2_alg».proof.Proof.KerArray

noncomputable section

namespace Cert.KernelIdeal.Run

open Idealize.ShloMosaic Cert.KernelIdeal
open Facts₀ Facts

/-- The first result as a function of the argument arrays. -/
def out66 (x : FVec Ideal S8x2048x1024 .f32) (tok : IVec S8x2048 32) (ss : FVec Ideal S8x1024 .f32)
    (mk mr : FVec Ideal S1x1x1024 .f32) (Wk : FVec Ideal S8x1024x2048 .f32) (Wv : FVec Ideal S8x2048x1024 .f32)
    (Wr : FVec Ideal S8x1024x1024 .f32) : FVec Ideal S8x2048x1024 .f32 :=
  KerTerm.out66 (F := Ideal) (KerTerm.rowcol tok)
    (Arr.Gprod (KerTerm.operand0 (F := Ideal) x tok ss mk mr) (truncf .bf16 Wk bitsLt_bf16_f32)
      (truncf .bf16 Wv bitsLt_bf16_f32) (truncf .bf16 Wr bitsLt_bf16_f32))

end Cert.KernelIdeal.Run

end
-- ==== Proof.KerRun.lean ====
/-
  The idealized kernel program's run with its two results named: every weakly fair execution terminates, the first
  result is the lookup, by the tokens' rows, of the region's output array — the specification's slot outputs of the
  dispatched activations and the experts' matrices as the host operations before the region leave them —, the second
  result is the last time step of x, and the arguments are unchanged.
-/
import proofs.«113595_j78640851189970_2_alg».proof.Proof.KerHost
import proofs.«113595_j78640851189970_2_alg».proof.Proof.KerArray
import proofs.«113595_j78640851189970_2_alg».proof.Proof.KerOut

noncomputable section

namespace Cert.KernelIdeal.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first result after the run, from the launch contents of the arguments. -/
theorem tail_out66 (c : Dev nD) :
    Pipeline.afterTail₀ cfgs (dats m) 0 (V0 m) [hostOps1] c main_v66
      = out66 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  rw [HostSide.tail_v66, HostSide.V_v28, Arr.final, HostSide.V_v50, HostSide.V_v51, HostSide.V_v52, HostSide.V_v53]
  rfl

/-- THE RUN: both results named, the arguments unchanged. -/
theorem run : θ_run defs (onTc (τ := τ) (main (F := Ideal))) ⟨m, fun _ => 0, ρ⟩ fun r => ∀ c : Dev nD,
      r.2.mem ((c.tc : Thread nD τ).loc main_v66)
          = out66 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v68) = KerTerm.out68 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v66 (Pipeline.mem_restRefs_of main_v66 (by decide) (by decide))).trans (tail_out66 m c),
     ((h c).2 main_v68 (Pipeline.mem_restRefs_of main_v68 (by decide) (by decide))).trans (HostSide.tail_v68 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c)⟩)
    (run_main m ρ)

end Cert.KernelIdeal.Run

end
-- ==== Proof.LibRowGatherScatter.lean ====
/-
  A gather of rows and an accumulating scatter of rows, read at an entry.

  `x[rows]` for a matrix `x : [N, C]` and row numbers `rows : [R, 1]` lowers to a gather whose result
  `[R, C]` holds, at `(e, c)`, the entry `(ρ e, c)` of `x`, where `ρ e` is the row number `rows[e, 0]`
  read as a signed integer and clamped into `[0, N − 1]`: the column is kept, the row is looked up.

  `segment_sum(upd, rows)` for updates `upd : [R, C]` lowers to an accumulating scatter into `[N, C]`:
  update `(e, c)` lands on entry `(rows[e, 0], c)` when that row number, read signed and NOT clamped,
  lies in `[0, N)`, and is dropped otherwise. So entry `(v, k)` of the result is the operand's entry plus
  the sum, over the update rows `e` whose row number is `v`, of `upd (e, k)`.
-/
import Idealize.ShloMosaic.Lib.ValueIdx
import Idealize.ShloMosaic.PureOps.Ideal
import Idealize.ShloMosaic.PureOps.Ideal.Laws

noncomputable section

namespace RowOps

open Idealize.ShloMosaic Idealize.ShloMosaic.ValueIdx

/-- The entry `[e, 0]` of a column of `R` row numbers. -/
abbrev col0 {R : Nat} (e : Fin R) : (⟨2, ![R, 1]⟩ : Shape).Idx := ix2 e (⟨0, Nat.one_pos⟩ : Fin 1)

/-! ## Rows gathered -/

section Gather
variable {α : Type}

/-- The dimension numbers of `x[rows]`: operand `[N, C]`, start indices `[R, 1]`, result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of the operand that result row `e` reads: its row number read signed, clamped into `[0, N − 1]`. -/
def gatheredRow {N R w : Nat} (hN : 0 < N) (idx : IVec ⟨2, ![R, 1]⟩ w) (e : Fin R) : Fin N :=
  ⟨min (idx (col0 e)).toInt.toNat (N - 1), by omega⟩

/-- THE ROW GATHER READ AT `(e, c)`: entry `c` of the looked-up row. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (gatheredRow hN idx e) c) := by
  unfold Host.gather
  congr 1
  have h0 : ((rowGatherDims N R C wf).operandIdx (ix2 e c) idx (0 : Fin 2)).val = (gatheredRow hN idx e).val := by
    show (rowGatherDims N R C wf).start (ix2 e c) idx (0 : Fin 2) + (rowGatherDims N R C wf).batchCoord (ix2 e c) (0 : Fin 2)
        + (rowGatherDims N R C wf).offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = col0 e := by
      funext b; refine Fin.ext ?_
      match b with
      | ⟨0, _⟩ => rfl
      | ⟨1, _⟩ => rfl
    rw [hsi]
    rfl
  have h1 : ((rowGatherDims N R C wf).operandIdx (ix2 e c) idx (1 : Fin 2)).val = c.val := by
    show (rowGatherDims N R C wf).start (ix2 e c) idx (1 : Fin 2) + (rowGatherDims N R C wf).batchCoord (ix2 e c) (1 : Fin 2)
        + (rowGatherDims N R C wf).offCoord (ix2 e c) (1 : Fin 2) = _
    rw [GatherDims.batchCoord_eq_zero _ _ _ List.not_mem_nil, Nat.add_zero]
    have hn : (1 : Fin 2) ∉ (rowGatherDims N R C wf).startIndexMap := fun h =>
      absurd (List.mem_singleton.mp h) (by decide : ¬ (1 : Fin 2) = 0)
    have hk : (1 : Fin 2) ∈ (rowGatherDims N R C wf).sKept :=
      (GatherDims.mem_sKept _ _).mpr ⟨fun h => absurd (List.mem_singleton.mp h) (by decide : ¬ (1 : Fin 2) = 0),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

end Gather

/-! ## Rows scattered and accumulated -/

section Scatter

/-- The dimension numbers of `segment_sum` over rows: operand `[N, C]`, scatter indices `[R, 1]`, updates `[R, C]`. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window of update `(e, c)` starts at its row number, read signed. -/
theorem start_row (e : Fin R) (c : Fin C) :
    (rowScatterDims N R C wf).start (ix2 e c) idx (0 : Fin 2) = (idx (col0 e)).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- On the column axis it starts at zero. -/
theorem start_col (e : Fin R) (c : Fin C) : (rowScatterDims N R C wf).start (ix2 e c) idx (1 : Fin 2) = 0 := by
  unfold ScatterDims.start
  rw [dif_neg (fun h => absurd (List.mem_singleton.mp h) (by decide : ¬ (1 : Fin 2) = 0))]

/-- The row axis is inserted: the window has no extent there. -/
theorem window_row (e : Fin R) (c : Fin C) : (rowScatterDims N R C wf).window (ix2 e c) (0 : Fin 2) = 0 := by
  unfold ScatterDims.window
  rw [dif_neg]
  intro h
  exact (List.mem_filter.mp h).2 |> fun h' => by simp at h'

/-- On the column axis the window coordinate is the update's column. -/
theorem window_col (e : Fin R) (c : Fin C) : (rowScatterDims N R C wf).window (ix2 e c) (1 : Fin 2) = c.val := by
  unfold ScatterDims.window
  rw [dif_pos (show (1 : Fin 2) ∈ (rowScatterDims N R C wf).sKept from
    List.mem_filter.mpr ⟨List.mem_finRange _, by simp⟩)]
  rfl

/-- WHERE UPDATE `(e, c)` LANDS: on `(v, k)` exactly when its row number is `v` and its column is `k`. -/
theorem resultIdx?_rows (e : Fin R) (c : Fin C) (v : Fin N) (k : Fin C) :
    (rowScatterDims N R C wf).resultIdx? (ix2 e c) idx = some (ix2 v k)
      ↔ (idx (col0 e)).toInt = (v.val : Int) ∧ c = k := by
  have hs0 := start_row wf idx e c
  have hs1 := start_col wf idx e c
  have hw0 := window_row wf e c
  have hw1 := window_col wf e c
  unfold ScatterDims.resultIdx?
  split
  · rename_i h
    rw [Option.some.injEq]
    constructor
    · intro hf
      have h0 := congrArg Fin.val (congrFun hf (0 : Fin 2))
      have h1 := congrArg Fin.val (congrFun hf (1 : Fin 2))
      have hp := (h (0 : Fin 2)).1
      simp only [hs0, hw0, hs1, hw1] at h0 h1 hp
      refine ⟨?_, Fin.ext ?_⟩
      · have : ((idx (col0 e)).toInt + ((0 : Nat) : Int)).toNat = v.val := h0
        omega
      · have : ((0 : Int) + (c.val : Int)).toNat = k.val := h1
        omega
    · rintro ⟨hv, rfl⟩
      funext a
      refine Fin.ext ?_
      match a with
      | ⟨0, _⟩ =>
        show ((rowScatterDims N R C wf).start (ix2 e c) idx (0 : Fin 2)
          + ((rowScatterDims N R C wf).window (ix2 e c) (0 : Fin 2) : Int)).toNat = v.val
        rw [hs0, hw0, hv]; simp
      | ⟨1, _⟩ =>
        show ((rowScatterDims N R C wf).start (ix2 e c) idx (1 : Fin 2)
          + ((rowScatterDims N R C wf).window (ix2 e c) (1 : Fin 2) : Int)).toNat = c.val
        rw [hs1, hw1]; simp
  · rename_i h
    constructor
    · intro hf; cases hf
    · rintro ⟨hv, rfl⟩
      refine (h fun a => ?_).elim
      match a with
      | ⟨0, _⟩ =>
        show 0 ≤ (rowScatterDims N R C wf).start (ix2 e c) idx (0 : Fin 2)
            + ((rowScatterDims N R C wf).window (ix2 e c) (0 : Fin 2) : Int)
          ∧ (rowScatterDims N R C wf).start (ix2 e c) idx (0 : Fin 2)
            + ((rowScatterDims N R C wf).window (ix2 e c) (0 : Fin 2) : Int) < (N : Int)
        rw [hs0, hw0, hv]
        have := v.isLt
        omega
      | ⟨1, _⟩ =>
        show 0 ≤ (rowScatterDims N R C wf).start (ix2 e c) idx (1 : Fin 2)
            + ((rowScatterDims N R C wf).window (ix2 e c) (1 : Fin 2) : Int)
          ∧ (rowScatterDims N R C wf).start (ix2 e c) idx (1 : Fin 2)
            + ((rowScatterDims N R C wf).window (ix2 e c) (1 : Fin 2) : Int) < (C : Int)
        rw [hs1, hw1]
        have := c.isLt
        omega

/-- The update rows whose row number is `v`. -/
def rowsOnto (v : Fin N) : Finset (Fin R) := Finset.univ.filter fun e => (idx (col0 e)).toInt = (v.val : Int)

/-- THE ROW SCATTER READ AT `(v, k)`, at the ideal instance: the operand's entry plus the sum, over the update
    rows whose row number is `v`, of their entry in column `k`. -/
theorem scatterAdd_rows_apply {φ : FTy} (x : FVec Ideal ⟨2, ![N, C]⟩ φ) (upd : FVec Ideal ⟨2, ![R, C]⟩ φ)
    (v : Fin N) (k : Fin C) :
    Host.scatterAdd (rowScatterDims N R C wf) x idx upd (ix2 v k)
      = x (ix2 v k) + ∑ e ∈ rowsOnto idx v, upd (ix2 e k) := by
  show Ideal.hostScatterAdd (rowScatterDims N R C wf) x idx upd (ix2 v k) = _
  unfold Ideal.hostScatterAdd rowsOnto
  congr 1
  rw [Finset.sum_filter, sum_idx2, Finset.sum_filter]
  refine Finset.sum_congr rfl fun e _ => ?_
  simp only [resultIdx?_rows wf idx e _ v k]
  by_cases hv : (idx (col0 e)).toInt = (v.val : Int)
  · simp only [hv, true_and, if_true]
    rw [Finset.sum_ite_eq' Finset.univ k fun c => upd (ix2 e c)]
    simp
  · simp only [hv, false_and, if_false]
    exact Finset.sum_const_zero

end Scatter

end RowOps

end
-- ==== Proof.LibVecScatter.lean ====
/-
  An accumulating scatter of a vector, read at an entry, and a lookup of matrix entries by pairs of coordinates.

  `zeros(N).at[rows].add(upd)` for updates `upd : [R]` and row numbers `rows : [R, 1]` lowers to an accumulating
  scatter into `[N]`: update `e` lands on entry `rows[e, 0]` when that number, read signed and NOT clamped, lies
  in `[0, N)`, and is dropped otherwise. So entry `v` of the result is the operand's entry plus the sum, over the
  updates `e` whose row number is `v`, of `upd e`.

  `x[r, c]` for a matrix `x : [N, M]` and a list of coordinate pairs `rc : [R, 2]` lowers to a gather whose result
  `[R]` holds, at `e`, the entry of `x` at row `rc[e, 0]` and column `rc[e, 1]`, each read signed and clamped
  into its axis.
-/
import proofs.«113595_j78640851189970_2_alg».proof.Proof.LibRowGatherScatter

noncomputable section

namespace RowOps

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A vector scattered into and accumulated -/

section VecScatter

/-- The dimension numbers of `.at[rows].add` on a vector: operand `[N]`, scatter indices `[R, 1]`, updates `[R]`. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)
  (idx : IVec ⟨2, ![R, 1]⟩ w)

/-- The window of update `e` starts at its row number, read signed. -/
theorem vec_start (e : Fin R) :
    (vecScatterDims N R wf).start (ix1 e) idx (0 : Fin 1) = (idx (col0 e)).toInt := by
  unfold ScatterDims.start
  rw [dif_pos (show (0 : Fin 1) ∈ (vecScatterDims N R wf).scatterDimsToOperandDims from List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- The one axis is inserted: the window has no extent there. -/
theorem vec_window (e : Fin R) : (vecScatterDims N R wf).window (ix1 e) (0 : Fin 1) = 0 := by
  unfold ScatterDims.window
  rw [dif_neg]
  intro h
  exact (List.mem_filter.mp h).2 |> fun h' => by simp at h'

/-- WHERE UPDATE `e` LANDS: on entry `v` exactly when its row number is `v`. -/
theorem resultIdx?_vec (e : Fin R) (v : Fin N) :
    (vecScatterDims N R wf).resultIdx? (ix1 e) idx = some (ix1 v) ↔ (idx (col0 e)).toInt = (v.val : Int) := by
  have hs0 := vec_start wf idx e
  have hw0 := vec_window wf e
  unfold ScatterDims.resultIdx?
  split
  · rename_i h
    rw [Option.some.injEq]
    constructor
    · intro hf
      have h0 := congrArg Fin.val (congrFun hf (0 : Fin 1))
      have hp := (h (0 : Fin 1)).1
      simp only [hs0, hw0] at h0 hp
      have : ((idx (col0 e)).toInt + ((0 : Nat) : Int)).toNat = v.val := h0
      omega
    · intro hv
      funext a
      refine Fin.ext ?_
      match a with
      | ⟨0, _⟩ =>
        show ((vecScatterDims N R wf).start (ix1 e) idx (0 : Fin 1)
          + ((vecScatterDims N R wf).window (ix1 e) (0 : Fin 1) : Int)).toNat = v.val
        rw [hs0, hw0, hv]; simp
  · rename_i h
    constructor
    · intro hf; cases hf
    · intro hv
      refine (h fun a => ?_).elim
      match a with
      | ⟨0, _⟩ =>
        show 0 ≤ (vecScatterDims N R wf).start (ix1 e) idx (0 : Fin 1)
            + ((vecScatterDims N R wf).window (ix1 e) (0 : Fin 1) : Int)
          ∧ (vecScatterDims N R wf).start (ix1 e) idx (0 : Fin 1)
            + ((vecScatterDims N R wf).window (ix1 e) (0 : Fin 1) : Int) < (N : Int)
        rw [hs0, hw0, hv]
        have := v.isLt
        omega

/-- THE VECTOR SCATTER READ AT `v`, at the ideal instance: the operand's entry plus the sum, over the updates
    whose row number is `v`, of the update. -/
theorem scatterAdd_vec_apply {φ : FTy} (x : FVec Ideal ⟨1, ![N]⟩ φ) (upd : FVec Ideal ⟨1, ![R]⟩ φ) (v : Fin N) :
    Host.scatterAdd (vecScatterDims N R wf) x idx upd (ix1 v)
      = x (ix1 v) + ∑ e ∈ rowsOnto idx v, upd (ix1 e) := by
  show Ideal.hostScatterAdd (vecScatterDims N R wf) x idx upd (ix1 v) = _
  unfold Ideal.hostScatterAdd rowsOnto
  congr 1
  rw [Finset.sum_filter, sum_idx1, Finset.sum_filter]
  refine Finset.sum_congr rfl fun e _ => ?_
  simp only [resultIdx?_vec wf idx e v]

end VecScatter

/-! ## Matrix entries looked up by coordinate pairs -/

section PairGather
variable {α : Type}

/-- The dimension numbers of `x[r, c]`: operand `[N, M]`, start indices `[R, 2]`, result `[R]`. -/
abbrev pairGatherDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE PAIR GATHER READ AT `e`: the entry at the looked-up row and column, each coordinate read signed and
    clamped into its axis. -/
theorem gather_pairs_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (e : Fin R) :
    Host.gather (pairGatherDims N M R wf) x idx (ix1 e)
      = x (ix2 (⟨min (idx (ix2 e (0 : Fin 2))).toInt.toNat (N - 1), by omega⟩ : Fin N)
               (⟨min (idx (ix2 e (1 : Fin 2))).toInt.toNat (M - 1), by omega⟩ : Fin M)) := by
  unfold Host.gather
  congr 1
  have hk : ∀ a : Fin 2, a ∉ (pairGatherDims N M R wf).sKept := fun a h =>
    ((GatherDims.mem_sKept _ _).mp h).1 (by fin_cases a <;> simp)
  have h0 : ((pairGatherDims N M R wf).operandIdx (ix1 e) idx (0 : Fin 2)).val
      = min (idx (ix2 e (0 : Fin 2))).toInt.toNat (N - 1) := by
    show (pairGatherDims N M R wf).start (ix1 e) idx (0 : Fin 2) + (pairGatherDims N M R wf).batchCoord (ix1 e) (0 : Fin 2)
        + (pairGatherDims N M R wf).offCoord (ix1 e) (0 : Fin 2) = _
    rw [GatherDims.batchCoord_eq_zero _ _ _ List.not_mem_nil, Nat.add_zero,
      GatherDims.offCoord_eq_zero _ _ _ (hk 0), Nat.add_zero]
    unfold GatherDims.start
    rw [dif_pos (show (0 : Fin 2) ∈ (pairGatherDims N M R wf).startIndexMap by simp)]
    have hsi : (pairGatherDims N M R wf).siIdx (ix1 e) ⟨List.idxOf (0 : Fin 2) (pairGatherDims N M R wf).startIndexMap,
        List.idxOf_lt_length_iff.2 (by simp)⟩ = ix2 e (0 : Fin 2) := by
      funext b; refine Fin.ext ?_
      match b with
      | ⟨0, _⟩ => rfl
      | ⟨1, _⟩ => rfl
    rw [hsi]
    rfl
  have h1 : ((pairGatherDims N M R wf).operandIdx (ix1 e) idx (1 : Fin 2)).val
      = min (idx (ix2 e (1 : Fin 2))).toInt.toNat (M - 1) := by
    show (pairGatherDims N M R wf).start (ix1 e) idx (1 : Fin 2) + (pairGatherDims N M R wf).batchCoord (ix1 e) (1 : Fin 2)
        + (pairGatherDims N M R wf).offCoord (ix1 e) (1 : Fin 2) = _
    rw [GatherDims.batchCoord_eq_zero _ _ _ List.not_mem_nil, Nat.add_zero,
      GatherDims.offCoord_eq_zero _ _ _ (hk 1), Nat.add_zero]
    unfold GatherDims.start
    rw [dif_pos (show (1 : Fin 2) ∈ (pairGatherDims N M R wf).startIndexMap by simp)]
    have hsi : (pairGatherDims N M R wf).siIdx (ix1 e) ⟨List.idxOf (1 : Fin 2) (pairGatherDims N M R wf).startIndexMap,
        List.idxOf_lt_length_iff.2 (by simp)⟩ = ix2 e (1 : Fin 2) := by
      funext b; refine Fin.ext ?_
      match b with
      | ⟨0, _⟩ => rfl
      | ⟨1, _⟩ => rfl
    rw [hsi]
    rfl
  funext a
  refine Fin.ext ?_
  match a with
  | ⟨0, _⟩ => exact h0
  | ⟨1, _⟩ => exact h1

end PairGather

end RowOps

end
-- ==== Proof.LibScatterSet.lean ====
/-
  An overwriting scatter, read at an entry.

  `x.at[rows].set(upd)` lowers to a scatter whose body returns the update. The scatter is the left fold, over the
  update indices in row-major order, of the step "when the update lands inside the operand, replace the entry it
  lands on by the update; otherwise drop it". So the entry that survives at a result index `i` is the update of the
  LAST update index (the greatest in row-major order) that lands on `i`, and the operand's own entry when no
  update lands there.

  The file first proves this for a fold of overwrites over any list, then over `List.finRange m` (which is strictly
  increasing, so "after `n₀` in the list" is "greater than `n₀`"), then for the scatter at any dimension numbers.

  It is then applied to two scatters that share ONE column of row numbers `rows : [R, 1]`: a scatter of rows
  (operand `[N, C]`, updates `[R, C]`: update `(e, c)` lands on `(rows[e, 0], c)`) and a scatter of scalars (operand
  `[N]`, updates `[R]`: update `e` lands on `rows[e, 0]`). In row-major order update `(e, c)` sits at position
  `e * C + c` and update `e` at position `e`, so in both the last writer of row `v` is the GREATEST update row `t`
  whose row number is `v`: entry `(v, k)` of the first is `upd (t, k)` and entry `v` of the second is `upd t`, with
  the same `t`. The row numbers need not be distinct.
-/
import proofs.«113595_j78640851189970_2_alg».proof.Proof.LibVecScatter

noncomputable section

namespace RowOps

open Idealize.ShloMosaic Idealize.ShloMosaic.ValueIdx

/-! ## A fold of overwrites -/

section Fold
variable {ι κ α : Type}

/-- A fold of steps none of which touches the entry at `i` leaves that entry as it was. (`P n` says "step `n`
    lands on `i`".) -/
theorem foldl_apply_of_untouched (step : (κ → α) → ι → κ → α) (i : κ) (P : ι → Prop)
    (hmiss : ∀ (r : κ → α) (n : ι), ¬ P n → step r n i = r i) (L : List ι) (hL : ∀ n ∈ L, ¬ P n) (x : κ → α) :
    L.foldl step x i = x i := by
  induction L generalizing x with
  | nil => rfl
  | cons n L ih =>
    rw [List.foldl_cons, ih (fun m hm => hL m (List.mem_cons.mpr (Or.inr hm))),
      hmiss x n (hL n (List.mem_cons.mpr (Or.inl rfl)))]

/-- A fold of overwrites read at `i`: when step `n₀` lands on `i` and no step after it does, the entry is the
    value `n₀` writes, whatever happened before. -/
theorem foldl_apply_of_last (step : (κ → α) → ι → κ → α) (i : κ) (P : ι → Prop) (val : ι → α)
    (hhit : ∀ (r : κ → α) (n : ι), P n → step r n i = val n)
    (hmiss : ∀ (r : κ → α) (n : ι), ¬ P n → step r n i = r i)
    (L₁ L₂ : List ι) (n₀ : ι) (h₀ : P n₀) (h₂ : ∀ n ∈ L₂, ¬ P n) (x : κ → α) :
    (L₁ ++ n₀ :: L₂).foldl step x i = val n₀ := by
  rw [List.foldl_append, List.foldl_cons, foldl_apply_of_untouched step i P hmiss L₂ h₂, hhit _ n₀ h₀]

/-- The same over `List.finRange m`, which lists `Fin m` in increasing order: the steps after `n₀` are the
    `n > n₀`. -/
theorem foldl_finRange_apply_of_last {m : Nat} (step : (κ → α) → Fin m → κ → α) (i : κ) (P : Fin m → Prop)
    (val : Fin m → α)
    (hhit : ∀ (r : κ → α) (n : Fin m), P n → step r n i = val n)
    (hmiss : ∀ (r : κ → α) (n : Fin m), ¬ P n → step r n i = r i)
    (n₀ : Fin m) (h₀ : P n₀) (hgt : ∀ n : Fin m, n₀ < n → ¬ P n) (x : κ → α) :
    (List.finRange m).foldl step x i = val n₀ := by
  obtain ⟨L₁, L₂, hL⟩ := List.append_of_mem (List.mem_finRange n₀)
  have hp : (L₁ ++ n₀ :: L₂).Pairwise (· < ·) := hL ▸ (List.sortedLT_finRange m).pairwise
  rw [hL]
  refine foldl_apply_of_last step i P val hhit hmiss L₁ L₂ n₀ h₀ (fun n hn => hgt n ?_) x
  exact (List.pairwise_cons.mp (List.pairwise_append.mp hp).2.1).1 n hn

end Fold

/-! ## The overwriting scatter at any dimension numbers -/

section General
variable {s si u : Shape} {α : Type} {w : Nat} (d : ScatterDims s si u) (x : s.Idx → α) (idx : IVec si w)
  (upd : u.Idx → α)

/-- AN OVERWRITING SCATTER READ AT `i`, SOME UPDATE LANDING THERE: when update `j₀` lands on `i` and no update
    after it in row-major order does, the entry is `upd j₀`. -/
theorem scatterSet_apply_of_last (i : s.Idx) (j₀ : u.Idx) (h₀ : d.resultIdx? j₀ idx = some i)
    (hgt : ∀ j : u.Idx, u.rowMajor j₀ < u.rowMajor j → d.resultIdx? j idx ≠ some i) :
    Host.scatter d (fun _ b => b) x idx upd i = upd j₀ := by
  unfold Host.scatter
  refine (foldl_finRange_apply_of_last _ i (fun n => d.resultIdx? (u.rowMajor.symm n) idx = some i)
    (fun n => upd (u.rowMajor.symm n)) ?_ ?_ (u.rowMajor j₀) ?_ ?_ x).trans ?_
  · intro r n h
    show (match d.resultIdx? (u.rowMajor.symm n) idx with
      | some i => fun i' => if i' = i then upd (u.rowMajor.symm n) else r i'
      | none => r) i = upd (u.rowMajor.symm n)
    rw [h]
    exact if_pos rfl
  · intro r n h
    show (match d.resultIdx? (u.rowMajor.symm n) idx with
      | some i => fun i' => if i' = i then upd (u.rowMajor.symm n) else r i'
      | none => r) i = r i
    cases hq : d.resultIdx? (u.rowMajor.symm n) idx with
    | none => rfl
    | some i₁ =>
      show (if i = i₁ then upd (u.rowMajor.symm n) else r i) = r i
      rw [if_neg]
      rintro rfl
      exact h hq
  · show d.resultIdx? (u.rowMajor.symm (u.rowMajor j₀)) idx = some i
    rw [Equiv.symm_apply_apply]
    exact h₀
  · intro n hn
    refine hgt (u.rowMajor.symm n) ?_
    rw [Equiv.apply_symm_apply]
    exact hn
  · show upd (u.rowMajor.symm (u.rowMajor j₀)) = upd j₀
    rw [Equiv.symm_apply_apply]

/-- AN OVERWRITING SCATTER READ AT `i`, NO UPDATE LANDING THERE: the operand's own entry. -/
theorem scatterSet_apply_of_none (i : s.Idx) (h : ∀ j : u.Idx, d.resultIdx? j idx ≠ some i) :
    Host.scatter d (fun _ b => b) x idx upd i = x i := by
  unfold Host.scatter
  refine foldl_apply_of_untouched _ i (fun n => d.resultIdx? (u.rowMajor.symm n) idx = some i) ?_ _
    (fun n _ => h (u.rowMajor.symm n)) x
  intro r n h
  show (match d.resultIdx? (u.rowMajor.symm n) idx with
    | some i => fun i' => if i' = i then upd (u.rowMajor.symm n) else r i'
    | none => r) i = r i
  cases hq : d.resultIdx? (u.rowMajor.symm n) idx with
  | none => rfl
  | some i₁ =>
    show (if i = i₁ then upd (u.rowMajor.symm n) else r i) = r i
    rw [if_neg]
    rintro rfl
    exact h hq

end General

/-! ## The last update row onto a row -/

/-- Update row `t` is the last one whose row number is `v`. -/
def IsLastOnto {N R w : Nat} (idx : IVec ⟨2, ![R, 1]⟩ w) (v : Fin N) (t : Fin R) : Prop :=
  (idx (col0 t)).toInt = (v.val : Int) ∧ ∀ t' : Fin R, t < t' → (idx (col0 t')).toInt ≠ (v.val : Int)

/-- When some update row has row number `v` there is a last one: the greatest element of the (finite, nonempty)
    set of such rows. -/
theorem exists_isLastOnto {N R w : Nat} (idx : IVec ⟨2, ![R, 1]⟩ w) (v : Fin N)
    (h : ∃ t : Fin R, (idx (col0 t)).toInt = (v.val : Int)) : ∃ t, IsLastOnto idx v t := by
  obtain ⟨t₀, h₀⟩ := h
  have hne : (rowsOnto idx v).Nonempty := ⟨t₀, Finset.mem_filter.mpr ⟨Finset.mem_univ _, h₀⟩⟩
  refine ⟨(rowsOnto idx v).max' hne, (Finset.mem_filter.mp ((rowsOnto idx v).max'_mem hne)).2, ?_⟩
  intro t' hlt hv
  exact absurd hlt (not_lt.mpr ((rowsOnto idx v).le_max' t' (Finset.mem_filter.mpr ⟨Finset.mem_univ _, hv⟩)))

/-! ## Rows overwritten -/

section Rows
variable {α : Type} {N R C w : Nat} (wf : ScatterDims.WF ⟨2, ![N, C]⟩ ⟨2, ![R, 1]⟩ ⟨2, ![R, C]⟩ [1] [0] [0] 1)
  (idx : IVec ⟨2, ![R, 1]⟩ w) (x : (⟨2, ![N, C]⟩ : Shape).Idx → α) (upd : (⟨2, ![R, C]⟩ : Shape).Idx → α)

/-- THE OVERWRITING ROW SCATTER READ AT `(v, k)`, SOME UPDATE ROW HAVING ROW NUMBER `v`: entry `k` of the LAST such
    update row. Update `(e, c)` sits at row-major position `e * C + c` and lands on `(v, k)` exactly when its row
    number is `v` and `c = k`; such an update has `e ≤ t`, so its position is at most `t * C + k`. -/
theorem scatterSet_rows_last (v : Fin N) (k : Fin C) (t : Fin R) (ht : IsLastOnto idx v t) :
    Host.scatter (rowScatterDims N R C wf) (fun _ b => b) x idx upd (ix2 v k) = upd (ix2 t k) := by
  refine scatterSet_apply_of_last (rowScatterDims N R C wf) x idx upd (ix2 v k) (ix2 t k)
    ((resultIdx?_rows wf idx t k v k).mpr ⟨ht.1, rfl⟩) ?_
  intro j hj hland
  rw [eq_ix2 j] at hland
  obtain ⟨hv, hc⟩ := (resultIdx?_rows wf idx (j 0) (j 1) v k).mp hland
  have hle : (j 0).val ≤ t.val := Nat.le_of_not_lt fun hlt => ht.2 (j 0) hlt hv
  have hmul : (j 0).val * C ≤ t.val * C := Nat.mul_le_mul_right C hle
  have hpos : ((⟨2, ![R, C]⟩ : Shape).rowMajor (ix2 t k)).val < ((⟨2, ![R, C]⟩ : Shape).rowMajor j).val := hj
  rw [Shape.rowMajor_val_two, Shape.rowMajor_val_two] at hpos
  have hpos' : t.val * C + k.val < (j 0).val * C + (j 1).val := hpos
  rw [hc] at hpos'
  omega

/-- THE OVERWRITING ROW SCATTER READ AT `(v, k)`, NO UPDATE ROW HAVING ROW NUMBER `v`: the operand's entry. -/
theorem scatterSet_rows_none (v : Fin N) (k : Fin C) (h : ∀ t : Fin R, (idx (col0 t)).toInt ≠ (v.val : Int)) :
    Host.scatter (rowScatterDims N R C wf) (fun _ b => b) x idx upd (ix2 v k) = x (ix2 v k) := by
  refine scatterSet_apply_of_none (rowScatterDims N R C wf) x idx upd (ix2 v k) ?_
  intro j hland
  rw [eq_ix2 j] at hland
  exact h (j 0) ((resultIdx?_rows wf idx (j 0) (j 1) v k).mp hland).1

end Rows

/-! ## Scalars overwritten -/

section Vec
variable {α : Type} {N R w : Nat} (wf : ScatterDims.WF ⟨1, ![N]⟩ ⟨2, ![R, 1]⟩ ⟨1, ![R]⟩ [] [0] [0] 1)
  (idx : IVec ⟨2, ![R, 1]⟩ w) (x : (⟨1, ![N]⟩ : Shape).Idx → α) (upd : (⟨1, ![R]⟩ : Shape).Idx → α)

/-- THE OVERWRITING SCALAR SCATTER READ AT `v`, SOME UPDATE HAVING ROW NUMBER `v`: the LAST such update — the same
    update row `t` as in `scatterSet_rows_last`. Update `e` sits at row-major position `e` and lands on `v` exactly
    when its row number is `v`; such an update has `e ≤ t`. -/
theorem scatterSet_vec_last (v : Fin N) (t : Fin R) (ht : IsLastOnto idx v t) :
    Host.scatter (vecScatterDims N R wf) (fun _ b => b) x idx upd (ix1 v) = upd (ix1 t) := by
  refine scatterSet_apply_of_last (vecScatterDims N R wf) x idx upd (ix1 v) (ix1 t)
    ((resultIdx?_vec wf idx t v).mpr ht.1) ?_
  intro j hj hland
  rw [eq_ix1 j] at hland
  have hv := (resultIdx?_vec wf idx (j 0) v).mp hland
  have hle : (j 0).val ≤ t.val := Nat.le_of_not_lt fun hlt => ht.2 (j 0) hlt hv
  have hpos : ((⟨1, ![R]⟩ : Shape).rowMajor (ix1 t)).val < ((⟨1, ![R]⟩ : Shape).rowMajor j).val := hj
  rw [Shape.rowMajor_val_one, Shape.rowMajor_val_one] at hpos
  have hpos' : t.val < (j 0).val := hpos
  omega

/-- THE OVERWRITING SCALAR SCATTER READ AT `v`, NO UPDATE HAVING ROW NUMBER `v`: the operand's entry. -/
theorem scatterSet_vec_none (v : Fin N) (h : ∀ t : Fin R, (idx (col0 t)).toInt ≠ (v.val : Int)) :
    Host.scatter (vecScatterDims N R wf) (fun _ b => b) x idx upd (ix1 v) = x (ix1 v) := by
  refine scatterSet_apply_of_none (vecScatterDims N R wf) x idx upd (ix1 v) ?_
  intro j hland
  rw [eq_ix1 j] at hland
  exact h (j 0) ((resultIdx?_vec wf idx (j 0) v).mp hland)

end Vec

end RowOps

end
-- ==== Proof.LibIndexWrap.lean ====
/-
  The wrap of a negative index is the identity on a non-negative number.

  `x[i]` with a possibly negative `i` first replaces `i` by `i + n` when `i < 0`: on 32-bit words,
  `select (i <ₛ 0) (i + c) i`. A word `BitVec.ofNat 32 n` with `n < 2^31` reads, signed, as `n` itself, so it is not
  below zero, the comparison's bit is `0`, and the select returns the word unchanged, whatever `c` is. For the same
  reason a row number `BitVec.ofNat 32 n` with `n < N ≤ 2^31`, read signed and clamped into `[0, N − 1]`, is `n`.
-/
import proofs.«113595_j78640851189970_2_alg».proof.Proof.LibRowGatherScatter

noncomputable section

namespace RowOps

open Idealize.ShloMosaic Idealize.ShloMosaic.ValueIdx

/-! ## One word -/

/-- A natural below `2^31`, as a 32-bit word, is itself as a natural. -/
theorem toNat_ofNat_of_lt {n : ℕ} (hn : n < 2 ^ 31) : (BitVec.ofNat 32 n).toNat = n := by
  rw [BitVec.toNat_ofNat]
  exact Nat.mod_eq_of_lt (by omega)

/-- A natural below `2^31`, as a 32-bit word read signed, is itself. -/
theorem toInt_ofNat_of_lt {n : ℕ} (hn : n < 2 ^ 31) : (BitVec.ofNat 32 n).toInt = (n : Int) := by
  have h1 := toNat_ofNat_of_lt hn
  rw [BitVec.toInt_eq_toNat_of_lt (by rw [h1]; omega), h1]

/-- Such a word is not below zero, signed: the comparison's bit is `0`. -/
theorem cmpi_slt_ofNat_zero {n : ℕ} (hn : n < 2 ^ 31) : IntOp.cmpi .slt (BitVec.ofNat 32 n) 0#32 = 0#1 := by
  show BitVec.ofBool (decide ((BitVec.ofNat 32 n).toInt < (0#32).toInt)) = 0#1
  rw [toInt_ofNat_of_lt hn, BitVec.toInt_zero, decide_eq_false (by omega)]
  rfl

/-- The wrap of one word: a non-negative number is kept, whatever would have been added. -/
theorem wrap_ofNat {n : ℕ} (hn : n < 2 ^ 31) (c : BitVec 32) :
    Scalar.select (IntOp.cmpi .slt (BitVec.ofNat 32 n) 0#32) (IntOp.addi (BitVec.ofNat 32 n) c) (BitVec.ofNat 32 n)
      = BitVec.ofNat 32 n := by
  rw [cmpi_slt_ofNat_zero hn, select_zero]

/-! ## A vector of words, at an index -/

section
variable {s : Shape}

/-- THE WRAP AT AN INDEX: where `x` holds a natural below `2^31` and the comparand holds zero, the select of
    "`x` below the comparand" between `x + c` and `x` is `x`. -/
theorem wrap_apply_of_nonneg (x z c : IVec s 32) (i : s.Idx) (n : ℕ) (hn : n < 2 ^ 31)
    (hx : x i = BitVec.ofNat 32 n) (hz : z i = 0#32) :
    select (cmpi .slt x z) (addi x c) x i = x i := by
  rw [select_apply]
  show Scalar.select (IntOp.cmpi .slt (x i) (z i)) (IntOp.addi (x i) (c i)) (x i) = x i
  rw [hx, hz]
  exact wrap_ofNat hn (c i)

/-- The same with the comparand written as the constant zero vector. -/
theorem wrap_apply_of_nonneg_zero (x c : IVec s 32) (i : s.Idx) (n : ℕ) (hn : n < 2 ^ 31)
    (hx : x i = BitVec.ofNat 32 n) :
    select (cmpi .slt x (fun _ => 0#32)) (addi x c) x i = x i :=
  wrap_apply_of_nonneg x (fun _ => 0#32) c i n hn hx rfl

end

/-! ## A row number -/

/-- A row number `BitVec.ofNat 32 n` with `n < 2^31`, read signed, is `n`: the form the scatter's landing condition
    (`resultIdx?_rows`, `resultIdx?_vec`) takes. -/
theorem rowNumber_toInt {R : ℕ} (idx : IVec ⟨2, ![R, 1]⟩ 32) (e : Fin R) (n : ℕ) (hn : n < 2 ^ 31)
    (h : idx (col0 e) = BitVec.ofNat 32 n) : (idx (col0 e)).toInt = (n : Int) := by
  rw [h, toInt_ofNat_of_lt hn]

/-- THE GATHERED ROW OF A SMALL ROW NUMBER: a row number `BitVec.ofNat 32 n` with `n < N ≤ 2^31`, read signed and
    clamped into `[0, N − 1]`, is `n`. -/
theorem gatheredRow_of_ofNat {N R : ℕ} (hN : 0 < N) (hN31 : N ≤ 2 ^ 31) (idx : IVec ⟨2, ![R, 1]⟩ 32) (e : Fin R)
    (n : ℕ) (hn : n < N) (h : idx (col0 e) = BitVec.ofNat 32 n) : gatheredRow hN idx e = ⟨n, hn⟩ := by
  refine Fin.ext ?_
  show min (idx (col0 e)).toInt.toNat (N - 1) = n
  rw [h, toInt_ofNat_of_lt (by omega), Int.toNat_natCast]
  omega

end RowOps

end
-- ==== Proof.SpecRoute.lean ====
/-
  Dispatch and combine, as functions of the column of rows alone.

  `g` gives every one of the 16384 tokens a row number (read as a signed integer). A token is DISPATCHED to row s
  (s one of 0 … 16384) when its row number is s; when several tokens have the same row number the one with the
  greatest token number fills the row (an overwriting scatter takes the updates in order, so the last one stays);
  a row no token is sent to holds zeros. A token is COMBINED from the row its row number is clamped into
  (0 … 16384); the last row, 16384, is the row of zeros appended to every array of 16384 slot rows.
  Nothing here needs the row numbers to be distinct or in range: both programs are read through the same `filler`.
-/
import proofs.«113595_j78640851189970_2_alg».proof.Proof.Spec
import proofs.«113595_j78640851189970_2_alg».proof.Proof.LibScatterSet
import proofs.«113595_j78640851189970_2_alg».proof.Proof.LibIndexWrap

noncomputable section

namespace Cert.Spec

open Idealize.ShloMosaic Idealize.ShloMosaic.ValueIdx RowOps

/-- The token that fills row `s`: the last one whose row number is `s`, if there is one. -/
def filler (g : IVec ⟨2, ![16384, 1]⟩ 32) (s : Fin 16385) : Option (Fin 16384) :=
  if h : ∃ t : Fin 16384, (g (col0 t)).toInt = (s.val : Int) then some (Classical.choose (exists_isLastOnto g s h))
  else none

/-- The filler is a last token with that row number. -/
theorem filler_some {g : IVec ⟨2, ![16384, 1]⟩ 32} {s : Fin 16385} {t : Fin 16384} (h : filler g s = some t) :
    IsLastOnto g s t := by
  unfold filler at h
  split at h
  · rename_i hex
    rw [Option.some.injEq] at h
    exact h ▸ Classical.choose_spec (exists_isLastOnto g s hex)
  · cases h

/-- No filler: no token has that row number. -/
theorem filler_none {g : IVec ⟨2, ![16384, 1]⟩ 32} {s : Fin 16385} (h : filler g s = none) :
    ∀ t : Fin 16384, (g (col0 t)).toInt ≠ (s.val : Int) := by
  unfold filler at h
  split at h
  · cases h
  · rename_i hex
    exact fun t ht => hex ⟨t, ht⟩

/-- Row `s` of an array of token rows `X` after dispatch: the filler's row, or zeros. -/
def slotRow (g : IVec ⟨2, ![16384, 1]⟩ 32) (X : Fin 16384 → Fin 1024 → EReal) (s : Fin 16385) (k : Fin 1024) : EReal :=
  match filler g s with
  | some t => X t k
  | none => 0

/-- The row token `τ` is combined from. -/
def readRow (g : IVec ⟨2, ![16384, 1]⟩ 32) (τ : Fin 16384) : Fin 16385 :=
  gatheredRow (N := 16385) (by norm_num) g τ

/-- THE RESULT at token `τ` and column `n`: the output of the slot the token is combined from, through the expert
    that owns that slot (slot rows e·2048 … e·2048 + 2047 belong to expert e), and zero from the appended row. -/
def tokenOut (g : IVec ⟨2, ![16384, 1]⟩ 32) (xk xr : Fin 16384 → Fin 1024 → EReal)
    (wk : Fin 8 → Fin 1024 → Fin 2048 → EReal) (wv : Fin 8 → Fin 2048 → Fin 1024 → EReal)
    (wr : Fin 8 → Fin 1024 → Fin 1024 → EReal) (τ : Fin 16384) (n : Fin 1024) : EReal :=
  if h : (readRow g τ).val < 16384 then
    slotOut (slotRow g xk (readRow g τ)) (slotRow g xr (readRow g τ))
      (wk ⟨(readRow g τ).val / 2048, by omega⟩) (wv ⟨(readRow g τ).val / 2048, by omega⟩)
      (wr ⟨(readRow g τ).val / 2048, by omega⟩) n
  else 0

end Cert.Spec

end
-- ==== Proof.SpecScatter.lean ====
/-
  The two overwriting scatters of the dispatch, read through the filler.

  The dispatch writes token `t`'s row into row `g t` of an array of 16385 rows, later writes overwriting earlier
  ones. Row `s` of the result is therefore the row of the LAST token whose row number is `s` — the filler of `s` —
  and the operand's own row when no token has that row number. The same holds, with the same filler, for the
  scatter of the token numbers themselves into a vector of 16385 entries.
-/
import proofs.«113595_j78640851189970_2_alg».proof.Proof.SpecRoute

noncomputable section

namespace Cert.Spec

open Idealize.ShloMosaic Idealize.ShloMosaic.ValueIdx RowOps

/-- THE ROW SCATTER INTO ZEROS READ AT `(s, k)`: entry `k` of the row the filler of `s` brings, and zero when `s`
    has no filler. (The operand is a constant array whose value `z` is zero.) -/
theorem scatter_rows_slotRow
    (wf : ScatterDims.WF ⟨2, ![16385, 1024]⟩ ⟨2, ![16384, 1]⟩ ⟨2, ![16384, 1024]⟩ [1] [0] [0] 1)
    (g : IVec ⟨2, ![16384, 1]⟩ 32) (z : EReal) (X : (⟨2, ![16384, 1024]⟩ : Shape).Idx → EReal) (hz : z = 0)
    (s : Fin 16385) (k : Fin 1024) :
    Host.scatter (rowScatterDims 16385 16384 1024 wf) (fun _ b => b) (fun _ => z) g X (ix2 s k)
      = slotRow g (fun t k' => X (ix2 t k')) s k := by
  unfold slotRow
  cases hf : filler g s with
  | some t => exact scatterSet_rows_last wf g (fun _ => z) X s k t (filler_some hf)
  | none => exact (scatterSet_rows_none wf g (fun _ => z) X s k (filler_none hf)).trans hz

/-- THE SCATTER OF THE TOKEN NUMBERS READ AT `s`: the number of the filler of `s`, and the operand's 16384 when `s`
    has no filler. -/
theorem scatter_vec_filler
    (wf : ScatterDims.WF ⟨1, ![16385]⟩ ⟨2, ![16384, 1]⟩ ⟨1, ![16384]⟩ [] [0] [0] 1)
    (g : IVec ⟨2, ![16384, 1]⟩ 32) (s : Fin 16385) :
    Host.scatter (vecScatterDims 16385 16384 wf) (fun _ b => b) (fun _ => BitVec.ofNat 32 16384) g
        (fun i => BitVec.ofNat 32 (i 0).val) (ix1 s)
      = match filler g s with
        | some t => BitVec.ofNat 32 t.val
        | none => BitVec.ofNat 32 16384 := by
  cases hf : filler g s with
  | some t =>
    exact scatterSet_vec_last wf g (fun _ => BitVec.ofNat 32 16384) (fun i => BitVec.ofNat 32 (i 0).val) s t
      (filler_some hf)
  | none =>
    exact scatterSet_vec_none wf g (fun _ => BitVec.ofNat 32 16384) (fun i => BitVec.ofNat 32 (i 0).val) s
      (filler_none hf)

end Cert.Spec

end
-- ==== Proof.LibReshapeRows.lean ====
/-
  A reshape that splits or joins the leading axis, read at an index.

  A reshape keeps every element's row-major position. In `[A, B, C]` the index `(a, b, c)` sits at position
  `(a * B + b) * C + c`, and in `[R, C]` with `R = A * B` the index `(r, c)` sits at `r * C + c`: so the reshape
  `[R, C] → [A, B, C]` reads, at `(a, b, c)`, the operand at row `a * B + b` and column `c`, and the reshape
  `[A, B, C] → [R, C]` reads, at `(r, c)`, the operand at `(r / B, r % B, c)` (as `r / B * B + r % B = r`). The same
  with no trailing axis: `[A, B] → [R]` reads, at `r`, the operand at `(r / B, r % B)`, and `[R] → [A, B]` reads, at
  `(a, b)`, the operand at `a * B + b`. General in the extents; `R = A * B` is a hypothesis, so that a literal `R`
  is never multiplied out.
-/
import Idealize.ShloMosaic.Lib.ValueLayout

namespace RowOps

open Idealize.ShloMosaic Idealize.ShloMosaic.ValueIdx

/-! ## The row numbers -/

/-- Row `a * B + b` is one of the `A * B` rows. -/
theorem joinRow_lt {A B R : ℕ} (hR : R = A * B) (a : Fin A) (b : Fin B) : a.val * B + b.val < R := by
  have h1 : (a.val + 1) * B ≤ A * B := Nat.mul_le_mul_right B a.isLt
  have h2 : (a.val + 1) * B = a.val * B + B := Nat.succ_mul _ _
  have h3 := b.isLt
  omega

/-- The quotient of one of `A * B` rows by `B` is below `A`. -/
theorem rowDiv_lt {A B R : ℕ} (hR : R = A * B) (r : Fin R) : r.val / B < A := by
  have h1 : r.val < R := r.isLt
  have h2 : r.val < B * A := by rw [Nat.mul_comm]; omega
  exact Nat.div_lt_of_lt_mul h2

/-- The remainder of a row by `B` is below `B`. -/
theorem rowMod_lt {B R : ℕ} (hB : 0 < B) (r : Fin R) : r.val % B < B := Nat.mod_lt _ hB

/-! ## With a trailing axis: `[R, C]` and `[A, B, C]` -/

section
variable {α : Type} {A B C R : ℕ}

/-- THE LEADING AXIS SPLIT: an `[R, C]` array cast to `[A, B, C]` reads, at `(a, b, c)`, the operand at row
    `a * B + b`, column `c`. -/
theorem shapeCast_rc_abc_apply (hR : R = A * B) (x : (⟨2, ![R, C]⟩ : Shape).Idx → α)
    (h : (⟨2, ![R, C]⟩ : Shape).ShapeCasts ⟨3, ![A, B, C]⟩) (a : Fin A) (b : Fin B) (c : Fin C) :
    shapeCast ⟨3, ![A, B, C]⟩ x h (ix3 a b c) = x (ix2 (⟨a.val * B + b.val, joinRow_lt hR a b⟩ : Fin R) c) :=
  shapeCast_apply x h _ _ (by
    rw [Shape.rowMajor_val_two, Shape.rowMajor_val_three]
    show (a.val * B + b.val) * C + c.val = (a.val * B + b.val) * C + c.val
    rfl)

/-- THE TWO LEADING AXES JOINED: an `[A, B, C]` array cast to `[R, C]` reads, at `(r, c)`, the operand at
    `(r / B, r % B, c)`. -/
theorem shapeCast_abc_rc_apply (hR : R = A * B) (hB : 0 < B) (y : (⟨3, ![A, B, C]⟩ : Shape).Idx → α)
    (h : (⟨3, ![A, B, C]⟩ : Shape).ShapeCasts ⟨2, ![R, C]⟩) (r : Fin R) (c : Fin C) :
    shapeCast ⟨2, ![R, C]⟩ y h (ix2 r c)
      = y (ix3 (⟨r.val / B, rowDiv_lt hR r⟩ : Fin A) (⟨r.val % B, rowMod_lt hB r⟩ : Fin B) c) :=
  shapeCast_apply y h _ _ (by
    rw [Shape.rowMajor_val_three, Shape.rowMajor_val_two]
    show (r.val / B * B + r.val % B) * C + c.val = r.val * C + c.val
    rw [Nat.div_add_mod'])

end

/-! ## With no trailing axis: `[R]` and `[A, B]` -/

section
variable {α : Type} {A B R : ℕ}

/-- THE TWO AXES JOINED: an `[A, B]` array cast to `[R]` reads, at `r`, the operand at `(r / B, r % B)`. -/
theorem shapeCast_ab_r_apply (hR : R = A * B) (hB : 0 < B) (y : (⟨2, ![A, B]⟩ : Shape).Idx → α)
    (h : (⟨2, ![A, B]⟩ : Shape).ShapeCasts ⟨1, ![R]⟩) (r : Fin R) :
    shapeCast ⟨1, ![R]⟩ y h (ix1 r)
      = y (ix2 (⟨r.val / B, rowDiv_lt hR r⟩ : Fin A) (⟨r.val % B, rowMod_lt hB r⟩ : Fin B)) :=
  shapeCast_apply y h _ _ (by
    rw [Shape.rowMajor_val_two, Shape.rowMajor_val_one]
    show r.val / B * B + r.val % B = r.val
    exact Nat.div_add_mod' _ _)

/-- THE AXIS SPLIT: an `[R]` array cast to `[A, B]` reads, at `(a, b)`, the operand at `a * B + b`. -/
theorem shapeCast_r_ab_apply (hR : R = A * B) (x : (⟨1, ![R]⟩ : Shape).Idx → α)
    (h : (⟨1, ![R]⟩ : Shape).ShapeCasts ⟨2, ![A, B]⟩) (a : Fin A) (b : Fin B) :
    shapeCast ⟨2, ![A, B]⟩ x h (ix2 a b) = x (ix1 (⟨a.val * B + b.val, joinRow_lt hR a b⟩ : Fin R)) :=
  shapeCast_apply x h _ _ (by
    rw [Shape.rowMajor_val_one, Shape.rowMajor_val_two]
    show a.val * B + b.val = a.val * B + b.val
    rfl)

end

end RowOps
-- ==== Proof.KerValue.lean ====
/-
  The kernel program's host stages read at an entry, at the ideal values.

  The dispatched operand: slot (e, p) — row e·2048 + p — reads, through the inverted routing, the row of the token that
  fills it: its key mix in columns 0 … 1023 and its receptance mix in columns 1024 … 2047, or zeros when no token
  fills it. (The inverse holds the filler's number, or 16384 for an empty row; both are small non-negative numbers, so
  the wrap of negative numbers leaves them alone and the lookup reads exactly that row, row 16384 being the appended
  row of zeros.) The first result: token τ reads the row its row number is clamped into, of the region's output with
  a row of zeros appended. Together: the result at a token is the specification's `tokenOut`.
-/
import proofs.«113595_j78640851189970_2_alg».proof.Proof.KerTerm
import proofs.«113595_j78640851189970_2_alg».proof.Proof.KerArray
import proofs.«113595_j78640851189970_2_alg».proof.Proof.SpecScatter
import proofs.«113595_j78640851189970_2_alg».proof.Proof.LibReshapeRows
import Idealize.ShloMosaic.Lib.IdealHost
import Idealize.ShloMosaic.Lib.Pipeline.Value
import Idealize.ShloMosaic.Lib.ValueLayout

noncomputable section

namespace Cert.KernelIdeal.Value

open Idealize.ShloMosaic Idealize.ShloMosaic.ValueIdx RowOps Cert.KernelIdeal Cert.Spec

variable [Cert.KernelIdeal.Facts]
open Facts₀ Facts

/-- The narrow-format pattern of zero denotes zero. -/
theorem zero_bf16 : Ideal.ofBits .bf16 0x0000#16 = 0 := by simp [Ideal.ofBits, Ideal.ieee]

/-- The number of the token at batch `b` and time `t'`. -/
abbrev tokenOf (b : Fin 8) (t' : Fin 2048) : Fin 16384 := ⟨b.val * 2048 + t'.val, by omega⟩

/-- Token `t`'s row of an array [8, 2048, 1024]. -/
abbrev tokRow (X : FVec Ideal S8x2048x1024 .bf16) (t : Fin 16384) (k : Fin 1024) : EReal :=
  X (ix3 (⟨t.val / 2048, by omega⟩ : Fin 8) (⟨t.val % 2048, Nat.mod_lt _ (by norm_num)⟩ : Fin 2048) k)

/-- An array of 16384 rows with a row of zeros appended, read at row `s`. -/
theorem appended_apply (A : FVec Ideal S16384x1024 .bf16) (s : Fin 16385) (n : Fin 1024) :
    concatenate S16385x1024 0
        [⟨S16384x1024, A⟩, ⟨S1x1024, broadcastInDim S1x1024 ![] bcast_S_S1x1024 (constant (F := Ideal) S_ .bf16 0x0000#16)⟩]
        concatenates_S16384x1024_S1x1024_S16385x1024_d0 (ix2 s n)
      = if h : s.val < 16384 then A (ix2 (⟨s.val, h⟩ : Fin 16384) n) else 0 := by
  split
  · rename_i h
    refine concatenate_pair_apply_left (0 : Fin 2) A _ _ (ix2 s n) rfl (ix2 (⟨s.val, h⟩ : Fin 16384) n) fun b => ?_
    match b with
    | ⟨0, _⟩ => rfl
    | ⟨1, _⟩ => rfl
  · rename_i h
    have hs : s.val = 16384 := by omega
    refine (concatenate_pair_apply_right (s₂ := S1x1024) (0 : Fin 2) A _ _ (ix2 s n) rfl rfl (ix2 (0 : Fin 1) n) (fun b hb => ?_) ?_).trans ?_
    · match b with
      | ⟨0, _⟩ => exact absurd rfl hb
      | ⟨1, _⟩ => rfl
    · show 0 + 16384 = s.val
      omega
    · exact (broadcastInDim_scalar_apply _ _ _).trans zero_bf16

/-- THE FIRST RESULT at (b, t', n): the region's output at the row the token is combined from, zero from the
    appended row. -/
theorem out66_apply (g : IVec S16384x1 32) (P : FVec Ideal S8x2048x1024 .bf16) (b : Fin 8) (t' : Fin 2048) (n : Fin 1024) :
    KerTerm.out66 (F := Ideal) g P (ix3 b t' n)
      = if h : (readRow g (tokenOf b t')).val < 16384 then
          P (ix3 (⟨(readRow g (tokenOf b t')).val / 2048, by omega⟩ : Fin 8)
            (⟨(readRow g (tokenOf b t')).val % 2048, Nat.mod_lt _ (by norm_num)⟩ : Fin 2048) n)
        else 0 := by
  unfold KerTerm.out66
  refine (extf_apply (ψ := .f32) (φ := .bf16) _ bitsLt_bf16_f32 (ix3 b t' n)).trans ?_
  refine (shapeCast_rc_abc_apply (R := 16384) (by norm_num) _ _ b t' n).trans ?_
  refine (gather_rows_apply (N := 16385) (by norm_num) gather_S16385x1024_S16384x1_S16384x1024_1_0_n_n_0_1_11024_wf
    _ g (tokenOf b t') n).trans ?_
  refine (appended_apply _ (readRow g (tokenOf b t')) n).trans ?_
  split
  · rename_i h
    exact shapeCast_abc_rc_apply (R := 16384) (A := 8) (by norm_num) (by norm_num) P _ ⟨_, h⟩ n
  · rfl

/-- The key mix and the receptance mix side by side along the last axis, read at column `c`. -/
theorem sideBySide_apply (xk xr : FVec Ideal S8x2048x1024 .bf16) (a : Fin 8) (q : Fin 2048) (c : Fin 2048) :
    concatenate S8x2048x2048 2 [⟨S8x2048x1024, xk⟩, ⟨S8x2048x1024, xr⟩]
        concatenates_S8x2048x1024_S8x2048x1024_S8x2048x2048_d2 (ix3 a q c)
      = if h : c.val < 1024 then xk (ix3 a q (⟨c.val, h⟩ : Fin 1024))
        else xr (ix3 a q (⟨c.val - 1024, by omega⟩ : Fin 1024)) := by
  split
  · rename_i h
    refine concatenate_pair_apply_left (2 : Fin 3) xk xr _ (ix3 a q c) rfl (ix3 a q (⟨c.val, h⟩ : Fin 1024)) fun b => ?_
    match b with
    | ⟨0, _⟩ => rfl
    | ⟨1, _⟩ => rfl
    | ⟨2, _⟩ => rfl
  · rename_i h
    refine concatenate_pair_apply_right (2 : Fin 3) xk xr _ (ix3 a q c) rfl rfl
      (ix3 a q (⟨c.val - 1024, by omega⟩ : Fin 1024)) (fun b hb => ?_) ?_
    · match b with
      | ⟨0, _⟩ => rfl
      | ⟨1, _⟩ => rfl
      | ⟨2, _⟩ => exact absurd rfl hb
    · show c.val - 1024 + 1024 = c.val
      omega

/-- An array of 16384 rows of width 2048 with a row of zeros appended, read at row `s`. -/
theorem appended2_apply (A : FVec Ideal S16384x2048 .bf16) (s : Fin 16385) (c : Fin 2048) :
    concatenate S16385x2048 0
        [⟨S16384x2048, A⟩, ⟨S1x2048, broadcastInDim S1x2048 ![] bcast_S_S1x2048 (constant (F := Ideal) S_ .bf16 0x0000#16)⟩]
        concatenates_S16384x2048_S1x2048_S16385x2048_d0 (ix2 s c)
      = if h : s.val < 16384 then A (ix2 (⟨s.val, h⟩ : Fin 16384) c) else 0 := by
  split
  · rename_i h
    refine concatenate_pair_apply_left (0 : Fin 2) A _ _ (ix2 s c) rfl (ix2 (⟨s.val, h⟩ : Fin 16384) c) fun b => ?_
    match b with
    | ⟨0, _⟩ => rfl
    | ⟨1, _⟩ => rfl
  · rename_i h
    have hs : s.val = 16384 := by omega
    refine (concatenate_pair_apply_right (s₂ := S1x2048) (0 : Fin 2) A _ _ (ix2 s c) rfl rfl (ix2 (0 : Fin 1) c) (fun b hb => ?_) ?_).trans ?_
    · match b with
      | ⟨0, _⟩ => exact absurd rfl hb
      | ⟨1, _⟩ => rfl
    · show 0 + 16384 = s.val
      omega
    · exact (broadcastInDim_scalar_apply _ _ _).trans zero_bf16

/-- The inverted routing at a row some token fills: the filler's number. -/
theorem inv_apply_some (g : IVec S16384x1 32) (σ : Fin 16384) (t : Fin 16384)
    (h : filler g (⟨σ.val, by omega⟩ : Fin 16385) = some t) :
    KerTerm.inv g (ix1 σ) = BitVec.ofNat 32 t.val := by
  unfold KerTerm.inv
  refine (extractStridedSlice_apply _ _ _ (ix1 σ) (ix1 (⟨σ.val, by omega⟩ : Fin 16385)) (fun ax => ?_)).trans ?_
  · match ax with
    | ⟨0, _⟩ => exact (Nat.zero_add _).symm
  · exact scatterSet_vec_last scatter_S16385_S16384x1_S16384_n_0_0_1_wf g _ _ _ t (filler_some h)

/-- The inverted routing at a row no token fills: the number 16384. -/
theorem inv_apply_none (g : IVec S16384x1 32) (σ : Fin 16384)
    (h : filler g (⟨σ.val, by omega⟩ : Fin 16385) = none) :
    KerTerm.inv g (ix1 σ) = BitVec.ofNat 32 16384 := by
  unfold KerTerm.inv
  refine (extractStridedSlice_apply _ _ _ (ix1 σ) (ix1 (⟨σ.val, by omega⟩ : Fin 16385)) (fun ax => ?_)).trans ?_
  · match ax with
    | ⟨0, _⟩ => exact (Nat.zero_add _).symm
  · exact scatterSet_vec_none scatter_S16385_S16384x1_S16384_n_0_0_1_wf g _ _ _ (filler_none h)

/-- A vector laid out as a column: entry (i, u) of the column is entry i of the vector. -/
theorem column_apply {α : Type} {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    have hi := i.isLt
    split <;> omega

/-- The wrap of negative numbers leaves the inverse's entries alone: they are small non-negative numbers. -/
theorem wrapcol_inv_apply (g : IVec S16384x1 32) (σ : Fin 16384) (n : ℕ) (hn : n < 2 ^ 31)
    (h : KerTerm.inv g (ix1 σ) = BitVec.ofNat 32 n) :
    KerTerm.wrapcol (KerTerm.inv g) (col0 σ) = BitVec.ofNat 32 n := by
  unfold KerTerm.wrapcol
  refine (column_apply _ _ σ _).trans ?_
  exact (wrap_apply_of_nonneg _ _ _ (ix1 σ) n hn h rfl).trans h

/-- The dispatched operand's lookup reads row `n` of the appended array when the inverse holds the small number `n`. -/
theorem dkr_row (g : IVec S16384x1 32) (xk xr : FVec Ideal S8x2048x1024 .bf16) (e : Fin 8) (p : Fin 2048) (c : Fin 2048)
    (n : ℕ) (hn : n < 16385)
    (h : KerTerm.inv g (ix1 (⟨e.val * 2048 + p.val, joinRow_lt (by norm_num) e p⟩ : Fin 16384)) = BitVec.ofNat 32 n) :
    KerTerm.dkr (F := Ideal) g xk xr (ix3 e p c)
      = concatenate S16385x2048 0
          [⟨S16384x2048, shapeCast S16384x2048
              (concatenate S8x2048x2048 2 [⟨S8x2048x1024, xk⟩, ⟨S8x2048x1024, xr⟩]
                concatenates_S8x2048x1024_S8x2048x1024_S8x2048x2048_d2)
              shapeCasts_S8x2048x2048_S16384x2048⟩,
           ⟨S1x2048, broadcastInDim S1x2048 ![] bcast_S_S1x2048 (constant (F := Ideal) S_ .bf16 0x0000#16)⟩]
          concatenates_S16384x2048_S1x2048_S16385x2048_d0 (ix2 (⟨n, hn⟩ : Fin 16385) c) := by
  unfold KerTerm.dkr
  refine (shapeCast_rc_abc_apply (R := 16384) (by norm_num) _ _ e p c).trans ?_
  refine (gather_rows_apply (N := 16385) (by norm_num) gather_S16385x2048_S16384x1_S16384x2048_1_0_n_n_0_1_12048_wf
    _ _ (⟨e.val * 2048 + p.val, joinRow_lt (by norm_num) e p⟩ : Fin 16384) c).trans ?_
  rw [gatheredRow_of_ofNat (N := 16385) (by norm_num) (by norm_num) (KerTerm.wrapcol (KerTerm.inv g)) _ n hn
    (wrapcol_inv_apply g _ n (by omega) h)]

/-- THE DISPATCHED OPERAND at a slot some token `t` fills: the token's key mix in the columns below 1024, its
    receptance mix in the others. -/
theorem dkr_apply_some (g : IVec S16384x1 32) (xk xr : FVec Ideal S8x2048x1024 .bf16) (e : Fin 8) (p : Fin 2048)
    (c : Fin 2048) (t : Fin 16384) (h : filler g (⟨e.val * 2048 + p.val, by omega⟩ : Fin 16385) = some t) :
    KerTerm.dkr (F := Ideal) g xk xr (ix3 e p c)
      = if hc : c.val < 1024 then tokRow xk t (⟨c.val, hc⟩ : Fin 1024)
        else tokRow xr t (⟨c.val - 1024, by omega⟩ : Fin 1024) := by
  refine (dkr_row g xk xr e p c t.val (by omega) (inv_apply_some g _ t h)).trans ?_
  refine (appended2_apply _ ⟨t.val, by omega⟩ c).trans ?_
  rw [dif_pos t.isLt]
  refine (shapeCast_abc_rc_apply (R := 16384) (A := 8) (by norm_num) (by norm_num) _ _ _ c).trans ?_
  exact sideBySide_apply xk xr _ _ c

/-- THE DISPATCHED OPERAND at a slot no token fills: zero. -/
theorem dkr_apply_none (g : IVec S16384x1 32) (xk xr : FVec Ideal S8x2048x1024 .bf16) (e : Fin 8) (p : Fin 2048)
    (c : Fin 2048) (h : filler g (⟨e.val * 2048 + p.val, by omega⟩ : Fin 16385) = none) :
    KerTerm.dkr (F := Ideal) g xk xr (ix3 e p c) = 0 := by
  refine (dkr_row g xk xr e p c 16384 (by norm_num) (inv_apply_none g _ h)).trans ?_
  refine (appended2_apply _ ⟨16384, by norm_num⟩ c).trans ?_
  exact dif_neg (by norm_num)

/-- Slot row `s` written by expert and place is `s` again. -/
theorem slot_join (s : Fin 16385) (h : s.val < 16384) :
    (⟨(⟨s.val / 2048, by omega⟩ : Fin 8).val * 2048 + (⟨s.val % 2048, Nat.mod_lt _ (by norm_num)⟩ : Fin 2048).val, by omega⟩ : Fin 16385) = s :=
  Fin.ext (by show s.val / 2048 * 2048 + s.val % 2048 = s.val; omega)

/-- The key half of the dispatched operand's row `s` is the dispatched key mix. -/
theorem dkr_keyHalf (g : IVec S16384x1 32) (xk xr : FVec Ideal S8x2048x1024 .bf16) (s : Fin 16385) (h : s.val < 16384) :
    (fun k : Fin 1024 => KerTerm.dkr (F := Ideal) g xk xr
        (ix3 (⟨s.val / 2048, by omega⟩ : Fin 8) (⟨s.val % 2048, Nat.mod_lt _ (by norm_num)⟩ : Fin 2048)
          (⟨k.val, by omega⟩ : Fin 2048)))
      = slotRow g (tokRow xk) s := by
  funext k
  unfold slotRow
  cases hf : filler g s with
  | some t =>
    refine (dkr_apply_some g xk xr _ _ _ t ((congrArg (filler g) (slot_join s h)).trans hf)).trans ?_
    exact dif_pos k.isLt
  | none =>
    exact dkr_apply_none g xk xr _ _ _ ((congrArg (filler g) (slot_join s h)).trans hf)

/-- The receptance half of the dispatched operand's row `s` is the dispatched receptance mix. -/
theorem dkr_recHalf (g : IVec S16384x1 32) (xk xr : FVec Ideal S8x2048x1024 .bf16) (s : Fin 16385) (h : s.val < 16384) :
    (fun k : Fin 1024 => KerTerm.dkr (F := Ideal) g xk xr
        (ix3 (⟨s.val / 2048, by omega⟩ : Fin 8) (⟨s.val % 2048, Nat.mod_lt _ (by norm_num)⟩ : Fin 2048)
          (⟨1024 + k.val, by omega⟩ : Fin 2048)))
      = slotRow g (tokRow xr) s := by
  funext k
  unfold slotRow
  cases hf : filler g s with
  | some t =>
    refine (dkr_apply_some g xk xr _ _ _ t ((congrArg (filler g) (slot_join s h)).trans hf)).trans ?_
    refine (dif_neg (by show ¬ 1024 + k.val < 1024; omega)).trans ?_
    exact congrArg (tokRow xr t) (Fin.ext (by show 1024 + k.val - 1024 = k.val; omega))
  | none =>
    exact dkr_apply_none g xk xr _ _ _ ((congrArg (filler g) (slot_join s h)).trans hf)

/-- THE KERNEL PROGRAM'S FIRST RESULT at (b, t', n), from the column of rows, the two mixes and the experts' matrices as
    the region finds them: the specification's result at the token. -/
theorem kernel_out_apply (g : IVec S16384x1 32) (xk xr : FVec Ideal S8x2048x1024 .bf16) (K : FVec Ideal S8x1024x2048 .bf16)
    (Vv : FVec Ideal S8x2048x1024 .bf16) (Rr : FVec Ideal S8x1024x1024 .bf16) (b : Fin 8) (t' : Fin 2048) (n : Fin 1024) :
    KerTerm.out66 (F := Ideal) g (Arr.Gprod (KerTerm.dkr (F := Ideal) g xk xr) K Vv Rr) (ix3 b t' n)
      = tokenOut g (tokRow xk) (tokRow xr) (fun e k f => K (ix3 e k f)) (fun e f n' => Vv (ix3 e f n'))
          (fun e k n' => Rr (ix3 e k n')) (tokenOf b t') n := by
  refine (out66_apply g _ b t' n).trans ?_
  unfold tokenOut
  split
  · rename_i h
    show Arr.prodAt (KerTerm.dkr (F := Ideal) g xk xr) K Vv Rr _ _ n = _
    unfold Arr.prodAt
    rw [dkr_keyHalf g xk xr _ h, dkr_recHalf g xk xr _ h]
  · rfl

end Cert.KernelIdeal.Value

end
-- ==== Proof.RefTerm.lean ====
/-
  The reference program's two results, and the stages they are composed of, as NAMED pure functions of the
  argument arrays. Each definition is the composition of the program's own operations for that stage, in the
  program's order, so that a later lemma can read one stage at a time.

  The arrays: x the activations [8, 2048, 1024]; tok the token ids [8, 2048]; ss the shift state [8, 1024];
  the two mixing vectors [1, 1, 1024]; the key, value and receptance matrices of the 8 experts.
  Flattened, a token is one of 16384 rows; a row of the dispatched arrays is one of the 8 · 2048 expert slots,
  and row 16384 is the extra row that tokens without a slot are sent to.
-/
import proofs.«113595_j78640851189970_2_alg».proof.Proof.Gen.ReferenceIdeal
import Idealize.ShloMosaic.Lib.StableHlo.Run

noncomputable section

namespace Cert.ReferenceIdeal.RefTerm

open Cert.ReferenceIdeal Idealize.ShloMosaic Idealize.SL.Sem

variable {F : FTy → Type} [FloatOps F]
variable [Facts]
open Facts₀ Facts

/-! ## Token shift and mixing -/

/-- %2's concatenation: along the time axis, the one row a of every batch before the 2047 rows b. -/
def catTime (a : FVec F S8x1x1024 .f32) (b : FVec F S8x2047x1024 .f32) : FVec F S8x2048x1024 .f32 :=
  concatenate S8x2048x1024 1 [⟨S8x1x1024, a⟩, ⟨S8x2047x1024, b⟩]
    concatenates_S8x1x1024_S8x2047x1024_S8x2048x1024_d1

/-- %3: the previous row minus the row itself. Along the time axis the shift state is placed before the first
    2047 rows of x, and x is subtracted. -/
def dx (x : FVec F S8x2048x1024 .f32) (ss : FVec F S8x1024 .f32) : FVec F S8x2048x1024 .f32 :=
  subf
    (catTime (broadcastInDim S8x1x1024 ![0, 2] bcast_S8x1024_S8x1x1024_0_2 ss)
      (extractStridedSlice S8x2047x1024 ![0, 0, 0] x slices_S8x2048x1024_S8x2047x1024_0_0_0))
    x

/-- %6 (with the key mixing vector) and %9 (with the receptance one): x + dx · maa, the vector broadcast along
    the batch and time axes. -/
def mix (x : FVec F S8x2048x1024 .f32) (ss : FVec F S8x1024 .f32) (maa : FVec F S1x1x1024 .f32) :
    FVec F S8x2048x1024 .f32 :=
  addf x (mulf (dx x ss) (broadcastInDim S8x2048x1024 ![0, 1, 2] bcast_S1x1x1024_S8x2048x1024_0_1_2 maa))

/-! ## Routing: from the token ids to a row for every token -/

/-- The divisor inside @remainder: the constant 8 passed through \`_where\`, which would put 1 in the place of a
    zero divisor. A scalar. -/
def modulus : IVec S_ 32 :=
  select (cmpi .eq (id (constantI S_ 32 8#32)) (constantI S_ 32 0#32)) (constantI S_ 32 1#32)
    (id (constantI S_ 32 8#32))

/-- @remainder's %4: the remainder of the division by the modulus that rounds toward zero. -/
def trem (t : IVec S16384 32) : IVec S16384 32 :=
  Host.remsi t (broadcastInDim S16384 ![] bcast_S_S16384 modulus)

/-- @remainder's result %15: the remainder with the sign of the divisor. Where the truncated remainder is not zero
    and its sign differs from the divisor's, the divisor is added. -/
def pmod (t : IVec S16384 32) : IVec S16384 32 :=
  select
    (andi
      (cmpi .ne
        (cmpi .slt (trem t) (broadcastInDim S16384 ![] bcast_S_S16384 (constantI S_ 32 0#32)))
        (broadcastInDim S16384 ![] bcast_S_S16384 (cmpi .slt modulus (constantI S_ 32 0#32))))
      (cmpi .ne (trem t) (broadcastInDim S16384 ![] bcast_S_S16384 (constantI S_ 32 0#32))))
    (addi (trem t) (broadcastInDim S16384 ![] bcast_S_S16384 modulus))
    (trem t)

/-- %13: the expert of each of the 16384 tokens: its id times 5099, modulo 8. -/
def expert (tok : IVec S8x2048 32) : IVec S16384 32 :=
  pmod (muli (shapeCast S16384 tok shapeCasts_S8x2048_S16384)
    (broadcastInDim S16384 ![] bcast_S_S16384 (constantI S_ 32 5099#32)))

/-- %17: for every token and every expert, how many tokens up to and including this one go to that expert,
    less one. The rows of @_one_hot (1 at the token's expert, 0 elsewhere) summed down the tokens by @cumsum (a
    window of 16384 rows ending at the token, over zero padding), then 1 subtracted. -/
def position (e : IVec S16384 32) : IVec S16384x8 32 :=
  subi
    (Host.reduceWindow IntOp.addi ![16384, 1] ![1, 1] ![16383, 0] ![0, 0]
      (extui 32
        (cmpi .eq
          (broadcastInDim S16384x8 ![0, 1] bcast_S16384x1_S16384x8_0_1
            (broadcastInDim S16384x1 ![0] bcast_S16384_S16384x1_0 e))
          (broadcastInDim S16384x8 ![0, 1] bcast_S1x8_S16384x8_0_1 (iotaInDim S1x8 32 1)))
        natLt_1_32)
      (broadcastInDim S_ ![] bcast_S_S_ (constantI S_ 32 0#32))
      reduceWindows_S16384x8_S16384x8_w16384s1p16383_0_w1s1p0_0 h_S_)
    (broadcastInDim S16384x8 ![] bcast_S_S16384x8 (constantI S_ 32 1#32))

/-- @take_along_axis's %5: the column to read in each row, a negative one moved up by 8, as a [16384, 1, 1] array. -/
def takeIdx (e1 : IVec S16384x1 32) : IVec S16384x1x1 32 :=
  shapeCast S16384x1x1
    (select (cmpi .slt e1 (broadcastInDim S16384x1 ![] bcast_S_S16384x1 (constantI S_ 32 0#32)))
      (addi e1 (broadcastInDim S16384x1 ![] bcast_S_S16384x1 (constantI S_ 32 8#32)))
      e1)
    shapeCasts_S16384x1_S16384x1x1

/-- @take_along_axis: in each row of p the entry at that row's column; the least integer where the column is not
    one of 0 … 7. -/
def takeAt (p : IVec S16384x8 32) (e1 : IVec S16384x1 32) : IVec S16384x1 32 :=
  select
    (Host.reduce IntOp.andi
      (andi
        (cmpi .sge (takeIdx e1) (broadcastInDim S16384x1x1 ![] bcast_S_S16384x1x1 (constantI S_ 32 0#32)))
        (cmpi .sle (takeIdx e1)
          (broadcastInDim S16384x1x1 ![0, 1, 2] bcast_S1x1x1_S16384x1x1_0_1_2
            (broadcastInDim S1x1x1 ![2] bcast_S1_S1x1x1_2 (constantI S1 32 7#32)))))
      (constantI S_ 1 1#1) reducesTo_S16384x1x1_S16384x1_d2 h_S_)
    (Host.gather gather_S16384x8_S16384x1x1_S16384x1_n_1_0_0_1_2_11 p (takeIdx e1))
    (broadcastInDim S16384x1 ![] bcast_S_S16384x1 (constantI S_ 32 2147483648#32))

/-- %20: the place of each token among the tokens of its own expert, counted from 0. -/
def slot (e : IVec S16384 32) : IVec S16384 32 :=
  shapeCast S16384 (takeAt (position e) (broadcastInDim S16384x1 ![0] bcast_S16384_S16384x1_0 e))
    shapeCasts_S16384x1_S16384

/-- %26 from the expert e (%13) and the place s (%20): row e · 2048 + s where s is below the capacity 2048, and
    the extra row 16384 otherwise (@_where_1). -/
def flatOf (e s : IVec S16384 32) : IVec S16384 32 :=
  select (cmpi .slt s (broadcastInDim S16384 ![] bcast_S_S16384 (constantI S_ 32 2048#32)))
    (addi (muli e (broadcastInDim S16384 ![] bcast_S_S16384 (constantI S_ 32 2048#32))) s)
    (broadcastInDim S16384 ![] bcast_S_S16384 (id (constantI S_ 32 16384#32)))

/-- %26: the whole integer chain %10 … %26, from the token ids to the row of every token. -/
def flat (tok : IVec S8x2048 32) : IVec S16384 32 :=
  flatOf (expert tok) (slot (expert tok))

/-- %34 from %26 (the program computes the same again as %50, %60 and %79): a negative row moved up by 16385,
    then the rows as a column. -/
def wrapcol (f : IVec S16384 32) : IVec S16384x1 32 :=
  broadcastInDim S16384x1 ![0] bcast_S16384_S16384x1_0
    (select (cmpi .slt f (broadcastInDim S16384 ![] bcast_S_S16384 (constantI S_ 32 0#32)))
      (addi f (broadcastInDim S16384 ![] bcast_S_S16384 (constantI S_ 32 16385#32)))
      f)

/-- %34 (= %50 = %60 = %79): the column of rows, from the token ids. -/
def rowcol (tok : IVec S8x2048 32) : IVec S16384x1 32 :=
  wrapcol (flat tok)

/-! ## Dispatch and combine -/

/-- %27, %28, %35, %36, %37 (and %53, %54, %61, %62, %63): an array of 16385 rows of zeros in which row g t is
    overwritten by token t's row of xm (a scatter that keeps the update), its last row dropped, read as
    [8, 2048, 1024]. -/
def dispatch (g : IVec S16384x1 32) (xm : FVec F S8x2048x1024 .f32) : FVec F S8x2048x1024 .f32 :=
  shapeCast S8x2048x1024
    (extractStridedSlice S16384x1024 ![0, 0]
      (Host.scatter scatter_S16385x1024_S16384x1_S16384x1024_1_0_0_1 (fun _ b => b)
        (broadcastInDim S16385x1024 ![] bcast_S_S16385x1024 (constant S_ .f32 0x00000000#32))
        g
        (shapeCast S16384x1024 xm shapeCasts_S8x2048x1024_S16384x1024))
      slices_S16385x1024_S16384x1024_0_0)
    shapeCasts_S16384x1024_S8x2048x1024

/-- %44's (and %73's) concatenation: the 16384 rows a with the one row b appended. -/
def catRow (a : FVec F S16384x1024 .f32) (b : FVec F S1x1024 .f32) : FVec F S16385x1024 .f32 :=
  concatenate S16385x1024 0 [⟨S16384x1024, a⟩, ⟨S1x1024, b⟩] concatenates_S16384x1024_S1x1024_S16385x1024_d0

/-- %42, %43, %44 (and %71, %72, %73): y as 16384 rows with a row of zeros appended. -/
def padded (y : FVec F S8x2048x1024 .f32) : FVec F S16385x1024 .f32 :=
  catRow (shapeCast S16384x1024 y shapeCasts_S8x2048x1024_S16384x1024)
    (broadcastInDim S1x1024 ![] bcast_S_S1x1024 (constant S_ .f32 0x00000000#32))

/-- %42, %43, %44, %51, %52 (and %71, %72, %73, %80, %81): y as 16384 rows with a row of zeros appended, token t
    reading row g t (a gather), read as [8, 2048, 1024]. -/
def combine (g : IVec S16384x1 32) (y : FVec F S8x2048x1024 .f32) : FVec F S8x2048x1024 .f32 :=
  shapeCast S8x2048x1024
    (Host.gather gather_S16385x1024_S16384x1_S16384x1024_1_0_n_n_0_1_11024 (padded y) g)
    shapeCasts_S16384x1024_S8x2048x1024

/-! ## The experts -/

/-- %38, %39: per expert the dispatched rows times the key matrix, then the maximum with zero (@relu). -/
def hidden (d : FVec F S8x2048x1024 .f32) (Wk : FVec F S8x1024x2048 .f32) : FVec F S8x2048x2048 .f32 :=
  maximumf (Host.dotGeneral dot_S8x2048x1024_S8x1024x2048_S8x2048x2048_2_1_1_2_0_0 none d Wk)
    (broadcastInDim S8x2048x2048 ![] bcast_S_S8x2048x2048 (constant S_ .f32 0x00000000#32))

/-- %38 … %41: the hidden activation squared (a product with itself), times the value matrix. -/
def kv (d : FVec F S8x2048x1024 .f32) (Wk : FVec F S8x1024x2048 .f32) (Wv : FVec F S8x2048x1024 .f32) :
    FVec F S8x2048x1024 .f32 :=
  Host.dotGeneral dot_S8x2048x2048_S8x2048x1024_S8x2048x1024_2_1_1_2_0_0 none
    (mulf (hidden d Wk) (hidden d Wk)) Wv

/-- %64 … %70: the dispatched rows times the receptance matrix, then 1 / (1 + exp (−·)). -/
def rr (d : FVec F S8x2048x1024 .f32) (Wr : FVec F S8x1024x1024 .f32) : FVec F S8x2048x1024 .f32 :=
  Host.divf (broadcastInDim S8x2048x1024 ![] bcast_S_S8x2048x1024 (constant S_ .f32 0x3F800000#32))
    (addf (broadcastInDim S8x2048x1024 ![] bcast_S_S8x2048x1024 (constant S_ .f32 0x3F800000#32))
      (Host.exp (Host.negf (Host.dotGeneral dot_S8x2048x1024_S8x1024x1024_S8x2048x1024_2_1_1_2_0_0 none d Wr))))

/-! ## The two results -/

/-- %82, the first result: the combined receptance gate times the combined key-value output. -/
def out82 (x : FVec F S8x2048x1024 .f32) (tok : IVec S8x2048 32) (ss : FVec F S8x1024 .f32)
    (mk mr : FVec F S1x1x1024 .f32) (Wk : FVec F S8x1024x2048 .f32) (Wv : FVec F S8x2048x1024 .f32)
    (Wr : FVec F S8x1024x1024 .f32) : FVec F S8x2048x1024 .f32 :=
  mulf (combine (rowcol tok) (rr (dispatch (rowcol tok) (mix x ss mr)) Wr))
    (combine (rowcol tok) (kv (dispatch (rowcol tok) (mix x ss mk)) Wk Wv))

/-- %83, %84, the second result: the last row of x along the time axis, as [8, 1024] (the next shift state). -/
def out84 (x : FVec F S8x2048x1024 .f32) : FVec F S8x1024 .f32 :=
  shapeCast S8x1024 (extractStridedSlice S8x1x1024 ![0, 2047, 0] x slices_S8x2048x1024_S8x1x1024_0_2047_0)
    shapeCasts_S8x1x1024_S8x1024

end Cert.ReferenceIdeal.RefTerm

end
-- ==== Proof.RefRun.lean ====
/-
  The reference program's run: @main as the list of its 157 operations in program order, the six calls
  (@remainder with `_where` inside it, @_one_hot, @cumsum with @cumsum_0 inside it, @take_along_axis, @_where_1,
  @relu) unfolded at their call sites over the buffers of their records, and what the two result buffers hold when
  every weakly fair execution has ended: `RefTerm.out82` and `RefTerm.out84` of the argument arrays, the
  arguments unchanged.

  The list is cut into thirteen consecutive windows, one per stage of RefTerm (a stage that the printed program's
  own cut between its two parts falls into is two windows). `valK V0` is the device's contents after the first K
  windows from contents `V0`; for every buffer that a later window still reads, `valK_‹buffer›` says what it holds
  as a named function of the arguments. Each such lemma reads only its own window's operations: the buffers from
  before the window enter by the previous lemmas, never unfolded.
-/
import proofs.«113595_j78640851189970_2_alg».proof.Proof.RefTerm
import Idealize.ShloMosaic.Lib.StableHlo.Run
import Idealize.ShloMosaic.Lib.Pipeline.Regions

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Facts]
open Facts₀ Facts

/-! ## The operations -/

/-- Window 0, 10 operations. %0 … %9: the token shift and the two mixes. -/
abbrev w0 : List (HloOp τ sig (Elt F)) :=
  [ StableHlo.unary main_arg2 main_v0 (broadcastInDim S8x1x1024 ![0, 2] bcast_S8x1024_S8x1x1024_0_2 : (⟨S8x1024, .f32⟩ : BufTy).Contents (Elt F) → (⟨S8x1x1024, .f32⟩ : BufTy).Contents (Elt F)),
    StableHlo.unary main_arg0 main_v1 ((extractStridedSlice S8x2047x1024 ![0, 0, 0] · slices_S8x2048x1024_S8x2047x1024_0_0_0) : (⟨S8x2048x1024, .f32⟩ : BufTy).Contents (Elt F) → (⟨S8x2047x1024, .f32⟩ : BufTy).Contents (Elt F)),
    StableHlo.binary main_v0 main_v1 main_v2 (RefTerm.catTime (F := F) : (⟨S8x1x1024, .f32⟩ : BufTy).Contents (Elt F) → (⟨S8x2047x1024, .f32⟩ : BufTy).Contents (Elt F) → (⟨S8x2048x1024, .f32⟩ : BufTy).Contents (Elt F)),
    StableHlo.binary main_v2 main_arg0 main_v3 (subf : (⟨S8x2048x1024, .f32⟩ : BufTy).Contents (Elt F) → (⟨S8x2048x1024, .f32⟩ : BufTy).Contents (Elt F) → (⟨S8x2048x1024, .f32⟩ : BufTy).Contents (Elt F)),
    StableHlo.unary main_arg3 main_v4 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v4 main_v5 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v5 main_v6 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_arg4 main_v7 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v7 main_v8 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v8 main_v9 (addf : (⟨S8x2048x1024, .f32⟩ : BufTy).Contents (Elt F) → (⟨S8x2048x1024, .f32⟩ : BufTy).Contents (Elt F) → (⟨S8x2048x1024, .f32⟩ : BufTy).Contents (Elt F)) ]

/-- Window 1, 26 operations. %10 … %13: the token ids flattened, times 5099, and @remainder's twenty-one operations (with `_where`'s one inside). -/
abbrev w1 : List (HloOp τ sig (Elt F)) :=
  [ StableHlo.reshape main_arg1 main_v10 rfl shapeCasts_S8x2048_S16384,
    StableHlo.nullary main_c (constantI S_ 32 5099#32),
    StableHlo.unary main_c main_v11 (broadcastInDim S16384 ![] bcast_S_S16384 : (⟨S_, .i32⟩ : BufTy).Contents (Elt F) → (⟨S16384, .i32⟩ : BufTy).Contents (Elt F)),
    StableHlo.binary main_v10 main_v11 main_v12 (muli : (⟨S16384, .i32⟩ : BufTy).Contents (Elt F) → (⟨S16384, .i32⟩ : BufTy).Contents (Elt F) → (⟨S16384, .i32⟩ : BufTy).Contents (Elt F)),
    StableHlo.nullary main_c_0 (constantI S_ 32 8#32),
    StableHlo.unary main_c_0 main_call0_v0 (id : (⟨S_, .i32⟩ : BufTy).Contents (Elt F) → (⟨S_, .i32⟩ : BufTy).Contents (Elt F)),
    StableHlo.nullary main_call0_c (constantI S_ 32 0#32),
    StableHlo.binary main_call0_v0 main_call0_c main_call0_v1 ((cmpi .eq) : (⟨S_, .i32⟩ : BufTy).Contents (Elt F) → (⟨S_, .i32⟩ : BufTy).Contents (Elt F) → (⟨S_, .i1⟩ : BufTy).Contents (Elt F)),
    StableHlo.nullary main_call0_c_0 (constantI S_ 32 1#32),
    StableHlo.ternary main_call0_v1 main_call0_c_0 main_call0_v0 main_call0_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call0_v2 main_call0_v3 ((broadcastInDim S16384 ![] bcast_S_S16384) : (⟨S_, .i32⟩ : BufTy).Contents (Elt F) → (⟨S16384, .i32⟩ : BufTy).Contents (Elt F)),
    StableHlo.binary main_v12 main_call0_v3 main_call0_v4 (Host.remsi : (⟨S16384, .i32⟩ : BufTy).Contents (Elt F) → (⟨S16384, .i32⟩ : BufTy).Contents (Elt F) → (⟨S16384, .i32⟩ : BufTy).Contents (Elt F)),
    StableHlo.nullary main_call0_c_1 (constantI S_ 32 0#32),
    StableHlo.unary main_call0_c_1 main_call0_v5 ((broadcastInDim S16384 ![] bcast_S_S16384) : (⟨S_, .i32⟩ : BufTy).Contents (Elt F) → (⟨S16384, .i32⟩ : BufTy).Contents (Elt F)),
    StableHlo.binary main_call0_v4 main_call0_v5 main_call0_v6 ((cmpi .ne) : (⟨S16384, .i32⟩ : BufTy).Contents (Elt F) → (⟨S16384, .i32⟩ : BufTy).Contents (Elt F) → (⟨S16384, .i1⟩ : BufTy).Contents (Elt F)),
    StableHlo.nullary main_call0_c_2 (constantI S_ 32 0#32),
    StableHlo.unary main_call0_c_2 main_call0_v7 ((broadcastInDim S16384 ![] bcast_S_S16384) : (⟨S_, .i32⟩ : BufTy).Contents (Elt F) → (⟨S16384, .i32⟩ : BufTy).Contents (Elt F)),
    StableHlo.binary main_call0_v4 main_call0_v7 main_call0_v8 ((cmpi .slt) : (⟨S16384, .i32⟩ : BufTy).Contents (Elt F) → (⟨S16384, .i32⟩ : BufTy).Contents (Elt F) → (⟨S16384, .i1⟩ : BufTy).Contents (Elt F)),
    StableHlo.nullary main_call0_c_3 (constantI S_ 32 0#32),
    StableHlo.binary main_call0_v2 main_call0_c_3 main_call0_v9 ((cmpi .slt) : (⟨S_, .i32⟩ : BufTy).Contents (Elt F) → (⟨S_, .i32⟩ : BufTy).Contents (Elt F) → (⟨S_, .i1⟩ : BufTy).Contents (Elt F)),
    StableHlo.unary main_call0_v9 main_call0_v10 ((broadcastInDim S16384 ![] bcast_S_S16384) : (⟨S_, .i1⟩ : BufTy).Contents (Elt F) → (⟨S16384, .i1⟩ : BufTy).Contents (Elt F)),
    StableHlo.binary main_call0_v8 main_call0_v10 main_call0_v11 ((cmpi .ne) : (⟨S16384, .i1⟩ : BufTy).Contents (Elt F) → (⟨S16384, .i1⟩ : BufTy).Contents (Elt F) → (⟨S16384, .i1⟩ : BufTy).Contents (Elt F)),
    StableHlo.binary main_call0_v11 main_call0_v6 main_call0_v12 (andi : (⟨S16384, .i1⟩ : BufTy).Contents (Elt F) → (⟨S16384, .i1⟩ : BufTy).Contents (Elt F) → (⟨S16384, .i1⟩ : BufTy).Contents (Elt F)),
    StableHlo.unary main_call0_v2 main_call0_v13 ((broadcastInDim S16384 ![] bcast_S_S16384) : (⟨S_, .i32⟩ : BufTy).Contents (Elt F) → (⟨S16384, .i32⟩ : BufTy).Contents (Elt F)),
    StableHlo.binary main_call0_v4 main_call0_v13 main_call0_v14 (addi : (⟨S16384, .i32⟩ : BufTy).Contents (Elt F) → (⟨S16384, .i32⟩ : BufTy).Contents (Elt F) → (⟨S16384, .i32⟩ : BufTy).Contents (Elt F)),
    StableHlo.ternary main_call0_v12 main_call0_v14 main_call0_v4 main_v13 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) ]

/-- Window 2, 13 operations. %14 … %18: @_one_hot's six, @cumsum's three, the subtraction of 1, and %13 as a column. -/
abbrev w2 : List (HloOp τ sig (Elt F)) :=
  [ StableHlo.unary main_v13 main_call1_v0 ((broadcastInDim S16384x1 ![0] bcast_S16384_S16384x1_0) : (⟨S16384, .i32⟩ : BufTy).Contents (Elt F) → (⟨S16384x1, .i32⟩ : BufTy).Contents (Elt F)),
    StableHlo.nullary main_call1_v1 (iotaInDim S1x8 32 1),
    StableHlo.unary main_call1_v0 main_call1_v2 ((broadcastInDim S16384x8 ![0, 1] bcast_S16384x1_S16384x8_0_1) : (⟨S16384x1, .i32⟩ : BufTy).Contents (Elt F) → (⟨S16384x8, .i32⟩ : BufTy).Contents (Elt F)),
    StableHlo.unary main_call1_v1 main_call1_v3 ((broadcastInDim S16384x8 ![0, 1] bcast_S1x8_S16384x8_0_1) : (⟨S1x8, .i32⟩ : BufTy).Contents (Elt F) → (⟨S16384x8, .i32⟩ : BufTy).Contents (Elt F)),
    StableHlo.binary main_call1_v2 main_call1_v3 main_call1_v4 ((cmpi .eq) : (⟨S16384x8, .i32⟩ : BufTy).Contents (Elt F) → (⟨S16384x8, .i32⟩ : BufTy).Contents (Elt F) → (⟨S16384x8, .i1⟩ : BufTy).Contents (Elt F)),
    StableHlo.unary main_call1_v4 main_v14 ((extui 32 · natLt_1_32) : (⟨S16384x8, .i1⟩ : BufTy).Contents (Elt F) → (⟨S16384x8, .i32⟩ : BufTy).Contents (Elt F)),
    StableHlo.nullary main_call2_call0_c (constantI S_ 32 0#32),
    StableHlo.unary main_call2_call0_c main_call2_call0_v0 ((broadcastInDim S_ ![] bcast_S_S_) : (⟨S_, .i32⟩ : BufTy).Contents (Elt F) → (⟨S_, .i32⟩ : BufTy).Contents (Elt F)),
    StableHlo.binary main_v14 main_call2_call0_v0 main_v15 ((fun x v => Host.reduceWindow IntOp.addi ![16384, 1] ![1, 1] ![16383, 0] ![0, 0] x v reduceWindows_S16384x8_S16384x8_w16384s1p16383_0_w1s1p0_0 h_S_) : (⟨S16384x8, .i32⟩ : BufTy).Contents (Elt F) → (⟨S_, .i32⟩ : BufTy).Contents (Elt F) → (⟨S16384x8, .i32⟩ : BufTy).Contents (Elt F)),
    StableHlo.nullary main_c_1 (constantI S_ 32 1#32),
    StableHlo.unary main_c_1 main_v16 (broadcastInDim S16384x8 ![] bcast_S_S16384x8 : (⟨S_, .i32⟩ : BufTy).Contents (Elt F) → (⟨S16384x8, .i32⟩ : BufTy).Contents (Elt F)),
    StableHlo.binary main_v15 main_v16 main_v17 (subi : (⟨S16384x8, .i32⟩ : BufTy).Contents (Elt F) → (⟨S16384x8, .i32⟩ : BufTy).Contents (Elt F) → (⟨S16384x8, .i32⟩ : BufTy).Contents (Elt F)),
    StableHlo.unary main_v13 main_v18 (broadcastInDim S16384x1 ![0] bcast_S16384_S16384x1_0 : (⟨S16384, .i32⟩ : BufTy).Contents (Elt F) → (⟨S16384x1, .i32⟩ : BufTy).Contents (Elt F)) ]

/-- Window 3, 22 operations. %19: @take_along_axis's twenty-two. -/
abbrev w3 : List (HloOp τ sig (Elt F)) :=
  [ StableHlo.nullary main_call3_c (constantI S_ 32 0#32),
    StableHlo.unary main_call3_c main_call3_v0 ((broadcastInDim S16384x1 ![] bcast_S_S16384x1) : (⟨S_, .i32⟩ : BufTy).Contents (Elt F) → (⟨S16384x1, .i32⟩ : BufTy).Contents (Elt F)),
    StableHlo.binary main_v18 main_call3_v0 main_call3_v1 ((cmpi .slt) : (⟨S16384x1, .i32⟩ : BufTy).Contents (Elt F) → (⟨S16384x1, .i32⟩ : BufTy).Contents (Elt F) → (⟨S16384x1, .i1⟩ : BufTy).Contents (Elt F)),
    StableHlo.nullary main_call3_c_0 (constantI S_ 32 8#32),
    StableHlo.unary main_call3_c_0 main_call3_v2 ((broadcastInDim S16384x1 ![] bcast_S_S16384x1) : (⟨S_, .i32⟩ : BufTy).Contents (Elt F) → (⟨S16384x1, .i32⟩ : BufTy).Contents (Elt F)),
    StableHlo.binary main_v18 main_call3_v2 main_call3_v3 (addi : (⟨S16384x1, .i32⟩ : BufTy).Contents (Elt F) → (⟨S16384x1, .i32⟩ : BufTy).Contents (Elt F) → (⟨S16384x1, .i32⟩ : BufTy).Contents (Elt F)),
    StableHlo.ternary main_call3_v1 main_call3_v3 main_v18 main_call3_v4 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    StableHlo.reshape main_call3_v4 main_call3_v5 rfl shapeCasts_S16384x1_S16384x1x1,
    StableHlo.nullary main_call3_c_1 (constantI S1 32 7#32),
    StableHlo.nullary main_call3_c_2 (constantI S_ 32 0#32),
    StableHlo.unary main_call3_c_2 main_call3_v6 ((broadcastInDim S16384x1x1 ![] bcast_S_S16384x1x1) : (⟨S_, .i32⟩ : BufTy).Contents (Elt F) → (⟨S16384x1x1, .i32⟩ : BufTy).Contents (Elt F)),
    StableHlo.binary main_call3_v5 main_call3_v6 main_call3_v7 ((cmpi .sge) : (⟨S16384x1x1, .i32⟩ : BufTy).Contents (Elt F) → (⟨S16384x1x1, .i32⟩ : BufTy).Contents (Elt F) → (⟨S16384x1x1, .i1⟩ : BufTy).Contents (Elt F)),
    StableHlo.unary main_call3_c_1 main_call3_v8 ((broadcastInDim S1x1x1 ![2] bcast_S1_S1x1x1_2) : (⟨S1, .i32⟩ : BufTy).Contents (Elt F) → (⟨S1x1x1, .i32⟩ : BufTy).Contents (Elt F)),
    StableHlo.unary main_call3_v8 main_call3_v9 ((broadcastInDim S16384x1x1 ![0, 1, 2] bcast_S1x1x1_S16384x1x1_0_1_2) : (⟨S1x1x1, .i32⟩ : BufTy).Contents (Elt F) → (⟨S16384x1x1, .i32⟩ : BufTy).Contents (Elt F)),
    StableHlo.binary main_call3_v5 main_call3_v9 main_call3_v10 ((cmpi .sle) : (⟨S16384x1x1, .i32⟩ : BufTy).Contents (Elt F) → (⟨S16384x1x1, .i32⟩ : BufTy).Contents (Elt F) → (⟨S16384x1x1, .i1⟩ : BufTy).Contents (Elt F)),
    StableHlo.binary main_call3_v7 main_call3_v10 main_call3_v11 (andi : (⟨S16384x1x1, .i1⟩ : BufTy).Contents (Elt F) → (⟨S16384x1x1, .i1⟩ : BufTy).Contents (Elt F) → (⟨S16384x1x1, .i1⟩ : BufTy).Contents (Elt F)),
    StableHlo.nullary main_call3_c_3 (constantI S_ 1 1#1),
    StableHlo.binary main_call3_v11 main_call3_c_3 main_call3_v12 ((fun x v => Host.reduce IntOp.andi x v reducesTo_S16384x1x1_S16384x1_d2 h_S_) : (⟨S16384x1x1, .i1⟩ : BufTy).Contents (Elt F) → (⟨S_, .i1⟩ : BufTy).Contents (Elt F) → (⟨S16384x1, .i1⟩ : BufTy).Contents (Elt F)),
    StableHlo.binary main_v17 main_call3_v5 main_call3_v13 ((fun x i => Host.gather gather_S16384x8_S16384x1x1_S16384x1_n_1_0_0_1_2_11 x i) : (⟨S16384x8, .i32⟩ : BufTy).Contents (Elt F) → (⟨S16384x1x1, .i32⟩ : BufTy).Contents (Elt F) → (⟨S16384x1, .i32⟩ : BufTy).Contents (Elt F)),
    StableHlo.nullary main_call3_c_4 (constantI S_ 32 2147483648#32),
    StableHlo.unary main_call3_c_4 main_call3_v14 ((broadcastInDim S16384x1 ![] bcast_S_S16384x1) : (⟨S_, .i32⟩ : BufTy).Contents (Elt F) → (⟨S16384x1, .i32⟩ : BufTy).Contents (Elt F)),
    StableHlo.ternary main_call3_v12 main_call3_v13 main_call3_v14 main_v19 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)) ]

/-- Window 4, 12 operations. %20 … %26: the place as a vector, the comparison with 2048, the row `e · 2048 + s`, @_where_1's three. -/
abbrev w4 : List (HloOp τ sig (Elt F)) :=
  [ StableHlo.reshape main_v19 main_v20 rfl shapeCasts_S16384x1_S16384,
    StableHlo.nullary main_c_2 (constantI S_ 32 2048#32),
    StableHlo.unary main_c_2 main_v21 (broadcastInDim S16384 ![] bcast_S_S16384 : (⟨S_, .i32⟩ : BufTy).Contents (Elt F) → (⟨S16384, .i32⟩ : BufTy).Contents (Elt F)),
    StableHlo.binary main_v20 main_v21 main_v22 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 2048#32),
    StableHlo.unary main_c_3 main_v23 (broadcastInDim S16384 ![] bcast_S_S16384 : (⟨S_, .i32⟩ : BufTy).Contents (Elt F) → (⟨S16384, .i32⟩ : BufTy).Contents (Elt F)),
    StableHlo.binary main_v13 main_v23 main_v24 (muli : (⟨S16384, .i32⟩ : BufTy).Contents (Elt F) → (⟨S16384, .i32⟩ : BufTy).Contents (Elt F) → (⟨S16384, .i32⟩ : BufTy).Contents (Elt F)),
    StableHlo.binary main_v24 main_v20 main_v25 (addi : (⟨S16384, .i32⟩ : BufTy).Contents (Elt F) → (⟨S16384, .i32⟩ : BufTy).Contents (Elt F) → (⟨S16384, .i32⟩ : BufTy).Contents (Elt F)),
    StableHlo.nullary main_c_4 (constantI S_ 32 16384#32),
    StableHlo.unary main_c_4 main_call4_v0 (id : (⟨S_, .i32⟩ : BufTy).Contents (Elt F) → (⟨S_, .i32⟩ : BufTy).Contents (Elt F)),
    StableHlo.unary main_call4_v0 main_call4_v1 ((broadcastInDim S16384 ![] bcast_S_S16384) : (⟨S_, .i32⟩ : BufTy).Contents (Elt F) → (⟨S16384, .i32⟩ : BufTy).Contents (Elt F)),
    StableHlo.ternary main_v22 main_v25 main_call4_v1 main_v26 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) ]

/-- Window 5, 14 operations. %27 … %37: the dispatch of the key mix (zeros, the wrapped column of rows, the scatter, the slice, the reshape). -/
abbrev w5 : List (HloOp τ sig (Elt F)) :=
  [ StableHlo.nullary main_cst (constant S_ .f32 0x00000000#32),
    StableHlo.unary main_cst main_v27 (broadcastInDim S16385x1024 ![] bcast_S_S16385x1024 : (⟨S_, .f32⟩ : BufTy).Contents (Elt F) → (⟨S16385x1024, .f32⟩ : BufTy).Contents (Elt F)),
    StableHlo.reshape main_v6 main_v28 rfl shapeCasts_S8x2048x1024_S16384x1024,
    StableHlo.nullary main_c_5 (constantI S_ 32 0#32),
    StableHlo.unary main_c_5 main_v29 (broadcastInDim S16384 ![] bcast_S_S16384 : (⟨S_, .i32⟩ : BufTy).Contents (Elt F) → (⟨S16384, .i32⟩ : BufTy).Contents (Elt F)),
    StableHlo.binary main_v26 main_v29 main_v30 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 16385#32),
    StableHlo.unary main_c_6 main_v31 (broadcastInDim S16384 ![] bcast_S_S16384 : (⟨S_, .i32⟩ : BufTy).Contents (Elt F) → (⟨S16384, .i32⟩ : BufTy).Contents (Elt F)),
    StableHlo.binary main_v26 main_v31 main_v32 (addi : (⟨S16384, .i32⟩ : BufTy).Contents (Elt F) → (⟨S16384, .i32⟩ : BufTy).Contents (Elt F) → (⟨S16384, .i32⟩ : BufTy).Contents (Elt F)),
    StableHlo.ternary main_v30 main_v32 main_v26 main_v33 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v33 main_v34 (broadcastInDim S16384x1 ![0] bcast_S16384_S16384x1_0 : (⟨S16384, .i32⟩ : BufTy).Contents (Elt F) → (⟨S16384x1, .i32⟩ : BufTy).Contents (Elt F)),
    StableHlo.ternary main_v27 main_v34 main_v28 main_v35 ((fun x i u => Host.scatter scatter_S16385x1024_S16384x1_S16384x1024_1_0_0_1 (fun _ b => b) x i u) : (⟨S16385x1024, .f32⟩ : BufTy).Contents (Elt F) → (⟨S16384x1, .i32⟩ : BufTy).Contents (Elt F) → (⟨S16384x1024, .f32⟩ : BufTy).Contents (Elt F) → (⟨S16385x1024, .f32⟩ : BufTy).Contents (Elt F)),
    StableHlo.unary main_v35 main_v36 ((extractStridedSlice S16384x1024 ![0, 0] · slices_S16385x1024_S16384x1024_0_0) : (⟨S16385x1024, .f32⟩ : BufTy).Contents (Elt F) → (⟨S16384x1024, .f32⟩ : BufTy).Contents (Elt F)),
    StableHlo.reshape main_v36 main_v37 rfl shapeCasts_S16384x1024_S8x2048x1024 ]

/-- Window 6, 6 operations. %38 … %41: the product with the key matrix, @relu's three, the square, the product with the value matrix. -/
abbrev w6 : List (HloOp τ sig (Elt F)) :=
  [ StableHlo.binary main_v37 main_arg5 main_v38 ((fun l r => Host.dotGeneral dot_S8x2048x1024_S8x1024x2048_S8x2048x2048_2_1_1_2_0_0 none l r) : (⟨S8x2048x1024, .f32⟩ : BufTy).Contents (Elt F) → (⟨S8x1024x2048, .f32⟩ : BufTy).Contents (Elt F) → (⟨S8x2048x2048, .f32⟩ : BufTy).Contents (Elt F)),
    StableHlo.nullary main_call5_cst (constant S_ .f32 0x00000000#32),
    StableHlo.unary main_call5_cst main_call5_v0 ((broadcastInDim S8x2048x2048 ![] bcast_S_S8x2048x2048) : (⟨S_, .f32⟩ : BufTy).Contents (Elt F) → (⟨S8x2048x2048, .f32⟩ : BufTy).Contents (Elt F)),
    StableHlo.binary main_v38 main_call5_v0 main_v39 (maximumf : (⟨S8x2048x2048, .f32⟩ : BufTy).Contents (Elt F) → (⟨S8x2048x2048, .f32⟩ : BufTy).Contents (Elt F) → (⟨S8x2048x2048, .f32⟩ : BufTy).Contents (Elt F)),
    StableHlo.binary main_v39 main_v39 main_v40 (mulf : (⟨S8x2048x2048, .f32⟩ : BufTy).Contents (Elt F) → (⟨S8x2048x2048, .f32⟩ : BufTy).Contents (Elt F) → (⟨S8x2048x2048, .f32⟩ : BufTy).Contents (Elt F)),
    StableHlo.binary main_v40 main_arg6 main_v41 ((fun l r => Host.dotGeneral dot_S8x2048x2048_S8x2048x1024_S8x2048x1024_2_1_1_2_0_0 none l r) : (⟨S8x2048x2048, .f32⟩ : BufTy).Contents (Elt F) → (⟨S8x2048x1024, .f32⟩ : BufTy).Contents (Elt F) → (⟨S8x2048x1024, .f32⟩ : BufTy).Contents (Elt F)) ]

/-- Window 7, 9 operations. %42 … %47: the key-value output flattened with a zero row appended, and the first half of the column of rows (the printed program's first window ends here). -/
abbrev w7 : List (HloOp τ sig (Elt F)) :=
  [ StableHlo.reshape main_v41 main_v42 rfl shapeCasts_S8x2048x1024_S16384x1024,
    StableHlo.nullary main_cst_7 (constant S_ .f32 0x00000000#32),
    StableHlo.unary main_cst_7 main_v43 (broadcastInDim S1x1024 ![] bcast_S_S1x1024 : (⟨S_, .f32⟩ : BufTy).Contents (Elt F) → (⟨S1x1024, .f32⟩ : BufTy).Contents (Elt F)),
    StableHlo.binary main_v42 main_v43 main_v44 (RefTerm.catRow (F := F) : (⟨S16384x1024, .f32⟩ : BufTy).Contents (Elt F) → (⟨S1x1024, .f32⟩ : BufTy).Contents (Elt F) → (⟨S16385x1024, .f32⟩ : BufTy).Contents (Elt F)),
    StableHlo.nullary main_c_8 (constantI S_ 32 0#32),
    StableHlo.unary main_c_8 main_v45 (broadcastInDim S16384 ![] bcast_S_S16384 : (⟨S_, .i32⟩ : BufTy).Contents (Elt F) → (⟨S16384, .i32⟩ : BufTy).Contents (Elt F)),
    StableHlo.binary main_v26 main_v45 main_v46 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 16385#32),
    StableHlo.unary main_c_9 main_v47 (broadcastInDim S16384 ![] bcast_S_S16384 : (⟨S_, .i32⟩ : BufTy).Contents (Elt F) → (⟨S16384, .i32⟩ : BufTy).Contents (Elt F)) ]

/-- Window 8, 5 operations. %48 … %52: the rest of the column of rows, the gather, the reshape. -/
abbrev w8 : List (HloOp τ sig (Elt F)) :=
  [ StableHlo.binary main_v26 main_v47 main_v48 (addi : (⟨S16384, .i32⟩ : BufTy).Contents (Elt F) → (⟨S16384, .i32⟩ : BufTy).Contents (Elt F) → (⟨S16384, .i32⟩ : BufTy).Contents (Elt F)),
    StableHlo.ternary main_v46 main_v48 main_v26 main_v49 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v49 main_v50 (broadcastInDim S16384x1 ![0] bcast_S16384_S16384x1_0 : (⟨S16384, .i32⟩ : BufTy).Contents (Elt F) → (⟨S16384x1, .i32⟩ : BufTy).Contents (Elt F)),
    StableHlo.binary main_v44 main_v50 main_v51 ((fun x i => Host.gather gather_S16385x1024_S16384x1_S16384x1024_1_0_n_n_0_1_11024 x i) : (⟨S16385x1024, .f32⟩ : BufTy).Contents (Elt F) → (⟨S16384x1, .i32⟩ : BufTy).Contents (Elt F) → (⟨S16384x1024, .f32⟩ : BufTy).Contents (Elt F)),
    StableHlo.reshape main_v51 main_v52 rfl shapeCasts_S16384x1024_S8x2048x1024 ]

/-- Window 9, 14 operations. %53 … %63: the dispatch of the receptance mix. -/
abbrev w9 : List (HloOp τ sig (Elt F)) :=
  [ StableHlo.nullary main_cst_10 (constant S_ .f32 0x00000000#32),
    StableHlo.unary main_cst_10 main_v53 (broadcastInDim S16385x1024 ![] bcast_S_S16385x1024 : (⟨S_, .f32⟩ : BufTy).Contents (Elt F) → (⟨S16385x1024, .f32⟩ : BufTy).Contents (Elt F)),
    StableHlo.reshape main_v9 main_v54 rfl shapeCasts_S8x2048x1024_S16384x1024,
    StableHlo.nullary main_c_11 (constantI S_ 32 0#32),
    StableHlo.unary main_c_11 main_v55 (broadcastInDim S16384 ![] bcast_S_S16384 : (⟨S_, .i32⟩ : BufTy).Contents (Elt F) → (⟨S16384, .i32⟩ : BufTy).Contents (Elt F)),
    StableHlo.binary main_v26 main_v55 main_v56 (cmpi .slt : (⟨S16384, .i32⟩ : BufTy).Contents (Elt F) → (⟨S16384, .i32⟩ : BufTy).Contents (Elt F) → (⟨S16384, .i1⟩ : BufTy).Contents (Elt F)),
    StableHlo.nullary main_c_12 (constantI S_ 32 16385#32),
    StableHlo.unary main_c_12 main_v57 (broadcastInDim S16384 ![] bcast_S_S16384 : (⟨S_, .i32⟩ : BufTy).Contents (Elt F) → (⟨S16384, .i32⟩ : BufTy).Contents (Elt F)),
    StableHlo.binary main_v26 main_v57 main_v58 (addi : (⟨S16384, .i32⟩ : BufTy).Contents (Elt F) → (⟨S16384, .i32⟩ : BufTy).Contents (Elt F) → (⟨S16384, .i32⟩ : BufTy).Contents (Elt F)),
    StableHlo.ternary main_v56 main_v58 main_v26 main_v59 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v59 main_v60 (broadcastInDim S16384x1 ![0] bcast_S16384_S16384x1_0 : (⟨S16384, .i32⟩ : BufTy).Contents (Elt F) → (⟨S16384x1, .i32⟩ : BufTy).Contents (Elt F)),
    StableHlo.ternary main_v53 main_v60 main_v54 main_v61 ((fun x i u => Host.scatter scatter_S16385x1024_S16384x1_S16384x1024_1_0_0_1 (fun _ b => b) x i u) : (⟨S16385x1024, .f32⟩ : BufTy).Contents (Elt F) → (⟨S16384x1, .i32⟩ : BufTy).Contents (Elt F) → (⟨S16384x1024, .f32⟩ : BufTy).Contents (Elt F) → (⟨S16385x1024, .f32⟩ : BufTy).Contents (Elt F)),
    StableHlo.unary main_v61 main_v62 ((extractStridedSlice S16384x1024 ![0, 0] · slices_S16385x1024_S16384x1024_0_0) : (⟨S16385x1024, .f32⟩ : BufTy).Contents (Elt F) → (⟨S16384x1024, .f32⟩ : BufTy).Contents (Elt F)),
    StableHlo.reshape main_v62 main_v63 rfl shapeCasts_S16384x1024_S8x2048x1024 ]

/-- Window 10, 9 operations. %64 … %70: the product with the receptance matrix and the logistic function. -/
abbrev w10 : List (HloOp τ sig (Elt F)) :=
  [ StableHlo.binary main_v63 main_arg7 main_v64 ((fun l r => Host.dotGeneral dot_S8x2048x1024_S8x1024x1024_S8x2048x1024_2_1_1_2_0_0 none l r) : (⟨S8x2048x1024, .f32⟩ : BufTy).Contents (Elt F) → (⟨S8x1024x1024, .f32⟩ : BufTy).Contents (Elt F) → (⟨S8x2048x1024, .f32⟩ : BufTy).Contents (Elt F)),
    StableHlo.unary main_v64 main_v65 (Host.negf : (⟨S8x2048x1024, .f32⟩ : BufTy).Contents (Elt F) → (⟨S8x2048x1024, .f32⟩ : BufTy).Contents (Elt F)),
    StableHlo.unary main_v65 main_v66 (Host.exp : (⟨S8x2048x1024, .f32⟩ : BufTy).Contents (Elt F) → (⟨S8x2048x1024, .f32⟩ : BufTy).Contents (Elt F)),
    StableHlo.nullary main_cst_13 (constant S_ .f32 0x3F800000#32),
    StableHlo.unary main_cst_13 main_v67 (broadcastInDim S8x2048x1024 ![] bcast_S_S8x2048x1024 : (⟨S_, .f32⟩ : BufTy).Contents (Elt F) → (⟨S8x2048x1024, .f32⟩ : BufTy).Contents (Elt F)),
    StableHlo.binary main_v67 main_v66 main_v68 (addf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_14 (constant S_ .f32 0x3F800000#32),
    StableHlo.unary main_cst_14 main_v69 (broadcastInDim S8x2048x1024 ![] bcast_S_S8x2048x1024 : (⟨S_, .f32⟩ : BufTy).Contents (Elt F) → (⟨S8x2048x1024, .f32⟩ : BufTy).Contents (Elt F)),
    StableHlo.binary main_v69 main_v68 main_v70 (Host.divf : (⟨S8x2048x1024, .f32⟩ : BufTy).Contents (Elt F) → (⟨S8x2048x1024, .f32⟩ : BufTy).Contents (Elt F) → (⟨S8x2048x1024, .f32⟩ : BufTy).Contents (Elt F)) ]

/-- Window 11, 14 operations. %71 … %81: the combine of the gate. -/
abbrev w11 : List (HloOp τ sig (Elt F)) :=
  [ StableHlo.reshape main_v70 main_v71 rfl shapeCasts_S8x2048x1024_S16384x1024,
    StableHlo.nullary main_cst_15 (constant S_ .f32 0x00000000#32),
    StableHlo.unary main_cst_15 main_v72 (broadcastInDim S1x1024 ![] bcast_S_S1x1024 : (⟨S_, .f32⟩ : BufTy).Contents (Elt F) → (⟨S1x1024, .f32⟩ : BufTy).Contents (Elt F)),
    StableHlo.binary main_v71 main_v72 main_v73 (RefTerm.catRow (F := F) : (⟨S16384x1024, .f32⟩ : BufTy).Contents (Elt F) → (⟨S1x1024, .f32⟩ : BufTy).Contents (Elt F) → (⟨S16385x1024, .f32⟩ : BufTy).Contents (Elt F)),
    StableHlo.nullary main_c_16 (constantI S_ 32 0#32),
    StableHlo.unary main_c_16 main_v74 (broadcastInDim S16384 ![] bcast_S_S16384 : (⟨S_, .i32⟩ : BufTy).Contents (Elt F) → (⟨S16384, .i32⟩ : BufTy).Contents (Elt F)),
    StableHlo.binary main_v26 main_v74 main_v75 (cmpi .slt : (⟨S16384, .i32⟩ : BufTy).Contents (Elt F) → (⟨S16384, .i32⟩ : BufTy).Contents (Elt F) → (⟨S16384, .i1⟩ : BufTy).Contents (Elt F)),
    StableHlo.nullary main_c_17 (constantI S_ 32 16385#32),
    StableHlo.unary main_c_17 main_v76 (broadcastInDim S16384 ![] bcast_S_S16384 : (⟨S_, .i32⟩ : BufTy).Contents (Elt F) → (⟨S16384, .i32⟩ : BufTy).Contents (Elt F)),
    StableHlo.binary main_v26 main_v76 main_v77 (addi : (⟨S16384, .i32⟩ : BufTy).Contents (Elt F) → (⟨S16384, .i32⟩ : BufTy).Contents (Elt F) → (⟨S16384, .i32⟩ : BufTy).Contents (Elt F)),
    StableHlo.ternary main_v75 main_v77 main_v26 main_v78 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v78 main_v79 (broadcastInDim S16384x1 ![0] bcast_S16384_S16384x1_0 : (⟨S16384, .i32⟩ : BufTy).Contents (Elt F) → (⟨S16384x1, .i32⟩ : BufTy).Contents (Elt F)),
    StableHlo.binary main_v73 main_v79 main_v80 ((fun x i => Host.gather gather_S16385x1024_S16384x1_S16384x1024_1_0_n_n_0_1_11024 x i) : (⟨S16385x1024, .f32⟩ : BufTy).Contents (Elt F) → (⟨S16384x1, .i32⟩ : BufTy).Contents (Elt F) → (⟨S16384x1024, .f32⟩ : BufTy).Contents (Elt F)),
    StableHlo.reshape main_v80 main_v81 rfl shapeCasts_S16384x1024_S8x2048x1024 ]

/-- Window 12, 3 operations. %82, %83, %84: the product of the two combined arrays; the last row of x. -/
abbrev w12 : List (HloOp τ sig (Elt F)) :=
  [ StableHlo.binary main_v81 main_v52 main_v82 (mulf : (⟨S8x2048x1024, .f32⟩ : BufTy).Contents (Elt F) → (⟨S8x2048x1024, .f32⟩ : BufTy).Contents (Elt F) → (⟨S8x2048x1024, .f32⟩ : BufTy).Contents (Elt F)),
    StableHlo.unary main_arg0 main_v83 ((extractStridedSlice S8x1x1024 ![0, 2047, 0] · slices_S8x2048x1024_S8x1x1024_0_2047_0) : (⟨S8x2048x1024, .f32⟩ : BufTy).Contents (Elt F) → (⟨S8x1x1024, .f32⟩ : BufTy).Contents (Elt F)),
    StableHlo.reshape main_v83 main_v84 rfl shapeCasts_S8x1x1024_S8x1024 ]

/-- The operations of the printed program's first part (statements 1 … 60), 112 with the calls unfolded. -/
abbrev opsA : List (HloOp τ sig (Elt F)) := w0 ++ (w1 ++ (w2 ++ (w3 ++ (w4 ++ (w5 ++ (w6 ++ (w7)))))))
/-- The operations of its second part (statements 61 … 106), 45. -/
abbrev opsB : List (HloOp τ sig (Elt F)) := w8 ++ (w9 ++ (w10 ++ (w11 ++ (w12))))
/-- @main's 157 operations, in order, the calls unfolded. -/
abbrev ops : List (HloOp τ sig (Elt F)) := opsA ++ opsB

/-! ## @main is that list -/

set_option maxRecDepth 8192 in
/-- The first part of @main is its windows one after the other: the functions' definitions unfold at their calls and
    the records at their fields, and sequencing re-associates by computation (a step followed by the rest is the
    step with the rest as its continuation). -/
theorem main_part0_eq (c : Dev nD) : main_part0 (F := F) c = seq opsA := by
  show main_part0 (F := F) c = seq (w0 ++ (w1 ++ (w2 ++ (w3 ++ (w4 ++ (w5 ++ (w6 ++ (w7))))))))
  simp only [seq_append]
  chain_rfl

set_option maxRecDepth 8192 in
/-- The second part likewise. -/
theorem main_part1_eq (c : Dev nD) : main_part1 (F := F) c = seq opsB := by
  show main_part1 (F := F) c = seq (w8 ++ (w9 ++ (w10 ++ (w11 ++ (w12)))))
  simp only [seq_append]
  chain_rfl

/-- @main, its two parts in order, is the whole list. -/
theorem main_eq (c : Dev nD) : main (F := F) c = seq ops := by
  show (main_part0 (F := F) c >>= fun _ => main_part1 (F := F) c) = seq (opsA ++ opsB)
  rw [main_part0_eq, main_part1_eq]
  exact (seq_append opsA opsB).symm

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

theorem w0_sub : (w0 : List (HloOp τ sig (Elt F))).Forall fun op => op.bufs ⊆ tcRefs τ sig :=
  ⟨unary_bufs_sub .., unary_bufs_sub .., binary_bufs_sub .., binary_bufs_sub .., unary_bufs_sub .., binary_bufs_sub .., binary_bufs_sub .., unary_bufs_sub .., binary_bufs_sub .., binary_bufs_sub ..⟩
theorem w1_sub : (w1 : List (HloOp τ sig (Elt F))).Forall fun op => op.bufs ⊆ tcRefs τ sig :=
  ⟨reshape_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem w2_sub : (w2 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub ..⟩
theorem w3_sub : (w3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem w4_sub : (w4 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub ..⟩
theorem w5_sub : (w5 : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub ..⟩
theorem w6_sub : (w6 : List (HloOp τ sig (Elt F))).Forall fun op => op.bufs ⊆ tcRefs τ sig :=
  ⟨binary_bufs_sub .., nullary_bufs_sub .., unary_bufs_sub .., binary_bufs_sub .., binary_bufs_sub .., binary_bufs_sub ..⟩
theorem w7_sub : (w7 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., nullary_bufs_sub .., unary_bufs_sub ..⟩
theorem w8_sub : (w8 : List (HloOp τ sig (Elt F))).Forall fun op => op.bufs ⊆ tcRefs τ sig :=
  ⟨binary_bufs_sub .., ternary_bufs_sub .., unary_bufs_sub .., binary_bufs_sub .., reshape_bufs_sub ..⟩
theorem w9_sub : (w9 : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub ..⟩
theorem w10_sub : (w10 : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub ..⟩
theorem w11_sub : (w11 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub ..⟩
theorem w12_sub : (w12 : List (HloOp τ sig (Elt F))).Forall fun op => op.bufs ⊆ tcRefs τ sig :=
  ⟨binary_bufs_sub .., unary_bufs_sub .., reshape_bufs_sub ..⟩

theorem ops_sub : (ops : List (HloOp τ sig (Elt F))).Forall fun op => op.bufs ⊆ tcRefs τ sig :=
  List.forall_iff_forall_mem.mpr fun op h => by
    have h' : op ∈ (w0 ++ (w1 ++ (w2 ++ (w3 ++ (w4 ++ (w5 ++ (w6 ++ (w7)))))))) ++ (w8 ++ (w9 ++ (w10 ++ (w11 ++ (w12))))) := h
    simp only [List.mem_append] at h'
    rcases h' with (h | h | h | h | h | h | h | h) | (h | h | h | h | h)
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h]

/-! ## The contents window by window -/

/-- Two lists run one after the other from `V`: the second from where the first ends. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- One operation of a window writes a buffer of the window's list: its one written buffer is found in the list. -/
local macro "writes_one" : tactic =>
  `(tactic| (simp only [nullary_writes, unary_writes, binary_writes, ternary_writes, quaternary_writes, reshape_writes, binaryIndexed_writes, nary_writes, unaryIndexed_writes, Finset.singleton_subset_iff, List.mem_toFinset]; exact List.mem_map_of_mem (by decide)))

/-- The device's contents before the first window. -/
def val0 (V0 : Valuation τ sig (Elt F)) : Valuation τ sig (Elt F) := V0

theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl

/-- The device's contents after the first 1 window. -/
def val1 (V0 : Valuation τ sig (Elt F)) : Valuation τ sig (Elt F) := after w0 (val0 V0)
/-- The buffers window 0 writes. -/
abbrev w0_W : List (Ref sig .tc) := [main_v0, main_v1, main_v2, main_v3, main_v4, main_v5, main_v6, main_v7, main_v8, main_v9]
theorem w0_writes : (w0 : List (HloOp τ sig (Elt F))).Forall fun op => op.writes ⊆ (w0_W.map (Proc.devRef (τ := τ) .tc)).toFinset := by
  simp only [List.Forall]; exact ⟨by writes_one, by writes_one, by writes_one, by writes_one, by writes_one, by writes_one, by writes_one, by writes_one, by writes_one, by writes_one⟩
/-- A buffer window 0 does not write keeps its contents through it. -/
theorem val1_keep (V0 : Valuation τ sig (Elt F)) (r : Ref sig .tc) (h : r ∉ w0_W) :
    val1 V0 (Proc.devRef .tc r) = val0 V0 (Proc.devRef .tc r) :=
  after_of_writes_sub w0 _ w0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
set_option maxRecDepth 8192 in
theorem val1_main_v6 (V0 : Valuation τ sig (Elt F)) : val1 V0 (no_index (Proc.devRef .tc main_v6)) = RefTerm.mix (V0 (Proc.devRef .tc main_arg0)) (V0 (Proc.devRef .tc main_arg2)) (V0 (Proc.devRef .tc main_arg3)) := by
  unfold val1
  simp only [w0]
  after_results_simp <;> simp only [val0_main_arg0, val0_main_arg2, val0_main_arg3] <;> rfl
set_option maxRecDepth 8192 in
theorem val1_main_v9 (V0 : Valuation τ sig (Elt F)) : val1 V0 (no_index (Proc.devRef .tc main_v9)) = RefTerm.mix (V0 (Proc.devRef .tc main_arg0)) (V0 (Proc.devRef .tc main_arg2)) (V0 (Proc.devRef .tc main_arg4)) := by
  unfold val1
  simp only [w0]
  after_results_simp <;> simp only [val0_main_arg0, val0_main_arg2, val0_main_arg4] <;> rfl

/-- The device's contents after the first 2 windows. -/
def val2 (V0 : Valuation τ sig (Elt F)) : Valuation τ sig (Elt F) := after w1 (val1 V0)
/-- The buffers window 1 writes. -/
abbrev w1_W : List (Ref sig .tc) := [main_v10, main_c, main_v11, main_v12, main_c_0, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v13]
theorem w1_writes : (w1 : List (HloOp τ sig (Elt F))).Forall fun op => op.writes ⊆ (w1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 1 does not write keeps its contents through it. -/
theorem val2_keep (V0 : Valuation τ sig (Elt F)) (r : Ref sig .tc) (h : r ∉ w1_W) :
    val2 V0 (Proc.devRef .tc r) = val1 V0 (Proc.devRef .tc r) :=
  after_of_writes_sub w1 _ w1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_v6 (V0 : Valuation τ sig (Elt F)) : val2 V0 (no_index (Proc.devRef .tc main_v6)) = RefTerm.mix (V0 (Proc.devRef .tc main_arg0)) (V0 (Proc.devRef .tc main_arg2)) (V0 (Proc.devRef .tc main_arg3)) :=
  (val2_keep V0 main_v6 (by decide)).trans (val1_main_v6 V0)
theorem val2_main_v9 (V0 : Valuation τ sig (Elt F)) : val2 V0 (no_index (Proc.devRef .tc main_v9)) = RefTerm.mix (V0 (Proc.devRef .tc main_arg0)) (V0 (Proc.devRef .tc main_arg2)) (V0 (Proc.devRef .tc main_arg4)) :=
  (val2_keep V0 main_v9 (by decide)).trans (val1_main_v9 V0)
set_option maxRecDepth 8192 in
theorem val2_main_v13 (V0 : Valuation τ sig (Elt F)) : val2 V0 (no_index (Proc.devRef .tc main_v13)) = RefTerm.expert (V0 (Proc.devRef .tc main_arg1)) := by
  unfold val2
  simp only [w1]
  after_results_simp <;> simp only [val1_main_arg1] <;> rfl

/-- The device's contents after the first 3 windows. -/
def val3 (V0 : Valuation τ sig (Elt F)) : Valuation τ sig (Elt F) := after w2 (val2 V0)
/-- The buffers window 2 writes. -/
abbrev w2_W : List (Ref sig .tc) := [main_call1_v0, main_call1_v1, main_call1_v2, main_call1_v3, main_call1_v4, main_v14, main_call2_call0_c, main_call2_call0_v0, main_v15, main_c_1, main_v16, main_v17, main_v18]
theorem w2_writes : (w2 : List (HloOp τ sig (Elt F))).Forall fun op => op.writes ⊆ (w2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one⟩
/-- A buffer window 2 does not write keeps its contents through it. -/
theorem val3_keep (V0 : Valuation τ sig (Elt F)) (r : Ref sig .tc) (h : r ∉ w2_W) :
    val3 V0 (Proc.devRef .tc r) = val2 V0 (Proc.devRef .tc r) :=
  after_of_writes_sub w2 _ w2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_v13 (V0 : Valuation τ sig (Elt F)) : val3 V0 (no_index (Proc.devRef .tc main_v13)) = RefTerm.expert (V0 (Proc.devRef .tc main_arg1)) :=
  (val3_keep V0 main_v13 (by decide)).trans (val2_main_v13 V0)
theorem val3_main_v6 (V0 : Valuation τ sig (Elt F)) : val3 V0 (no_index (Proc.devRef .tc main_v6)) = RefTerm.mix (V0 (Proc.devRef .tc main_arg0)) (V0 (Proc.devRef .tc main_arg2)) (V0 (Proc.devRef .tc main_arg3)) :=
  (val3_keep V0 main_v6 (by decide)).trans (val2_main_v6 V0)
theorem val3_main_v9 (V0 : Valuation τ sig (Elt F)) : val3 V0 (no_index (Proc.devRef .tc main_v9)) = RefTerm.mix (V0 (Proc.devRef .tc main_arg0)) (V0 (Proc.devRef .tc main_arg2)) (V0 (Proc.devRef .tc main_arg4)) :=
  (val3_keep V0 main_v9 (by decide)).trans (val2_main_v9 V0)
set_option maxRecDepth 8192 in
theorem val3_main_v17 (V0 : Valuation τ sig (Elt F)) : val3 V0 (no_index (Proc.devRef .tc main_v17)) = RefTerm.position (RefTerm.expert (V0 (Proc.devRef .tc main_arg1))) := by
  unfold val3
  simp only [w2]
  after_results_simp <;> simp only [val2_main_v13] <;> rfl
set_option maxRecDepth 8192 in
theorem val3_main_v18 (V0 : Valuation τ sig (Elt F)) : val3 V0 (no_index (Proc.devRef .tc main_v18)) = broadcastInDim S16384x1 ![0] bcast_S16384_S16384x1_0 (RefTerm.expert (V0 (Proc.devRef .tc main_arg1))) := by
  unfold val3
  simp only [w2]
  after_results_simp <;> simp only [val2_main_v13] <;> rfl

/-- The device's contents after the first 4 windows. -/
def val4 (V0 : Valuation τ sig (Elt F)) : Valuation τ sig (Elt F) := after w3 (val3 V0)
/-- The buffers window 3 writes. -/
abbrev w3_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v19]
theorem w3_writes : (w3 : List (HloOp τ sig (Elt F))).Forall fun op => op.writes ⊆ (w3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 3 does not write keeps its contents through it. -/
theorem val4_keep (V0 : Valuation τ sig (Elt F)) (r : Ref sig .tc) (h : r ∉ w3_W) :
    val4 V0 (Proc.devRef .tc r) = val3 V0 (Proc.devRef .tc r) :=
  after_of_writes_sub w3 _ w3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_v13 (V0 : Valuation τ sig (Elt F)) : val4 V0 (no_index (Proc.devRef .tc main_v13)) = RefTerm.expert (V0 (Proc.devRef .tc main_arg1)) :=
  (val4_keep V0 main_v13 (by decide)).trans (val3_main_v13 V0)
theorem val4_main_v6 (V0 : Valuation τ sig (Elt F)) : val4 V0 (no_index (Proc.devRef .tc main_v6)) = RefTerm.mix (V0 (Proc.devRef .tc main_arg0)) (V0 (Proc.devRef .tc main_arg2)) (V0 (Proc.devRef .tc main_arg3)) :=
  (val4_keep V0 main_v6 (by decide)).trans (val3_main_v6 V0)
theorem val4_main_v9 (V0 : Valuation τ sig (Elt F)) : val4 V0 (no_index (Proc.devRef .tc main_v9)) = RefTerm.mix (V0 (Proc.devRef .tc main_arg0)) (V0 (Proc.devRef .tc main_arg2)) (V0 (Proc.devRef .tc main_arg4)) :=
  (val4_keep V0 main_v9 (by decide)).trans (val3_main_v9 V0)
set_option maxRecDepth 8192 in
theorem val4_main_v19 (V0 : Valuation τ sig (Elt F)) : val4 V0 (no_index (Proc.devRef .tc main_v19)) = RefTerm.takeAt (RefTerm.position (RefTerm.expert (V0 (Proc.devRef .tc main_arg1)))) (broadcastInDim S16384x1 ![0] bcast_S16384_S16384x1_0 (RefTerm.expert (V0 (Proc.devRef .tc main_arg1)))) := by
  unfold val4
  simp only [w3]
  after_results_simp <;> simp only [val3_main_v17, val3_main_v18] <;> rfl

/-- The device's contents after the first 5 windows. -/
def val5 (V0 : Valuation τ sig (Elt F)) : Valuation τ sig (Elt F) := after w4 (val4 V0)
/-- The buffers window 4 writes. -/
abbrev w4_W : List (Ref sig .tc) := [main_v20, main_c_2, main_v21, main_v22, main_c_3, main_v23, main_v24, main_v25, main_c_4, main_call4_v0, main_call4_v1, main_v26]
theorem w4_writes : (w4 : List (HloOp τ sig (Elt F))).Forall fun op => op.writes ⊆ (w4_W.map (Proc.devRef (τ := τ) .tc)).toFinset := by
  simp only [List.Forall]; exact ⟨by writes_one, by writes_one, by writes_one, by writes_one, by writes_one, by writes_one, by writes_one, by writes_one, by writes_one, by writes_one, by writes_one, by writes_one⟩
/-- A buffer window 4 does not write keeps its contents through it. -/
theorem val5_keep (V0 : Valuation τ sig (Elt F)) (r : Ref sig .tc) (h : r ∉ w4_W) :
    val5 V0 (Proc.devRef .tc r) = val4 V0 (Proc.devRef .tc r) :=
  after_of_writes_sub w4 _ w4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_v6 (V0 : Valuation τ sig (Elt F)) : val5 V0 (no_index (Proc.devRef .tc main_v6)) = RefTerm.mix (V0 (Proc.devRef .tc main_arg0)) (V0 (Proc.devRef .tc main_arg2)) (V0 (Proc.devRef .tc main_arg3)) :=
  (val5_keep V0 main_v6 (by decide)).trans (val4_main_v6 V0)
theorem val5_main_v9 (V0 : Valuation τ sig (Elt F)) : val5 V0 (no_index (Proc.devRef .tc main_v9)) = RefTerm.mix (V0 (Proc.devRef .tc main_arg0)) (V0 (Proc.devRef .tc main_arg2)) (V0 (Proc.devRef .tc main_arg4)) :=
  (val5_keep V0 main_v9 (by decide)).trans (val4_main_v9 V0)
set_option maxRecDepth 8192 in
theorem val5_main_v26 (V0 : Valuation τ sig (Elt F)) : val5 V0 (no_index (Proc.devRef .tc main_v26)) = RefTerm.flat (V0 (Proc.devRef .tc main_arg1)) := by
  unfold val5
  simp only [w4]
  after_results_simp <;> simp only [val4_main_v19, val4_main_v13] <;> rfl

/-- The device's contents after the first 6 windows. -/
def val6 (V0 : Valuation τ sig (Elt F)) : Valuation τ sig (Elt F) := after w5 (val5 V0)
/-- The buffers window 5 writes. -/
abbrev w5_W : List (Ref sig .tc) := [main_cst, main_v27, main_v28, main_c_5, main_v29, main_v30, main_c_6, main_v31, main_v32, main_v33, main_v34, main_v35, main_v36, main_v37]
theorem w5_writes : (w5 : List (HloOp τ sig (Elt F))).Forall fun op => op.writes ⊆ (w5_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one⟩
/-- A buffer window 5 does not write keeps its contents through it. -/
theorem val6_keep (V0 : Valuation τ sig (Elt F)) (r : Ref sig .tc) (h : r ∉ w5_W) :
    val6 V0 (Proc.devRef .tc r) = val5 V0 (Proc.devRef .tc r) :=
  after_of_writes_sub w5 _ w5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_v26 (V0 : Valuation τ sig (Elt F)) : val6 V0 (no_index (Proc.devRef .tc main_v26)) = RefTerm.flat (V0 (Proc.devRef .tc main_arg1)) :=
  (val6_keep V0 main_v26 (by decide)).trans (val5_main_v26 V0)
theorem val6_main_v9 (V0 : Valuation τ sig (Elt F)) : val6 V0 (no_index (Proc.devRef .tc main_v9)) = RefTerm.mix (V0 (Proc.devRef .tc main_arg0)) (V0 (Proc.devRef .tc main_arg2)) (V0 (Proc.devRef .tc main_arg4)) :=
  (val6_keep V0 main_v9 (by decide)).trans (val5_main_v9 V0)
set_option maxRecDepth 8192 in
theorem val6_main_v37 (V0 : Valuation τ sig (Elt F)) : val6 V0 (no_index (Proc.devRef .tc main_v37)) = RefTerm.dispatch (RefTerm.rowcol (V0 (Proc.devRef .tc main_arg1))) (RefTerm.mix (V0 (Proc.devRef .tc main_arg0)) (V0 (Proc.devRef .tc main_arg2)) (V0 (Proc.devRef .tc main_arg3))) := by
  unfold val6
  simp only [w5]
  after_results_simp <;> simp only [val5_main_v26, val5_main_v6] <;> rfl

/-- The device's contents after the first 7 windows. -/
def val7 (V0 : Valuation τ sig (Elt F)) : Valuation τ sig (Elt F) := after w6 (val6 V0)
/-- The buffers window 6 writes. -/
abbrev w6_W : List (Ref sig .tc) := [main_v38, main_call5_cst, main_call5_v0, main_v39, main_v40, main_v41]
theorem w6_writes : (w6 : List (HloOp τ sig (Elt F))).Forall fun op => op.writes ⊆ (w6_W.map (Proc.devRef (τ := τ) .tc)).toFinset := by
  simp only [List.Forall]; exact ⟨by writes_one, by writes_one, by writes_one, by writes_one, by writes_one, by writes_one⟩
/-- A buffer window 6 does not write keeps its contents through it. -/
theorem val7_keep (V0 : Valuation τ sig (Elt F)) (r : Ref sig .tc) (h : r ∉ w6_W) :
    val7 V0 (Proc.devRef .tc r) = val6 V0 (Proc.devRef .tc r) :=
  after_of_writes_sub w6 _ w6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_v26 (V0 : Valuation τ sig (Elt F)) : val7 V0 (no_index (Proc.devRef .tc main_v26)) = RefTerm.flat (V0 (Proc.devRef .tc main_arg1)) :=
  (val7_keep V0 main_v26 (by decide)).trans (val6_main_v26 V0)
theorem val7_main_v9 (V0 : Valuation τ sig (Elt F)) : val7 V0 (no_index (Proc.devRef .tc main_v9)) = RefTerm.mix (V0 (Proc.devRef .tc main_arg0)) (V0 (Proc.devRef .tc main_arg2)) (V0 (Proc.devRef .tc main_arg4)) :=
  (val7_keep V0 main_v9 (by decide)).trans (val6_main_v9 V0)
set_option maxRecDepth 8192 in
theorem val7_main_v41 (V0 : Valuation τ sig (Elt F)) : val7 V0 (no_index (Proc.devRef .tc main_v41)) = RefTerm.kv (RefTerm.dispatch (RefTerm.rowcol (V0 (Proc.devRef .tc main_arg1))) (RefTerm.mix (V0 (Proc.devRef .tc main_arg0)) (V0 (Proc.devRef .tc main_arg2)) (V0 (Proc.devRef .tc main_arg3)))) (V0 (Proc.devRef .tc main_arg5)) (V0 (Proc.devRef .tc main_arg6)) := by
  unfold val7
  simp only [w6]
  after_results_simp <;> simp only [val6_main_v37, val6_main_arg5, val6_main_arg6] <;> rfl

/-- The device's contents after the first 8 windows. -/
def val8 (V0 : Valuation τ sig (Elt F)) : Valuation τ sig (Elt F) := after w7 (val7 V0)
/-- The buffers window 7 writes. -/
abbrev w7_W : List (Ref sig .tc) := [main_v42, main_cst_7, main_v43, main_v44, main_c_8, main_v45, main_v46, main_c_9, main_v47]
theorem w7_writes : (w7 : List (HloOp τ sig (Elt F))).Forall fun op => op.writes ⊆ (w7_W.map (Proc.devRef (τ := τ) .tc)).toFinset := by
  simp only [List.Forall]; exact ⟨by writes_one, by writes_one, by writes_one, by writes_one, by writes_one, by writes_one, by writes_one, by writes_one, by writes_one⟩
/-- A buffer window 7 does not write keeps its contents through it. -/
theorem val8_keep (V0 : Valuation τ sig (Elt F)) (r : Ref sig .tc) (h : r ∉ w7_W) :
    val8 V0 (Proc.devRef .tc r) = val7 V0 (Proc.devRef .tc r) :=
  after_of_writes_sub w7 _ w7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_v26 (V0 : Valuation τ sig (Elt F)) : val8 V0 (no_index (Proc.devRef .tc main_v26)) = RefTerm.flat (V0 (Proc.devRef .tc main_arg1)) :=
  (val8_keep V0 main_v26 (by decide)).trans (val7_main_v26 V0)
theorem val8_main_v9 (V0 : Valuation τ sig (Elt F)) : val8 V0 (no_index (Proc.devRef .tc main_v9)) = RefTerm.mix (V0 (Proc.devRef .tc main_arg0)) (V0 (Proc.devRef .tc main_arg2)) (V0 (Proc.devRef .tc main_arg4)) :=
  (val8_keep V0 main_v9 (by decide)).trans (val7_main_v9 V0)
set_option maxRecDepth 8192 in
theorem val8_main_v44 (V0 : Valuation τ sig (Elt F)) : val8 V0 (no_index (Proc.devRef .tc main_v44)) = RefTerm.padded (RefTerm.kv (RefTerm.dispatch (RefTerm.rowcol (V0 (Proc.devRef .tc main_arg1))) (RefTerm.mix (V0 (Proc.devRef .tc main_arg0)) (V0 (Proc.devRef .tc main_arg2)) (V0 (Proc.devRef .tc main_arg3)))) (V0 (Proc.devRef .tc main_arg5)) (V0 (Proc.devRef .tc main_arg6))) := by
  unfold val8
  simp only [w7]
  after_results_simp <;> simp only [val7_main_v41] <;> rfl
set_option maxRecDepth 8192 in
theorem val8_main_v46 (V0 : Valuation τ sig (Elt F)) : val8 V0 (no_index (Proc.devRef .tc main_v46)) = cmpi .slt (RefTerm.flat (V0 (Proc.devRef .tc main_arg1))) (broadcastInDim S16384 ![] bcast_S_S16384 (constantI S_ 32 0#32)) := by
  unfold val8
  simp only [w7]
  after_results_simp <;> simp only [val7_main_v26] <;> rfl
set_option maxRecDepth 8192 in
theorem val8_main_v47 (V0 : Valuation τ sig (Elt F)) : val8 V0 (no_index (Proc.devRef .tc main_v47)) = broadcastInDim S16384 ![] bcast_S_S16384 (constantI S_ 32 16385#32) := by
  unfold val8
  simp only [w7]
  after_results_simp <;> rfl

/-- The device's contents after the first 9 windows. -/
def val9 (V0 : Valuation τ sig (Elt F)) : Valuation τ sig (Elt F) := after w8 (val8 V0)
/-- The buffers window 8 writes. -/
abbrev w8_W : List (Ref sig .tc) := [main_v48, main_v49, main_v50, main_v51, main_v52]
theorem w8_writes : (w8 : List (HloOp τ sig (Elt F))).Forall fun op => op.writes ⊆ (w8_W.map (Proc.devRef (τ := τ) .tc)).toFinset := by
  simp only [List.Forall]; exact ⟨by writes_one, by writes_one, by writes_one, by writes_one, by writes_one⟩
/-- A buffer window 8 does not write keeps its contents through it. -/
theorem val9_keep (V0 : Valuation τ sig (Elt F)) (r : Ref sig .tc) (h : r ∉ w8_W) :
    val9 V0 (Proc.devRef .tc r) = val8 V0 (Proc.devRef .tc r) :=
  after_of_writes_sub w8 _ w8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_v26 (V0 : Valuation τ sig (Elt F)) : val9 V0 (no_index (Proc.devRef .tc main_v26)) = RefTerm.flat (V0 (Proc.devRef .tc main_arg1)) :=
  (val9_keep V0 main_v26 (by decide)).trans (val8_main_v26 V0)
theorem val9_main_v9 (V0 : Valuation τ sig (Elt F)) : val9 V0 (no_index (Proc.devRef .tc main_v9)) = RefTerm.mix (V0 (Proc.devRef .tc main_arg0)) (V0 (Proc.devRef .tc main_arg2)) (V0 (Proc.devRef .tc main_arg4)) :=
  (val9_keep V0 main_v9 (by decide)).trans (val8_main_v9 V0)
set_option maxRecDepth 8192 in
theorem val9_main_v52 (V0 : Valuation τ sig (Elt F)) : val9 V0 (no_index (Proc.devRef .tc main_v52)) = RefTerm.combine (RefTerm.rowcol (V0 (Proc.devRef .tc main_arg1))) (RefTerm.kv (RefTerm.dispatch (RefTerm.rowcol (V0 (Proc.devRef .tc main_arg1))) (RefTerm.mix (V0 (Proc.devRef .tc main_arg0)) (V0 (Proc.devRef .tc main_arg2)) (V0 (Proc.devRef .tc main_arg3)))) (V0 (Proc.devRef .tc main_arg5)) (V0 (Proc.devRef .tc main_arg6))) := by
  unfold val9
  simp only [w8]
  after_results_simp <;> simp only [val8_main_v44, val8_main_v46, val8_main_v47, val8_main_v26] <;> rfl

/-- The device's contents after the first 10 windows. -/
def val10 (V0 : Valuation τ sig (Elt F)) : Valuation τ sig (Elt F) := after w9 (val9 V0)
/-- The buffers window 9 writes. -/
abbrev w9_W : List (Ref sig .tc) := [main_cst_10, main_v53, main_v54, main_c_11, main_v55, main_v56, main_c_12, main_v57, main_v58, main_v59, main_v60, main_v61, main_v62, main_v63]
theorem w9_writes : (w9 : List (HloOp τ sig (Elt F))).Forall fun op => op.writes ⊆ (w9_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one⟩
/-- A buffer window 9 does not write keeps its contents through it. -/
theorem val10_keep (V0 : Valuation τ sig (Elt F)) (r : Ref sig .tc) (h : r ∉ w9_W) :
    val10 V0 (Proc.devRef .tc r) = val9 V0 (Proc.devRef .tc r) :=
  after_of_writes_sub w9 _ w9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_v26 (V0 : Valuation τ sig (Elt F)) : val10 V0 (no_index (Proc.devRef .tc main_v26)) = RefTerm.flat (V0 (Proc.devRef .tc main_arg1)) :=
  (val10_keep V0 main_v26 (by decide)).trans (val9_main_v26 V0)
theorem val10_main_v52 (V0 : Valuation τ sig (Elt F)) : val10 V0 (no_index (Proc.devRef .tc main_v52)) = RefTerm.combine (RefTerm.rowcol (V0 (Proc.devRef .tc main_arg1))) (RefTerm.kv (RefTerm.dispatch (RefTerm.rowcol (V0 (Proc.devRef .tc main_arg1))) (RefTerm.mix (V0 (Proc.devRef .tc main_arg0)) (V0 (Proc.devRef .tc main_arg2)) (V0 (Proc.devRef .tc main_arg3)))) (V0 (Proc.devRef .tc main_arg5)) (V0 (Proc.devRef .tc main_arg6))) :=
  (val10_keep V0 main_v52 (by decide)).trans (val9_main_v52 V0)
set_option maxRecDepth 8192 in
theorem val10_main_v63 (V0 : Valuation τ sig (Elt F)) : val10 V0 (no_index (Proc.devRef .tc main_v63)) = RefTerm.dispatch (RefTerm.rowcol (V0 (Proc.devRef .tc main_arg1))) (RefTerm.mix (V0 (Proc.devRef .tc main_arg0)) (V0 (Proc.devRef .tc main_arg2)) (V0 (Proc.devRef .tc main_arg4))) := by
  unfold val10
  simp only [w9]
  after_results_simp <;> simp only [val9_main_v26, val9_main_v9] <;> rfl

/-- The device's contents after the first 11 windows. -/
def val11 (V0 : Valuation τ sig (Elt F)) : Valuation τ sig (Elt F) := after w10 (val10 V0)
/-- The buffers window 10 writes. -/
abbrev w10_W : List (Ref sig .tc) := [main_v64, main_v65, main_v66, main_cst_13, main_v67, main_v68, main_cst_14, main_v69, main_v70]
theorem w10_writes : (w10 : List (HloOp τ sig (Elt F))).Forall fun op => op.writes ⊆ (w10_W.map (Proc.devRef (τ := τ) .tc)).toFinset := by
  simp only [List.Forall]; exact ⟨by writes_one, by writes_one, by writes_one, by writes_one, by writes_one, by writes_one, by writes_one, by writes_one, by writes_one⟩
/-- A buffer window 10 does not write keeps its contents through it. -/
theorem val11_keep (V0 : Valuation τ sig (Elt F)) (r : Ref sig .tc) (h : r ∉ w10_W) :
    val11 V0 (Proc.devRef .tc r) = val10 V0 (Proc.devRef .tc r) :=
  after_of_writes_sub w10 _ w10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_v26 (V0 : Valuation τ sig (Elt F)) : val11 V0 (no_index (Proc.devRef .tc main_v26)) = RefTerm.flat (V0 (Proc.devRef .tc main_arg1)) :=
  (val11_keep V0 main_v26 (by decide)).trans (val10_main_v26 V0)
theorem val11_main_v52 (V0 : Valuation τ sig (Elt F)) : val11 V0 (no_index (Proc.devRef .tc main_v52)) = RefTerm.combine (RefTerm.rowcol (V0 (Proc.devRef .tc main_arg1))) (RefTerm.kv (RefTerm.dispatch (RefTerm.rowcol (V0 (Proc.devRef .tc main_arg1))) (RefTerm.mix (V0 (Proc.devRef .tc main_arg0)) (V0 (Proc.devRef .tc main_arg2)) (V0 (Proc.devRef .tc main_arg3)))) (V0 (Proc.devRef .tc main_arg5)) (V0 (Proc.devRef .tc main_arg6))) :=
  (val11_keep V0 main_v52 (by decide)).trans (val10_main_v52 V0)
set_option maxRecDepth 8192 in
theorem val11_main_v70 (V0 : Valuation τ sig (Elt F)) : val11 V0 (no_index (Proc.devRef .tc main_v70)) = RefTerm.rr (RefTerm.dispatch (RefTerm.rowcol (V0 (Proc.devRef .tc main_arg1))) (RefTerm.mix (V0 (Proc.devRef .tc main_arg0)) (V0 (Proc.devRef .tc main_arg2)) (V0 (Proc.devRef .tc main_arg4)))) (V0 (Proc.devRef .tc main_arg7)) := by
  unfold val11
  simp only [w10]
  after_results_simp <;> simp only [val10_main_v63, val10_main_arg7] <;> rfl

/-- The device's contents after the first 12 windows. -/
def val12 (V0 : Valuation τ sig (Elt F)) : Valuation τ sig (Elt F) := after w11 (val11 V0)
/-- The buffers window 11 writes. -/
abbrev w11_W : List (Ref sig .tc) := [main_v71, main_cst_15, main_v72, main_v73, main_c_16, main_v74, main_v75, main_c_17, main_v76, main_v77, main_v78, main_v79, main_v80, main_v81]
theorem w11_writes : (w11 : List (HloOp τ sig (Elt F))).Forall fun op => op.writes ⊆ (w11_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one⟩
/-- A buffer window 11 does not write keeps its contents through it. -/
theorem val12_keep (V0 : Valuation τ sig (Elt F)) (r : Ref sig .tc) (h : r ∉ w11_W) :
    val12 V0 (Proc.devRef .tc r) = val11 V0 (Proc.devRef .tc r) :=
  after_of_writes_sub w11 _ w11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_v52 (V0 : Valuation τ sig (Elt F)) : val12 V0 (no_index (Proc.devRef .tc main_v52)) = RefTerm.combine (RefTerm.rowcol (V0 (Proc.devRef .tc main_arg1))) (RefTerm.kv (RefTerm.dispatch (RefTerm.rowcol (V0 (Proc.devRef .tc main_arg1))) (RefTerm.mix (V0 (Proc.devRef .tc main_arg0)) (V0 (Proc.devRef .tc main_arg2)) (V0 (Proc.devRef .tc main_arg3)))) (V0 (Proc.devRef .tc main_arg5)) (V0 (Proc.devRef .tc main_arg6))) :=
  (val12_keep V0 main_v52 (by decide)).trans (val11_main_v52 V0)
set_option maxRecDepth 8192 in
theorem val12_main_v81 (V0 : Valuation τ sig (Elt F)) : val12 V0 (no_index (Proc.devRef .tc main_v81)) = RefTerm.combine (RefTerm.rowcol (V0 (Proc.devRef .tc main_arg1))) (RefTerm.rr (RefTerm.dispatch (RefTerm.rowcol (V0 (Proc.devRef .tc main_arg1))) (RefTerm.mix (V0 (Proc.devRef .tc main_arg0)) (V0 (Proc.devRef .tc main_arg2)) (V0 (Proc.devRef .tc main_arg4)))) (V0 (Proc.devRef .tc main_arg7))) := by
  unfold val12
  simp only [w11]
  after_results_simp <;> simp only [val11_main_v70, val11_main_v26] <;> rfl

/-- The device's contents after the first 13 windows. -/
def val13 (V0 : Valuation τ sig (Elt F)) : Valuation τ sig (Elt F) := after w12 (val12 V0)
/-- The buffers window 12 writes. -/
abbrev w12_W : List (Ref sig .tc) := [main_v82, main_v83, main_v84]
theorem w12_writes : (w12 : List (HloOp τ sig (Elt F))).Forall fun op => op.writes ⊆ (w12_W.map (Proc.devRef (τ := τ) .tc)).toFinset := by
  simp only [List.Forall]; exact ⟨by writes_one, by writes_one, by writes_one⟩
/-- A buffer window 12 does not write keeps its contents through it. -/
theorem val13_keep (V0 : Valuation τ sig (Elt F)) (r : Ref sig .tc) (h : r ∉ w12_W) :
    val13 V0 (Proc.devRef .tc r) = val12 V0 (Proc.devRef .tc r) :=
  after_of_writes_sub w12 _ w12_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
set_option maxRecDepth 8192 in
theorem val13_main_v82 (V0 : Valuation τ sig (Elt F)) : val13 V0 (no_index (Proc.devRef .tc main_v82)) = RefTerm.out82 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val13
  simp only [w12]
  after_results_simp <;> simp only [val12_main_v81, val12_main_v52] <;> rfl
set_option maxRecDepth 8192 in
theorem val13_main_v84 (V0 : Valuation τ sig (Elt F)) : val13 V0 (no_index (Proc.devRef .tc main_v84)) = RefTerm.out84 (V0 (Proc.devRef .tc main_arg0)) := by
  unfold val13
  simp only [w12]
  after_results_simp <;> simp only [val12_main_arg0] <;> rfl

/-- The whole list run from `V0` is the windows run in turn. -/
theorem after_ops (V0 : Valuation τ sig (Elt F)) : after ops V0 = val13 V0 := by
  show after ((w0 ++ (w1 ++ (w2 ++ (w3 ++ (w4 ++ (w5 ++ (w6 ++ (w7)))))))) ++ (w8 ++ (w9 ++ (w10 ++ (w11 ++ (w12)))))) V0 = _
  simp only [after_app]
  rfl

/-! ## The run -/

/-- On every device, for any float values, from any memory with zero counters: every weakly fair execution of @main
    terminates, the first result holding `RefTerm.out82` of the eight argument arrays as they were at the launch,
    the second `RefTerm.out84` of the first, and every argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = RefTerm.out82 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v84) = RefTerm.out84 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v82).trans (by simp only [after_ops]; exact val13_main_v82 (launchContents m c)),
      (h c main_v84).trans (by simp only [after_ops]; exact val13_main_v84 (launchContents m c)),
      (h c main_arg0).trans (by simp only [after_ops]; exact val13_main_arg0 (launchContents m c)),
      (h c main_arg1).trans (by simp only [after_ops]; exact val13_main_arg1 (launchContents m c)),
      (h c main_arg2).trans (by simp only [after_ops]; exact val13_main_arg2 (launchContents m c)),
      (h c main_arg3).trans (by simp only [after_ops]; exact val13_main_arg3 (launchContents m c)),
      (h c main_arg4).trans (by simp only [after_ops]; exact val13_main_arg4 (launchContents m c)),
      (h c main_arg5).trans (by simp only [after_ops]; exact val13_main_arg5 (launchContents m c)),
      (h c main_arg6).trans (by simp only [after_ops]; exact val13_main_arg6 (launchContents m c)),
      (h c main_arg7).trans (by simp only [after_ops]; exact val13_main_arg7 (launchContents m c))⟩)
    (run_seq scopedRefs_eq scopedSems_eq defs main (fun _ => ops) main_eq (fun _ => ops_sub) m ρ)

end Cert.ReferenceIdeal.RefRun

end
-- ==== Proof.LibBatchDot.lean ====
/-
  A batched matrix product read at an entry. For the dimension numbers of a [B, M, K] by [B, K, N] product with ONE
  batch axis (the leading axis of both operands), the left operand contracted on its last axis and the right on its
  middle axis, the entry (b, p, q) of the product is ∑ₖ l(b, p, k) · r(b, k, q) over k : Fin K — the host's dot_general
  at the ideal values, whatever its precision and schedule key. General in the four extents and in the operands'
  formats; a printed record of these dimension numbers is `batchDims B M K N wf` for its own proof `wf`, by `rfl`.

  The operand indices: at result index (b, p, q) and contraction coordinate k the left operand is read at (b, p, k) —
  its batch axis reads the result's first coordinate, its non-contracting axis the second, its contracting axis the
  contraction coordinate — and the right operand at (b, k, q) — its batch axis reads the result's first coordinate,
  its contracting axis the contraction coordinate, its non-contracting axis the result's third coordinate.
-/
import Idealize.ShloMosaic.PureOps.Ideal.Laws
import Idealize.ShloMosaic.Lib.ValueIdx

namespace Idealize.ShloMosaic.ValueIdx

/-- The dimension numbers of a product with one batch axis: operands `[B, M, K]` and `[B, K, N]`, result `[B, M, N]`. -/
abbrev batchDims (B M K N : ℕ)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

section
variable {B M K N : ℕ} (wf : DotDims.WF ⟨3, ![B, M, K]⟩ ⟨3, ![B, K, N]⟩ ⟨3, ![B, M, N]⟩ [2] [1] [1] [2] [0] [0])

/-- The left operand's batch coordinate is the result's, whatever the contraction index. -/
theorem batch_lhs_batch (j : (⟨3, ![B, M, N]⟩ : Shape).Idx) (c : (batchDims B M K N wf).contr.Idx) :
    ((batchDims B M K N wf).lhsIdx j c 0).val = (j 0).val := by
  unfold DotDims.lhsIdx
  rw [dif_pos (show (0 : Fin 3) ∈ (batchDims B M K N wf).lhsBatch from List.mem_singleton.mpr rfl)]
  rfl

/-- The left operand's row is the result's second coordinate, whatever the contraction index. -/
theorem batch_lhs_row (j : (⟨3, ![B, M, N]⟩ : Shape).Idx) (c : (batchDims B M K N wf).contr.Idx) :
    ((batchDims B M K N wf).lhsIdx j c 1).val = (j 1).val := by
  unfold DotDims.lhsIdx
  rw [dif_neg (show ¬(1 : Fin 3) ∈ (batchDims B M K N wf).lhsBatch from
      fun h => absurd (List.mem_singleton.mp h) (by decide : ¬ (1 : Fin 3) = 0)),
    dif_pos (show (1 : Fin 3) ∈ (batchDims B M K N wf).lhsNonContracting from List.mem_singleton.mpr rfl)]
  rfl

/-- The right operand's batch coordinate is the result's, whatever the contraction index. -/
theorem batch_rhs_batch (j : (⟨3, ![B, M, N]⟩ : Shape).Idx) (c : (batchDims B M K N wf).contr.Idx) :
    ((batchDims B M K N wf).rhsIdx j c 0).val = (j 0).val := by
  unfold DotDims.rhsIdx
  rw [dif_pos (show (0 : Fin 3) ∈ (batchDims B M K N wf).rhsBatch from List.mem_singleton.mpr rfl)]
  rfl

/-- The right operand's column is the result's third coordinate, whatever the contraction index. -/
theorem batch_rhs_col (j : (⟨3, ![B, M, N]⟩ : Shape).Idx) (c : (batchDims B M K N wf).contr.Idx) :
    ((batchDims B M K N wf).rhsIdx j c 2).val = (j 2).val := by
  unfold DotDims.rhsIdx
  rw [dif_neg (show ¬(2 : Fin 3) ∈ (batchDims B M K N wf).rhsBatch from
      fun h => absurd (List.mem_singleton.mp h) (by decide : ¬ (2 : Fin 3) = 0)),
    dif_pos (show (2 : Fin 3) ∈ (batchDims B M K N wf).rhsNonContracting from List.mem_singleton.mpr rfl)]
  rfl

/-- The left operand's index at result (b, p, q) and contraction coordinate k is (b, p, k). -/
theorem batch_lhsIdx (b : Fin B) (p : Fin M) (q : Fin N) (k : Fin K) :
    (batchDims B M K N wf).lhsIdx (ix3 b p q) ((contrEquiv1 (batchDims B M K N wf) K rfl rfl).symm k) = ix3 b p k := by
  have hk := contrEquiv1_symm_val (batchDims B M K N wf) K rfl rfl k
  funext a; apply Fin.ext
  match a with
  | ⟨0, _⟩ => exact batch_lhs_batch wf (ix3 b p q) _
  | ⟨1, _⟩ => exact batch_lhs_row wf (ix3 b p q) _
  | ⟨2, _⟩ => exact ((batchDims B M K N wf).lhsIdx_val_of_single (cl := (2 : Fin 3)) rfl (ix3 b p q) _).trans hk

/-- The right operand's index at result (b, p, q) and contraction coordinate k is (b, k, q). -/
theorem batch_rhsIdx (b : Fin B) (p : Fin M) (q : Fin N) (k : Fin K) :
    (batchDims B M K N wf).rhsIdx (ix3 b p q) ((contrEquiv1 (batchDims B M K N wf) K rfl rfl).symm k) = ix3 b k q := by
  have hk := contrEquiv1_symm_val (batchDims B M K N wf) K rfl rfl k
  funext a; apply Fin.ext
  match a with
  | ⟨0, _⟩ => exact batch_rhs_batch wf (ix3 b p q) _
  | ⟨1, _⟩ => exact ((batchDims B M K N wf).rhsIdx_val_of_single (cr := (1 : Fin 3)) rfl (ix3 b p q) _).trans hk
  | ⟨2, _⟩ => exact batch_rhs_col wf (ix3 b p q) _

/-- The product's sum over the contraction index, re-indexed by the contracted coordinate. -/
theorem sum_batch (l : (⟨3, ![B, M, K]⟩ : Shape).Idx → EReal) (r : (⟨3, ![B, K, N]⟩ : Shape).Idx → EReal)
    (b : Fin B) (p : Fin M) (q : Fin N) :
    ∑ k : (batchDims B M K N wf).contr.Idx,
        l ((batchDims B M K N wf).lhsIdx (ix3 b p q) k) * r ((batchDims B M K N wf).rhsIdx (ix3 b p q) k)
      = ∑ k : Fin K, l (ix3 b p k) * r (ix3 b k q) := by
  rw [← Equiv.sum_comp (contrEquiv1 (batchDims B M K N wf) K rfl rfl).symm]
  exact Finset.sum_congr rfl fun k _ => by rw [batch_lhsIdx, batch_rhsIdx]

/-- THE BATCHED PRODUCT READ AT `(b, p, q)`: the host's dot_general of these dimension numbers, at any precision and
    schedule key. -/
theorem dotGeneral_batch_apply {φ₁ φ₂ : FTy} (prec : Option ContractPrecision) (sched : HostSchedule)
    (lhs : FVec Ideal ⟨3, ![B, M, K]⟩ φ₁) (rhs : FVec Ideal ⟨3, ![B, K, N]⟩ φ₂) (b : Fin B) (p : Fin M) (q : Fin N) :
    FloatOps.dotGeneral (batchDims B M K N wf) prec sched lhs rhs (ix3 b p q)
      = ∑ k : Fin K, lhs (ix3 b p k) * rhs (ix3 b k q) :=
  (Ideal.dotGeneral_apply _ prec sched lhs rhs (ix3 b p q)).trans (sum_batch wf lhs rhs b p q)

/-- The same in the form a host program states it: `Host.dotGeneral`, the product at the one-device schedule key. -/
theorem hostDotGeneral_batch_apply {φ₁ φ₂ : FTy} (prec : Option ContractPrecision)
    (lhs : FVec Ideal ⟨3, ![B, M, K]⟩ φ₁) (rhs : FVec Ideal ⟨3, ![B, K, N]⟩ φ₂) (b : Fin B) (p : Fin M) (q : Fin N) :
    Host.dotGeneral (batchDims B M K N wf) prec lhs rhs (ix3 b p q)
      = ∑ k : Fin K, lhs (ix3 b p k) * rhs (ix3 b k q) :=
  dotGeneral_batch_apply wf prec .single lhs rhs b p q

end

end Idealize.ShloMosaic.ValueIdx
-- ==== Proof.RefValue.lean ====
/-
  The reference program's first result, read at an index.

  The result at batch `b`, time `t'` and column `n` belongs to token `b · 2048 + t'`. The token is combined from
  the slot row its row number is clamped into; that slot row was filled, at dispatch, by the LAST token whose row
  number is that row (an overwriting scatter), or holds zeros; the slot row belongs to the expert `row / 2048`, which
  turns the slot's key row and receptance row into the key-value output times the gate. The appended row 16384
  holds zeros, and so does the product read from it.

  Every stage is read at an index over ARBITRARY arrays: the column of rows `g`, the mixed activations and the
  dispatched slots are variables, so that nothing of the program's integer chain or of its mixing is ever unfolded.
  The stages: a reshape keeps row-major positions (row `a · 2048 + b` of 16384 is `(a, b)` of `[8, 2048]`); the gather
  of rows reads the clamped row; the concatenation with the appended row reads the slot rows below 16384 and the
  zero row at 16384; the slice of the first 16384 rows and the scatter into zeros give the filler's row; the three
  batched products are sums over the contracted axis.
-/
import proofs.«113595_j78640851189970_2_alg».proof.Proof.RefTerm
import proofs.«113595_j78640851189970_2_alg».proof.Proof.SpecScatter
import proofs.«113595_j78640851189970_2_alg».proof.Proof.LibBatchDot
import proofs.«113595_j78640851189970_2_alg».proof.Proof.LibReshapeRows
import proofs.«113595_j78640851189970_2_alg».proof.Proof.LibRowGatherScatter
import Idealize.ShloMosaic.Lib.Pipeline.Value
import Idealize.ShloMosaic.Lib.ValueLayout
import Idealize.ShloMosaic.Lib.ValueIdx
import Idealize.ShloMosaic.Lib.IdealHost

noncomputable section

namespace Cert.ReferenceIdeal.RefValue

open Cert.ReferenceIdeal Idealize.ShloMosaic Idealize.ShloMosaic.ValueIdx RowOps Cert.Spec

variable [Facts]
open Facts₀ Facts

/-- token number of (batch b, time t') -/
abbrev tokenOf (b : Fin 8) (t' : Fin 2048) : Fin 16384 := ⟨b.val * 2048 + t'.val, by omega⟩

/-- The expert a slot row below 16384 belongs to. -/
abbrev expertOf (s : Fin 16385) (h : s.val < 16384) : Fin 8 := ⟨s.val / 2048, by omega⟩

/-- The place of a slot row within its expert. -/
abbrev placeOf (s : Fin 16385) : Fin 2048 := ⟨s.val % 2048, Nat.mod_lt _ (by norm_num)⟩

/-! ## Constants -/

/-- A scalar constant broadcast to any shape reads its value everywhere. -/
theorem bcast_const_apply {T : Shape} (h : S_.BroadcastsInDim T ![]) (c : BitVec 32) (j : T.Idx) :
    broadcastInDim T ![] h (constant (F := Ideal) S_ .f32 c) j = Ideal.ofBits .f32 c :=
  broadcastInDim_scalar_apply h _ j

/-! ## The experts -/

/-- The hidden activation before squaring, at slot `(e, p)` and hidden unit `f`: the positive part of the slot's row
    times column `f` of the expert's key matrix. -/
theorem hidden_apply (d : FVec Ideal S8x2048x1024 .f32) (Wk : FVec Ideal S8x1024x2048 .f32)
    (e : Fin 8) (p : Fin 2048) (f : Fin 2048) :
    RefTerm.hidden d Wk (ix3 e p f)
      = max (∑ k : Fin 1024, d (ix3 e p k) * Wk (ix3 e k f)) (Ideal.ofBits .f32 0x00000000#32) := by
  unfold RefTerm.hidden
  rw [maximumf_apply, bcast_const_apply]
  congr 1
  exact hostDotGeneral_batch_apply (B := 8) (M := 2048) (K := 1024) (N := 2048)
    dot_S8x2048x1024_S8x1024x2048_S8x2048x2048_2_1_1_2_0_0_wf none d Wk e p f

/-- THE KEY-VALUE OUTPUT at slot `(e, p)` and column `n`. -/
theorem kv_apply (d : FVec Ideal S8x2048x1024 .f32) (Wk : FVec Ideal S8x1024x2048 .f32)
    (Wv : FVec Ideal S8x2048x1024 .f32) (e : Fin 8) (p : Fin 2048) (n : Fin 1024) :
    RefTerm.kv d Wk Wv (ix3 e p n)
      = kvOut (fun k => d (ix3 e p k)) (fun k f => Wk (ix3 e k f)) (fun f n' => Wv (ix3 e f n')) n := by
  unfold RefTerm.kv kvOut
  refine (hostDotGeneral_batch_apply (B := 8) (M := 2048) (K := 2048) (N := 1024)
    dot_S8x2048x2048_S8x2048x1024_S8x2048x1024_2_1_1_2_0_0_wf none _ Wv e p n).trans ?_
  refine Finset.sum_congr rfl fun f _ => ?_
  rw [mulf_apply, hidden_apply]
  rfl

/-- THE GATE at slot `(e, p)` and column `n`. -/
theorem rr_apply (d : FVec Ideal S8x2048x1024 .f32) (Wr : FVec Ideal S8x1024x1024 .f32)
    (e : Fin 8) (p : Fin 2048) (n : Fin 1024) :
    RefTerm.rr d Wr (ix3 e p n) = gate (fun k => d (ix3 e p k)) (fun k n' => Wr (ix3 e k n')) n := by
  have h1 : broadcastInDim S8x2048x1024 ![] bcast_S_S8x2048x1024 (constant (F := Ideal) S_ .f32 0x3F800000#32) (ix3 e p n)
      = 1 := (bcast_const_apply _ _ _).trans one_f32
  have h2 : Host.dotGeneral dot_S8x2048x1024_S8x1024x1024_S8x2048x1024_2_1_1_2_0_0 none d Wr (ix3 e p n)
      = ∑ k : Fin 1024, d (ix3 e p k) * Wr (ix3 e k n) :=
    hostDotGeneral_batch_apply (B := 8) (M := 2048) (K := 1024) (N := 1024)
      dot_S8x2048x1024_S8x1024x1024_S8x2048x1024_2_1_1_2_0_0_wf none d Wr e p n
  unfold RefTerm.rr gate Ideal.logistic
  show Ideal.div
      (broadcastInDim S8x2048x1024 ![] bcast_S_S8x2048x1024 (constant (F := Ideal) S_ .f32 0x3F800000#32) (ix3 e p n))
      (broadcastInDim S8x2048x1024 ![] bcast_S_S8x2048x1024 (constant (F := Ideal) S_ .f32 0x3F800000#32) (ix3 e p n)
        + Ideal.exp (-(Host.dotGeneral dot_S8x2048x1024_S8x1024x1024_S8x2048x1024_2_1_1_2_0_0 none d Wr (ix3 e p n))))
    = Ideal.div 1 (1 + Ideal.exp (-(∑ k : Fin 1024, d (ix3 e p k) * Wr (ix3 e k n))))
  rw [h1, h2]

/-! ## Combine: the gather of slot rows, with the row of zeros appended -/

/-- The 16384 slot rows of `y` with the row of zeros appended, read at row `s`: below 16384 the slot row itself —
    row `s` of 16384 is place `s % 2048` of expert `s / 2048` —, at 16384 the zero pattern. -/
theorem appended_apply (y : FVec Ideal S8x2048x1024 .f32) (s : Fin 16385) (n : Fin 1024) :
    concatenate S16385x1024 (0 : Fin S16385x1024.rank)
        [⟨S16384x1024, shapeCast S16384x1024 y shapeCasts_S8x2048x1024_S16384x1024⟩,
         ⟨S1x1024, broadcastInDim S1x1024 ![] bcast_S_S1x1024 (constant (F := Ideal) S_ .f32 0x00000000#32)⟩]
        concatenates_S16384x1024_S1x1024_S16385x1024_d0 (ix2 s n)
      = if h : s.val < 16384 then y (ix3 (expertOf s h) (placeOf s) n) else Ideal.ofBits .f32 0x00000000#32 := by
  split
  · rename_i h
    refine (concatenate_pair_apply_left (0 : Fin S16385x1024.rank) _ _
      concatenates_S16384x1024_S1x1024_S16385x1024_d0 (ix2 s n) rfl (ix2 (⟨s.val, h⟩ : Fin 16384) n)
      (fun b => ?_)).trans ?_
    · match b with
      | ⟨0, _⟩ => rfl
      | ⟨1, _⟩ => rfl
    · exact shapeCast_abc_rc_apply (A := 8) (B := 2048) (C := 1024) (R := 16384) (by norm_num) (by norm_num) y
        shapeCasts_S8x2048x1024_S16384x1024 ⟨s.val, h⟩ n
  · rename_i h
    refine (concatenate_pair_apply_right (0 : Fin S16385x1024.rank) _ _
      concatenates_S16384x1024_S1x1024_S16385x1024_d0 (ix2 s n) rfl rfl (ix2 (0 : Fin 1) n)
      (fun b hb => ?_) ?_).trans ?_
    · match b with
      | ⟨0, _⟩ => exact absurd rfl hb
      | ⟨1, _⟩ => rfl
    · show 0 + 16384 = s.val
      have := s.isLt
      omega
    · exact bcast_const_apply _ _ _

/-- THE COMBINE at `(b, t', n)`: token `b · 2048 + t'` reads the row its row number is clamped into; below 16384 that
    is a slot row of `y`, and row 16384 is the appended row of zeros. -/
theorem combine_apply (g : IVec S16384x1 32) (y : FVec Ideal S8x2048x1024 .f32) (b : Fin 8) (t' : Fin 2048)
    (n : Fin 1024) :
    RefTerm.combine g y (ix3 b t' n)
      = if h : (readRow g (tokenOf b t')).val < 16384 then
          y (ix3 (expertOf (readRow g (tokenOf b t')) h) (placeOf (readRow g (tokenOf b t'))) n)
        else Ideal.ofBits .f32 0x00000000#32 := by
  unfold RefTerm.combine
  refine (shapeCast_rc_abc_apply (A := 8) (B := 2048) (C := 1024) (R := 16384) (by norm_num) _
    shapeCasts_S16384x1024_S8x2048x1024 b t' n).trans ?_
  refine (gather_rows_apply (N := 16385) (R := 16384) (C := 1024) (by norm_num)
    gather_S16385x1024_S16384x1_S16384x1024_1_0_n_n_0_1_11024_wf _ g (tokenOf b t') n).trans ?_
  exact appended_apply y (readRow g (tokenOf b t')) n

/-! ## Dispatch: the scatter of token rows into zeros -/

/-- An `[8, 2048, 1024]` array as 16384 token rows: token `t` is time `t % 2048` of batch `t / 2048`. -/
abbrev rowsOf (X : FVec Ideal S8x2048x1024 .f32) : Fin 16384 → Fin 1024 → EReal :=
  fun t k => X (ix3 (⟨t.val / 2048, by omega⟩ : Fin 8) (⟨t.val % 2048, Nat.mod_lt _ (by norm_num)⟩ : Fin 2048) k)

/-- THE DISPATCH at slot `(e, p)` and column `k`: slot row `e · 2048 + p` holds the row of the last token whose row
    number it is, or zeros. -/
theorem dispatch_apply (g : IVec S16384x1 32) (xm : FVec Ideal S8x2048x1024 .f32) (e : Fin 8) (p : Fin 2048)
    (k : Fin 1024) :
    RefTerm.dispatch g xm (ix3 e p k) = slotRow g (rowsOf xm) (⟨e.val * 2048 + p.val, by omega⟩ : Fin 16385) k := by
  unfold RefTerm.dispatch
  refine (shapeCast_rc_abc_apply (A := 8) (B := 2048) (C := 1024) (R := 16384) (by norm_num) _
    shapeCasts_S16384x1024_S8x2048x1024 e p k).trans ?_
  refine (slice2_axis0_apply (n0 := 16385) (n1 := 1024) (m := 16384) 0 _ slices_S16385x1024_S16384x1024_0_0 _ k
    (⟨e.val * 2048 + p.val, by omega⟩ : Fin 16385) (Nat.zero_add _).symm).trans ?_
  have hop : broadcastInDim S16385x1024 ![] bcast_S_S16385x1024 (constant (F := Ideal) S_ .f32 0x00000000#32)
      = fun _ => Ideal.ofBits .f32 0x00000000#32 := funext fun j => bcast_const_apply _ _ j
  rw [hop]
  refine (scatter_rows_slotRow scatter_S16385x1024_S16384x1_S16384x1024_1_0_0_1_wf g _ _ Ideal.ofBits_zero_f32
    _ k).trans ?_
  refine congrArg (fun X => slotRow g X (⟨e.val * 2048 + p.val, by omega⟩ : Fin 16385) k)
    (funext fun t => funext fun k' => ?_)
  exact shapeCast_abc_rc_apply (A := 8) (B := 2048) (C := 1024) (R := 16384) (by norm_num) (by norm_num) xm
    shapeCasts_S8x2048x1024_S16384x1024 t k'

/-- The dispatched row of a slot row `s` below 16384, read back through its expert and place, is the slot row: as
    `s / 2048 * 2048 + s % 2048 = s`. -/
theorem dispatch_row (g : IVec S16384x1 32) (X : FVec Ideal S8x2048x1024 .f32) (s : Fin 16385) (h : s.val < 16384) :
    (fun k => RefTerm.dispatch g X (ix3 (expertOf s h) (placeOf s) k)) = slotRow g (rowsOf X) s :=
  funext fun k => (dispatch_apply g X (expertOf s h) (placeOf s) k).trans
    (congrArg (fun r : Fin 16385 => slotRow g (rowsOf X) r k) (Fin.ext (Nat.div_add_mod' s.val 2048)))

/-! ## The first result -/

/-- The first result over ARBITRARY arrays: a column of rows `g`, the two mixed activations, the experts' matrices. -/
theorem out82_core (g : IVec S16384x1 32) (XK XR : FVec Ideal S8x2048x1024 .f32) (Wk : FVec Ideal S8x1024x2048 .f32)
    (Wv : FVec Ideal S8x2048x1024 .f32) (Wr : FVec Ideal S8x1024x1024 .f32) (b : Fin 8) (t' : Fin 2048)
    (n : Fin 1024) :
    mulf (RefTerm.combine g (RefTerm.rr (RefTerm.dispatch g XR) Wr))
        (RefTerm.combine g (RefTerm.kv (RefTerm.dispatch g XK) Wk Wv)) (ix3 b t' n)
      = tokenOut g (rowsOf XK) (rowsOf XR) (fun e k f => Wk (ix3 e k f)) (fun e f n' => Wv (ix3 e f n'))
          (fun e k n' => Wr (ix3 e k n')) (tokenOf b t') n := by
  rw [mulf_apply, combine_apply, combine_apply]
  unfold tokenOut
  by_cases h : (readRow g (tokenOf b t')).val < 16384
  · have hR : RefTerm.rr (RefTerm.dispatch g XR) Wr
          (ix3 (expertOf (readRow g (tokenOf b t')) h) (placeOf (readRow g (tokenOf b t'))) n)
        = gate (slotRow g (rowsOf XR) (readRow g (tokenOf b t')))
            (fun k n' => Wr (ix3 (expertOf (readRow g (tokenOf b t')) h) k n')) n := by
      rw [rr_apply, dispatch_row]
    have hK : RefTerm.kv (RefTerm.dispatch g XK) Wk Wv
          (ix3 (expertOf (readRow g (tokenOf b t')) h) (placeOf (readRow g (tokenOf b t'))) n)
        = kvOut (slotRow g (rowsOf XK) (readRow g (tokenOf b t')))
            (fun k f => Wk (ix3 (expertOf (readRow g (tokenOf b t')) h) k f))
            (fun f n' => Wv (ix3 (expertOf (readRow g (tokenOf b t')) h) f n')) n := by
      rw [kv_apply, dispatch_row]
    rw [dif_pos h, dif_pos h, dif_pos h, hR, hK]
    unfold slotOut
    exact mul_comm _ _
  · rw [dif_neg h, dif_neg h, dif_neg h, Ideal.ofBits_zero_f32, mul_zero]

/-- THE FIRST RESULT at batch `b`, time `t'` and column `n`: the output of the slot that token `b · 2048 + t'` is
    combined from, through the expert that owns the slot; zero from the appended row. -/
theorem out82_apply (x : FVec Ideal S8x2048x1024 .f32) (tok : IVec S8x2048 32) (ss : FVec Ideal S8x1024 .f32)
    (mk mr : FVec Ideal S1x1x1024 .f32) (Wk : FVec Ideal S8x1024x2048 .f32) (Wv : FVec Ideal S8x2048x1024 .f32)
    (Wr : FVec Ideal S8x1024x1024 .f32) (b : Fin 8) (t' : Fin 2048) (n : Fin 1024) :
    RefTerm.out82 (F := Ideal) x tok ss mk mr Wk Wv Wr (ix3 b t' n)
      = Cert.Spec.tokenOut (RefTerm.rowcol tok)
          (fun t k => RefTerm.mix (F := Ideal) x ss mk (ix3 (⟨t.val / 2048, by omega⟩ : Fin 8) (⟨t.val % 2048, Nat.mod_lt _ (by norm_num)⟩ : Fin 2048) k))
          (fun t k => RefTerm.mix (F := Ideal) x ss mr (ix3 (⟨t.val / 2048, by omega⟩ : Fin 8) (⟨t.val % 2048, Nat.mod_lt _ (by norm_num)⟩ : Fin 2048) k))
          (fun e k f => Wk (ix3 e k f)) (fun e f n' => Wv (ix3 e f n')) (fun e k n' => Wr (ix3 e k n'))
          (tokenOf b t') n := by
  unfold RefTerm.out82
  exact out82_core (RefTerm.rowcol tok) (RefTerm.mix x ss mk) (RefTerm.mix x ss mr) Wk Wv Wr b t' n

end Cert.ReferenceIdeal.RefValue

end
-- ==== Proof.Bridge.lean ====
/-
  The two programs' shared stages are the same functions.

  The kernel program and the reference program both start with the same host-side operations: the token-shift
  mixing of the activations, and the integer chain from the token ids to a row number for every token (the expert
  of a token, its place among the tokens of that expert, the row `expert · 2048 + place` or the extra row 16384,
  and the wrap of a negative row). Each program states these over its own copy of the shapes and of the side
  conditions; the shapes are the same literals and the side conditions are propositions, so stage by stage the two
  definitions are the same term. The kernel's mixing ends with a change of number format, which is the identity on
  the extended reals. Nothing is computed: each stage is compared with its twin after the stages below it have been
  replaced by the reference's.
-/
import proofs.«113595_j78640851189970_2_alg».proof.Proof.KerTerm
import proofs.«113595_j78640851189970_2_alg».proof.Proof.RefTerm
import Idealize.ShloMosaic.PureOps.Ideal

noncomputable section

namespace Cert.Bridge

open Idealize.ShloMosaic

variable [Cert.KernelIdeal.Facts] [Cert.ReferenceIdeal.Facts]

/-! ## Routing: from the token ids to a row for every token -/

/-- The divisor is the same scalar. -/
theorem modulus_eq : Cert.KernelIdeal.KerTerm.modulus = Cert.ReferenceIdeal.RefTerm.modulus := rfl

/-- The truncated remainder is the same. -/
theorem trem_eq (t : IVec ⟨1, ![16384]⟩ 32) : Cert.KernelIdeal.KerTerm.trem t = Cert.ReferenceIdeal.RefTerm.trem t := by
  unfold Cert.KernelIdeal.KerTerm.trem Cert.ReferenceIdeal.RefTerm.trem
  rw [modulus_eq] <;> rfl

/-- The remainder with the divisor's sign is the same. -/
theorem pmod_eq (t : IVec ⟨1, ![16384]⟩ 32) : Cert.KernelIdeal.KerTerm.pmod t = Cert.ReferenceIdeal.RefTerm.pmod t := by
  unfold Cert.KernelIdeal.KerTerm.pmod Cert.ReferenceIdeal.RefTerm.pmod
  rw [trem_eq, modulus_eq] <;> rfl

/-- The expert of every token is the same. -/
theorem expert_eq (tok : IVec ⟨2, ![8, 2048]⟩ 32) : Cert.KernelIdeal.KerTerm.expert tok = Cert.ReferenceIdeal.RefTerm.expert tok := by
  unfold Cert.KernelIdeal.KerTerm.expert Cert.ReferenceIdeal.RefTerm.expert
  rw [pmod_eq] <;> rfl

/-- The running count of tokens per expert is the same. -/
theorem position_eq (e : IVec ⟨1, ![16384]⟩ 32) : Cert.KernelIdeal.KerTerm.position e = Cert.ReferenceIdeal.RefTerm.position e := by
  unfold Cert.KernelIdeal.KerTerm.position Cert.ReferenceIdeal.RefTerm.position
  rfl

/-- The column to read in each row is the same. -/
theorem takeIdx_eq (e1 : IVec ⟨2, ![16384, 1]⟩ 32) : Cert.KernelIdeal.KerTerm.takeIdx e1 = Cert.ReferenceIdeal.RefTerm.takeIdx e1 := by
  unfold Cert.KernelIdeal.KerTerm.takeIdx Cert.ReferenceIdeal.RefTerm.takeIdx
  rfl

/-- The two programs' records of the lookup's dimension numbers have the same fields. -/
theorem takeRecord_eq :
    Cert.KernelIdeal.gather_S16384x8_S16384x1x1_S16384x1_n_1_0_0_1_2_11
      = Cert.ReferenceIdeal.gather_S16384x8_S16384x1x1_S16384x1_n_1_0_0_1_2_11 := rfl

/-- The lookup of each row's entry is the same. -/
theorem takeAt_eq (p : IVec ⟨2, ![16384, 8]⟩ 32) (e1 : IVec ⟨2, ![16384, 1]⟩ 32) : Cert.KernelIdeal.KerTerm.takeAt p e1 = Cert.ReferenceIdeal.RefTerm.takeAt p e1 := by
  unfold Cert.KernelIdeal.KerTerm.takeAt Cert.ReferenceIdeal.RefTerm.takeAt
  rw [takeIdx_eq, takeRecord_eq] <;> rfl

/-- The place of every token within its expert is the same. -/
theorem slot_eq (e : IVec ⟨1, ![16384]⟩ 32) : Cert.KernelIdeal.KerTerm.slot e = Cert.ReferenceIdeal.RefTerm.slot e := by
  unfold Cert.KernelIdeal.KerTerm.slot Cert.ReferenceIdeal.RefTerm.slot
  rw [position_eq, takeAt_eq] <;> rfl

/-- The row from the expert and the place is the same. -/
theorem flatOf_eq (e s : IVec ⟨1, ![16384]⟩ 32) : Cert.KernelIdeal.KerTerm.flatOf e s = Cert.ReferenceIdeal.RefTerm.flatOf e s := by
  unfold Cert.KernelIdeal.KerTerm.flatOf Cert.ReferenceIdeal.RefTerm.flatOf
  rfl

/-- The row of every token is the same. -/
theorem flat_eq (tok : IVec ⟨2, ![8, 2048]⟩ 32) : Cert.KernelIdeal.KerTerm.flat tok = Cert.ReferenceIdeal.RefTerm.flat tok := by
  unfold Cert.KernelIdeal.KerTerm.flat Cert.ReferenceIdeal.RefTerm.flat
  rw [expert_eq, slot_eq, flatOf_eq] <;> rfl

/-- The wrap of a negative row, and the rows as a column, are the same. -/
theorem wrapcol_eq (f : IVec ⟨1, ![16384]⟩ 32) : Cert.KernelIdeal.KerTerm.wrapcol f = Cert.ReferenceIdeal.RefTerm.wrapcol f := by
  unfold Cert.KernelIdeal.KerTerm.wrapcol Cert.ReferenceIdeal.RefTerm.wrapcol
  rfl

/-- Both programs compute the same column of rows from the token ids. -/
theorem rowcol_eq (tok : IVec ⟨2, ![8, 2048]⟩ 32) : Cert.KernelIdeal.KerTerm.rowcol tok = Cert.ReferenceIdeal.RefTerm.rowcol tok := by
  unfold Cert.KernelIdeal.KerTerm.rowcol Cert.ReferenceIdeal.RefTerm.rowcol
  rw [flat_eq, wrapcol_eq] <;> rfl

/-! ## Token shift and mixing -/

/-- The previous row minus the row itself is the same. -/
theorem dx_eq (x : FVec Ideal ⟨3, ![8, 2048, 1024]⟩ .f32) (ss : FVec Ideal ⟨2, ![8, 1024]⟩ .f32) :
    Cert.KernelIdeal.KerTerm.dx (F := Ideal) x ss = Cert.ReferenceIdeal.RefTerm.dx (F := Ideal) x ss := by
  unfold Cert.KernelIdeal.KerTerm.dx Cert.ReferenceIdeal.RefTerm.dx
  rfl

/-- Both programs mix the same way; the kernel's change of format is the identity on the extended reals. -/
theorem mix_eq (x : FVec Ideal ⟨3, ![8, 2048, 1024]⟩ .f32) (ss : FVec Ideal ⟨2, ![8, 1024]⟩ .f32)
    (maa : FVec Ideal ⟨3, ![1, 1, 1024]⟩ .f32) :
    (Cert.KernelIdeal.KerTerm.mix (F := Ideal) x ss maa : (⟨3, ![8, 2048, 1024]⟩ : Shape).Idx → EReal) = Cert.ReferenceIdeal.RefTerm.mix (F := Ideal) x ss maa := by
  unfold Cert.KernelIdeal.KerTerm.mix Cert.ReferenceIdeal.RefTerm.mix
  rw [dx_eq] <;> rfl

/-! ## The second result -/

/-- Both programs' second result is the same function of x. -/
theorem out68_eq (x : FVec Ideal ⟨3, ![8, 2048, 1024]⟩ .f32) : Cert.KernelIdeal.KerTerm.out68 (F := Ideal) x = Cert.ReferenceIdeal.RefTerm.out84 (F := Ideal) x := by
  unfold Cert.KernelIdeal.KerTerm.out68 Cert.ReferenceIdeal.RefTerm.out84
  rfl

end Cert.Bridge

end
-- ==== Proof.lean ====
/-
  The certificate: a hash-routed mixture of experts (RWKV channel mixing) computed by a kernel against its plain
  reference, equal on the extended reals.

  Both programs mix each token with its predecessor, give every token a row (its expert's slot, or the extra row
  16384 when the expert is full) by the same integer operations on the token ids, run the experts on the dispatched
  rows, and read every token's result back from its row. They differ in how a slot gets its token — the reference
  overwrites a zero array at the tokens' rows; the kernel inverts the routing (a scatter of token numbers) and looks
  the rows up — and in where the product of the key-value output and the gate is taken (before the lookup in the
  kernel, after it in the reference). An overwriting scatter keeps the last update at each place, so both ways fill a
  slot with the same token (the last one sent there) or with zeros; the lookup commutes with the entrywise product;
  the experts' sums are the same sums; the logistic function is 1 / (1 + exp(−·)) on every extended real; and the
  changes of float format are the identity. No property of the routing (in range, injective) and no finiteness of the
  inputs is used: the two results are the same function of the arguments.
-/
import proofs.«113595_j78640851189970_2_alg».proof.Defs
import proofs.«113595_j78640851189970_2_alg».proof.Proof.Gen.Kernel
import proofs.«113595_j78640851189970_2_alg».proof.Proof.Gen.Kernel.Frame
import proofs.«113595_j78640851189970_2_alg».proof.Proof.Gen.KernelIdeal
import proofs.«113595_j78640851189970_2_alg».proof.Proof.Gen.KernelIdeal.Frame
import proofs.«113595_j78640851189970_2_alg».proof.Proof.Gen.ReferenceIdeal
import proofs.«113595_j78640851189970_2_alg».proof.Proof.Gen.Pre_finite_inputs
import proofs.«113595_j78640851189970_2_alg».proof.Proof.KerRun
import proofs.«113595_j78640851189970_2_alg».proof.Proof.KerValue
import proofs.«113595_j78640851189970_2_alg».proof.Proof.RefRun
import proofs.«113595_j78640851189970_2_alg».proof.Proof.RefValue
import proofs.«113595_j78640851189970_2_alg».proof.Proof.Bridge
import Idealize.ShloMosaic.Adequacy
import Idealize.ShloMosaic.Init

noncomputable section

namespace Cert.Proof

open Idealize.ShloMosaic Idealize.ShloMosaic.ValueIdx Idealize.SL.Sem

/-- The two first results are one function of the arguments: at every token and column both are the specification's
    result, read through the same column of rows, the same mixes and the same matrices. -/
theorem result_eq (x : FVec Ideal ⟨3, ![8, 2048, 1024]⟩ .f32) (tok : IVec ⟨2, ![8, 2048]⟩ 32)
    (ss : FVec Ideal ⟨2, ![8, 1024]⟩ .f32) (mk mr : FVec Ideal ⟨3, ![1, 1, 1024]⟩ .f32)
    (Wk : FVec Ideal ⟨3, ![8, 1024, 2048]⟩ .f32) (Wv : FVec Ideal ⟨3, ![8, 2048, 1024]⟩ .f32)
    (Wr : FVec Ideal ⟨3, ![8, 1024, 1024]⟩ .f32) :
    Cert.ReferenceIdeal.RefTerm.out82 (F := Ideal) x tok ss mk mr Wk Wv Wr
      = Cert.KernelIdeal.Run.out66 x tok ss mk mr Wk Wv Wr := by
  funext i
  obtain ⟨b, t', n, rfl⟩ : ∃ (b : Fin 8) (t' : Fin 2048) (n : Fin 1024), i = ix3 b t' n := ⟨i 0, i 1, i 2, eq_ix3 i⟩
  refine (Cert.ReferenceIdeal.RefValue.out82_apply x tok ss mk mr Wk Wv Wr b t' n).trans ?_
  unfold Cert.KernelIdeal.Run.out66 Cert.KernelIdeal.KerTerm.operand0
  refine Eq.trans ?_ (Cert.KernelIdeal.Value.kernel_out_apply _ _ _ _ _ _ b t' n).symm
  rw [Cert.Bridge.rowcol_eq tok, Cert.Bridge.mix_eq x ss mk, Cert.Bridge.mix_eq x ss mr]
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ideal pass rewrote nothing. -/
theorem preserves : Cert.preserves_Kernel_KernelIdeal := trivial

/-- Both idealized programs run, and from agreeing arguments end with the same two results. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨a0, a1, a2, a3, a4, a5, a6, a7⟩ := hagree c
    rw [a0, a1, a2, a3, a4, a5, a6, a7]
    exact result_eq _ _ _ _ _ _ _ _
  · rw [(hagree c).1]
    exact (Cert.Bridge.out68_eq _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
